-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S8192x512 .f32) (main_arg1 : FVec F S8192x8192 .f32) (main_arg2 : FVec F S512x512 .f32) (main_arg3 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S1x8192 : Shape := ⟨2, ![1, 8192]⟩
abbrev S1024x1024 : Shape := ⟨2, ![1024, 1024]⟩
abbrev S1x1024 : Shape := ⟨2, ![1, 1024]⟩
abbrev S1024 : Shape := ⟨1, ![1024]⟩
abbrev S1x512 : Shape := ⟨2, ![1, 512]⟩
abbrev S512x1024 : Shape := ⟨2, ![512, 1024]⟩
abbrev S1024x512 : Shape := ⟨2, ![1024, 512]⟩
abbrev S512x1 : Shape := ⟨2, ![512, 1]⟩

abbrev nBuf : Space → Nat
  | .hbm => 10
  | .vmem => 17
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x512, .f32⟩
  | .hbm, ⟨3, _⟩ => ⟨S512, .f32⟩
  | .hbm, ⟨4, _⟩ => ⟨S1x8192, .f32⟩
  | .hbm, ⟨5, _⟩ => ⟨S512x512, .f32⟩
  | .hbm, ⟨6, _⟩ => ⟨S512x512, .bf16⟩
  | .hbm, ⟨7, _⟩ => ⟨S8192x512, .bf16⟩
  | .hbm, ⟨8, _⟩ => ⟨S1x512, .f32⟩
  | .hbm, ⟨9, _⟩ => ⟨S8192x512, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S8192x512, .bf16⟩
  | .local _ .vmem, ⟨8, _⟩ => ⟨S1x512, .f32⟩
  | .local _ .vmem, ⟨9, _⟩ => ⟨S1x512, .f32⟩
  | .local _ .vmem, ⟨10, _⟩ => ⟨S1x1024, .f32⟩
  | .local _ .vmem, ⟨11, _⟩ => ⟨S1x1024, .f32⟩
  | .local _ .vmem, ⟨12, _⟩ => ⟨S512x512, .bf16⟩
  | .local _ .vmem, ⟨13, _⟩ => ⟨S1x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem5_0 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![16, 8], ![false, false]⟩

def k1_mult1 (i : grid1.Coords) : BitVec 32 :=
  let arg1 : BitVec 32 := BitVec.ofNat 32 (i 1).val
  let c1024_i32 : BitVec 32 := 1024#32
  let v9 : BitVec 32 := Scalar.muli arg1 c1024_i32
  v9
def k1_off1 (i : grid1.Coords) : Fin 2 → Nat :=
  let arg1 : BitVec 32 := BitVec.ofNat 32 (i 1).val
  let c1024_i32 : BitVec 32 := 1024#32
  let v9 : BitVec 32 := Scalar.muli arg1 c1024_i32
  let v10 : BitVec 32 := v9
  let v11 : Index := Scalar.indexCast v10
  let c0_4 : Index := 0#32
  ![v11.toNat, 0]
def k1_cond2 (i : grid1.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_9 : BitVec 32 := 0#32
  let v22 : BitVec 1 := Scalar.cmpi .ne v21 c0_i32_9
  v22

def k1_mult2 (i : grid1.Coords) : BitVec 32 :=
  let arg0 : BitVec 32 := BitVec.ofNat 32 (i 0).val
  let c512_i32 : BitVec 32 := 512#32
  let v27 : BitVec 32 := Scalar.muli arg0 c512_i32
  v27
def k1_off2 (i : grid1.Coords) : Fin 2 → Nat :=
  let arg0 : BitVec 32 := BitVec.ofNat 32 (i 0).val
  let c512_i32 : BitVec 32 := 512#32
  let v27 : BitVec 32 := Scalar.muli arg0 c512_i32
  let v28 : BitVec 32 := v27
  let v29 : Index := Scalar.indexCast v28
  let c0_14 : Index := 0#32
  ![v29.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [0] S1024
  shapeCasts_S1024_S1x1024 : S1024.ShapeCasts S1x1024
  transposes_S512x512_S512x512_1_0 : S512x512.Transposes [1, 0] S512x512
  bitsLt_bf16_f32 : FTy.bits .bf16 < FTy.bits .f32
  shapeCasts_S512_S1x512 : S512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  broadcasts_S1x1024_S512x1024 : S1x1024.Broadcasts S512x1024
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  transposes_S1x512_p1_0_S512x1 : S1x512.Transposes [1, 0] S512x1
  broadcasts_S512x1_S512x512 : S512x1.Broadcasts S512x512
  broadcasts_S1x512_S512x512 : S1x512.Broadcasts S512x512
  dot_S512x1024_S1024x512_S512x512_1_0_0_1_n_n_wf : DotDims.WF S512x1024 S1024x512 S512x512 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .f32 = 32 ∨ (Rect.block (s := S1x8192) S1x1024.size (cc0_transform_1 i) (hinb0_1 i)).WholeWords (EltTy.packing .f32)
  hrank1 : 0 < grid1.rank
  k1_mult1_dvd : ∀ i : grid1.Coords, 16 ∣ (k1_mult1 i).toNat
  k1_off1_inb : ∀ i : grid1.Coords, ∀ a, (k1_off1 i) a + S1024x512.size a ≤ S8192x512.size a
  k1_mult2_dvd : ∀ i : grid1.Coords, ∀ (k1_h2 : k1_cond2 i = 1#1), 16 ∣ (k1_mult2 i).toNat
  k1_off2_inb : ∀ i : grid1.Coords, ∀ (k1_h2 : k1_cond2 i = 1#1), ∀ a, (k1_off2 i) a + S512x512.size a ≤ S8192x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x8192.size a
  hwx1_0 : ∀ i : grid1.Coords, EltTy.bits .f32 = 32 ∨ (Rect.block (s := S8192x8192) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x512.size a ≤ S8192x512.size a
  hwx1_1 : ∀ i : grid1.Coords, EltTy.bits .bf16 = 32 ∨ (Rect.block (s := S8192x512) S8192x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x8192.size a
  hwx1_2 : ∀ i : grid1.Coords, EltTy.bits .f32 = 32 ∨ (Rect.block (s := S1x8192) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .f32 = 32 ∨ (Rect.block (s := S1x8192) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .bf16 = 32 ∨ (Rect.block (s := S512x512) S512x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x512.size a ≤ S8192x512.size a
  hwx1_6 : ∀ i : grid1.Coords, EltTy.bits .f32 = 32 ∨ (Rect.block (s := S8192x512) S512x512.size (cc1_transform_6 i) (hinb1_6 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S8192x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S512x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x512 : Shape := ⟨2, ![1, 512]⟩

abbrev nBuf : Space → Nat
  | .hbm => 38
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x512, .f32⟩
  | .hbm, ⟨3, _⟩ => ⟨S512, .f32⟩
  | .hbm, ⟨4, _⟩ => ⟨S8192x8192, .i32⟩
  | .hbm, ⟨5, _⟩ => ⟨S8192x8192, .i32⟩
  | .hbm, ⟨6, _⟩ => ⟨S_, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .i1⟩
  | .hbm, ⟨21, _⟩ => ⟨S_, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192x1, .f32⟩
  | .hbm, ⟨26, _⟩ => ⟨S8192x8192, .f32⟩
  | .hbm, ⟨27, _⟩ => ⟨S8192x8192, .f32⟩
  | .hbm, ⟨28, _⟩ => ⟨S1x8192, .f32⟩
  | .hbm, ⟨29, _⟩ => ⟨S8192x8192, .f32⟩
  | .hbm, ⟨30, _⟩ => ⟨S8192x8192, .f32⟩
  | .hbm, ⟨31, _⟩ => ⟨S8192x512, .f32⟩
  | .hbm, ⟨32, _⟩ => ⟨S512x512, .f32⟩
  | .hbm, ⟨33, _⟩ => ⟨S8192x512, .f32⟩
  | .hbm, ⟨34, _⟩ => ⟨S1x512, .f32⟩
  | .hbm, ⟨35, _⟩ => ⟨S8192x512, .f32⟩
  | .hbm, ⟨36, _⟩ => ⟨S8192x512, .f32⟩
  | .hbm, ⟨37, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_v10 : Ref sig .tc := ⟨.hbm, 20, rfl⟩
abbrev main_cst_1 : Ref sig .tc := ⟨.hbm, 21, rfl⟩
abbrev main_call1_v0 : Ref sig .tc := ⟨.hbm, 22, rfl⟩
abbrev main_call1_v1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d0 : S8192x8192.ReducesTo [0] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S512x512_S512x512_1_0 : S512x512.Transposes [1, 0] S512x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  dot_S8192x8192_S8192x512_S8192x512_1_0_0_1_n_n_wf : DotDims.WF S8192x8192 S8192x512 S8192x512 [1] [0] [0] [1] [] []
  dot_S8192x512_S512x512_S8192x512_1_0_0_1_n_n_wf : DotDims.WF S8192x512 S512x512 S8192x512 [1] [0] [0] [1] [] []

variable [Facts₀]

def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf

class Facts : Prop extends Facts₀ where

variable [Facts]
-- ==== Proof.Run.lean ====
/-
  The whole program as two kernel regions around one stretch of host operations: the contents of every
  array of @main at each boundary, the two regions as segments entered from and left at those contents,
  and the run — every weakly fair execution terminates with every array of @main at the last boundary's
  contents. The two regions' proof data enter as records (what each region's body obligation, entry and
  exit lemmas state), so this module does not depend on how the bodies are run.

  Region 1 reads one array (the normalising factors) through two windows: its full share is split in
  two halves at the region's entry, one per window, and joined again at the exit.
-/
import proofs.«104315_j2027224564458_2_alg».proof.Proof.Gen.KernelIdeal.Launch
import proofs.«104315_j2027224564458_2_alg».proof.Proof.Gen.KernelIdeal.Points
import proofs.«104315_j2027224564458_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of every TensorCore array as a region finds them. -/
abbrev Entry (F : FTy → Type) : Type := (c : Dev nD) → (b : Ref sig .tc) → Buf (Elt F) ((c : Thread nD τ).loc b)

/-- The shares region 1 holds its input arrays at: the factors' array is read through windows 2 and 3, half each. -/
def gcnShare : Fin cfg1.W → PosShare TreeShare
  | ⟨0, _⟩ => fullShare
  | ⟨1, _⟩ => fullShare
  | ⟨2, _⟩ => fullShare.left
  | ⟨3, _⟩ => fullShare.right
  | ⟨4, _⟩ => fullShare
  | ⟨5, _⟩ => fullShare
  | ⟨6, _⟩ => fullShare

/-- What region 0's proof states, at any entry contents. -/
structure DegRegion (F : FTy → Type) [FloatOps F] where
  dat : Entry F → (c : Dev nD) → Dat τ (Elt F) Unit ℕ (UR sig nD τ) ℕ cfg0 c
  A_eq : ∀ V c w, (dat V c).A w = V c (Pipeline.arrRef spec0 w)
  q_eq : ∀ V c w, (dat V c).q w = fullShare
  owed_eq : ∀ V c t, (dat V c).owed t = 0
  recorded_eq : ∀ V c t, (dat V c).recorded t = Set.univ
  body : ∀ V c, BodyObligation (dat V c) (defs₀ (F := F)) Variants.none () Set.univ
  hin : ∀ V c, (Pipeline.ΦA spec0 c : sProp (MT nD τ sig Unit (Elt F) ℕ (UR sig nD τ) ℕ)) ⊢ (dat V c).Φ 0
  hout : ∀ V c, (dat V c).Φ (Fin.last cfg0.N) ⊢ (Pipeline.ΦA spec0 c : sProp (MT nD τ sig Unit (Elt F) ℕ (UR sig nD τ) ℕ))

/-- What region 1's proof states, at any entry contents. -/
structure GcnRegion (F : FTy → Type) [FloatOps F] where
  dat : Entry F → (c : Dev nD) → Dat τ (Elt F) Unit ℕ (UR sig nD τ) ℕ cfg1 c
  A_eq : ∀ V c w, (dat V c).A w = V c (Pipeline.arrRef spec1 w)
  q_eq : ∀ V c w, (dat V c).q w = gcnShare w
  owed_eq : ∀ V c t, (dat V c).owed t = 0
  recorded_eq : ∀ V c t, (dat V c).recorded t = Set.univ
  body : ∀ V c, BodyObligation (dat V c) (defs₀ (F := F)) Variants.none () Set.univ
  hin : ∀ V c, (Pipeline.ΦA spec1 c : sProp (MT nD τ sig Unit (Elt F) ℕ (UR sig nD τ) ℕ)) ⊢ (dat V c).Φ 0
  hout : ∀ V c, (dat V c).Φ (Fin.last cfg1.N) ⊢ (Pipeline.ΦA spec1 c : sProp (MT nD τ sig Unit (Elt F) ℕ (UR sig nD τ) ℕ))

section Boundaries

variable (R0 : DegRegion F) (R1 : GcnRegion F)
variable (m : (ℓ : Loc nD τ sig) → Buf (Elt F) ℓ) (ρ : Dev nD → PrngReg)

/-- Core `c`'s arrays at launch (region 0's entry). -/
abbrev W0 : Dev nD → Valuation τ sig (Elt F) := fun c b => m (c, b)
/-- The same read at the TensorCore's references. -/
abbrev E0 : Entry F := fun c b => W0 m c b

/-- At region 0's exit: the factors' array at what the region's write-backs leave, every other array as launched. -/
def W1 (c : Dev nD) : Valuation τ sig (Elt F) :=
  Function.update (W0 m c) main_v0 ((R0.dat (E0 m) c).arrAt 1 cfg0.N)

/-- After the host stretch (region 1's entry). -/
abbrev W2 : Dev nD → Valuation τ sig (Elt F) := fun c => StableHlo.after hostOps1 (W1 R0 m c)
abbrev E2 : Entry F := fun c b => W2 R0 m c b

/-- At region 1's exit: the result array at what the region's write-backs leave, every other array as entered. -/
def W3 (c : Dev nD) : Valuation τ sig (Elt F) :=
  Function.update (W2 R0 m c) main_v5 ((R1.dat (E2 R0 m) c).arrAt 6 cfg1.N)

theorem W1_v0 (c : Dev nD) : W1 R0 m c main_v0 = (R0.dat (E0 m) c).arrAt 1 cfg0.N := by
  unfold W1; exact Function.update_self ..
theorem W1_of_ne (c : Dev nD) (b : Ref sig .tc) (h : b ≠ main_v0) : W1 R0 m c b = W0 m c b := by
  unfold W1; exact Function.update_of_ne (StableHlo.devRef_ne_of_ne h) ..
theorem W3_v5 (c : Dev nD) : W3 R0 R1 m c main_v5 = (R1.dat (E2 R0 m) c).arrAt 6 cfg1.N := by
  unfold W3; exact Function.update_self ..
theorem W3_of_ne (c : Dev nD) (b : Ref sig .tc) (h : b ≠ main_v5) : W3 R0 R1 m c b = W2 R0 m c b := by
  unfold W3; exact Function.update_of_ne (StableHlo.devRef_ne_of_ne h) ..

/-- The unscoped arrays of a core, one by one. -/
theorem held_chain (c : Dev nD) (W : Valuation τ sig (Elt F)) :
    (StableHlo.held (c : Thread nD τ) (Pipeline.ucRefs τ sig) W : sProp 𝕄)
      = iprop((((c : Thread nD τ).loc main_arg0) ↦{fullShare} W main_arg0) ∗ (((c : Thread nD τ).loc main_arg1) ↦{fullShare} W main_arg1)
          ∗ (((c : Thread nD τ).loc main_arg2) ↦{fullShare} W main_arg2) ∗ (((c : Thread nD τ).loc main_arg3) ↦{fullShare} W main_arg3)
          ∗ (((c : Thread nD τ).loc main_v0) ↦{fullShare} W main_v0) ∗ (((c : Thread nD τ).loc main_v1) ↦{fullShare} W main_v1)
          ∗ (((c : Thread nD τ).loc main_v2) ↦{fullShare} W main_v2) ∗ (((c : Thread nD τ).loc main_v3) ↦{fullShare} W main_v3)
          ∗ (((c : Thread nD τ).loc main_v4) ↦{fullShare} W main_v4) ∗ (((c : Thread nD τ).loc main_v5) ↦{fullShare} W main_v5)) := by
  rw [← Pipeline.unscopedBufs_held (Ix := Unit) (Name := ℕ) (U := UR sig nD τ) (Lvl := ℕ) c W]
  unfold unscopedBufs
  exact bigSep_eq_bigSepL_of_eq [main_arg0, main_arg1, main_arg2, main_arg3, main_v0, main_v1, main_v2, main_v3, main_v4, main_v5]
    (by decide) (by decide) _

end Boundaries

section Segments

variable (R0 : DegRegion F) (R1 : GcnRegion F)
variable (m : (ℓ : Loc nD τ sig) → Buf (Elt F) ℓ) (ρ : Dev nD → PrngReg)

/-- Region 0's arrays one by one: the adjacency matrix (read) and the factors (written), both whole. -/
theorem deg_arrays (V : Entry F) (c : Dev nD) (Fc : (w : Fin cfg0.W) → Buf (Elt F) ((cfg0.win w).arr.view.loc (c.tc : Thread nD τ))) :
    ((R0.dat V c).arrays Fc : sProp 𝕄)
      = iprop((((c : Thread nD τ).loc main_arg1) ↦{fullShare} Fc 0) ∗ (((c : Thread nD τ).loc main_v0) ↦{fullShare} Fc 1)) := by
  unfold Dat.arrays
  rw [bigSep_W0]
  rw [(R0.dat V c).share_full (R0.q_eq V c) 0, (R0.dat V c).share_full (R0.q_eq V c) 1, (arr_whole0 0).set_eq_univ, (arr_whole0 1).set_eq_univ]

theorem gcn_share (V : Entry F) (c : Dev nD) (w : Fin cfg1.W) : (R1.dat V c).share w = gcnShare w := by
  unfold Dat.share; rw [R1.q_eq V c w]; fin_cases w <;> rfl

/-- Region 1's arrays one by one: the factors' array appears twice, at the two halves of its share. -/
theorem gcn_arrays (V : Entry F) (c : Dev nD) (Fc : (w : Fin cfg1.W) → Buf (Elt F) ((cfg1.win w).arr.view.loc (c.tc : Thread nD τ))) :
    ((R1.dat V c).arrays Fc : sProp 𝕄)
      = iprop((((c : Thread nD τ).loc main_arg1) ↦{fullShare} Fc 0) ∗ (((c : Thread nD τ).loc main_v3) ↦{fullShare} Fc 1)
          ∗ (((c : Thread nD τ).loc main_v0) ↦{fullShare.left} Fc 2) ∗ (((c : Thread nD τ).loc main_v0) ↦{fullShare.right} Fc 3)
          ∗ (((c : Thread nD τ).loc main_v2) ↦{fullShare} Fc 4) ∗ (((c : Thread nD τ).loc main_v4) ↦{fullShare} Fc 5)
          ∗ (((c : Thread nD τ).loc main_v5) ↦{fullShare} Fc 6)) := by
  unfold Dat.arrays
  rw [bigSep_W1]
  rw [gcn_share R1 V c 0, gcn_share R1 V c 1, gcn_share R1 V c 2, gcn_share R1 V c 3, gcn_share R1 V c 4, gcn_share R1 V c 5, gcn_share R1 V c 6,
    (arr_whole1 0).set_eq_univ, (arr_whole1 1).set_eq_univ, (arr_whole1 2).set_eq_univ,
    (arr_whole1 4).set_eq_univ, (arr_whole1 5).set_eq_univ, (arr_whole1 6).set_eq_univ]
  all_goals rfl

end Segments

section Protocol

variable (R0 : DegRegion F) (R1 : GcnRegion F)
variable (m : (ℓ : Loc nD τ sig) → Buf (Elt F) ℓ) (ρ : Dev nD → PrngReg)

abbrev adm : (p : Fin 2) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the arrays through every segment: the generator register at some state, nothing owed. -/
abbrev Rest (c : Dev nD) : sProp 𝕄 := iprop((∃ r, prngReg c r) ∗ ∃ W, owes (c : Thread nD τ) (0 : CellTallies nD τ sig Unit) W)

/-- The arrays region 0 does not touch, at contents `W`. -/
abbrev degBypass (c : Dev nD) (W : Valuation τ sig (Elt F)) : sProp 𝕄 :=
  iprop((((c : Thread nD τ).loc main_arg0) ↦{fullShare} W main_arg0) ∗ (((c : Thread nD τ).loc main_arg2) ↦{fullShare} W main_arg2)
    ∗ (((c : Thread nD τ).loc main_arg3) ↦{fullShare} W main_arg3) ∗ (((c : Thread nD τ).loc main_v1) ↦{fullShare} W main_v1)
    ∗ (((c : Thread nD τ).loc main_v2) ↦{fullShare} W main_v2) ∗ (((c : Thread nD τ).loc main_v3) ↦{fullShare} W main_v3)
    ∗ (((c : Thread nD τ).loc main_v4) ↦{fullShare} W main_v4) ∗ (((c : Thread nD τ).loc main_v5) ↦{fullShare} W main_v5))

/-- The arrays region 1 does not touch, at contents `W`. -/
abbrev gcnBypass (c : Dev nD) (W : Valuation τ sig (Elt F)) : sProp 𝕄 :=
  iprop((((c : Thread nD τ).loc main_arg0) ↦{fullShare} W main_arg0) ∗ (((c : Thread nD τ).loc main_arg2) ↦{fullShare} W main_arg2)
    ∗ (((c : Thread nD τ).loc main_arg3) ↦{fullShare} W main_arg3) ∗ (((c : Thread nD τ).loc main_v1) ↦{fullShare} W main_v1))

theorem prefHeld_none (c : Dev nD) (p : Fin 2) :
    (BI.emp : sProp 𝕄) ⊢ Pipeline.prefHeld (pcfgs (F := F) p).pre c (fun _ => fullShare) (adm (F := F) p).1 := by
  unfold Pipeline.prefHeld; rw [show (Finset.univ : Finset (Fin 0)) = ∅ from rfl, BI.bigSep_empty]

/-- ENTRY of region 0: the adjacency matrix and the factors' array go to the pipeline, the generator register to
    its invariant, the other arrays bypass it. -/
theorem deg_entry (c : Dev nD) :
    iprop(iprop(StableHlo.held (c : Thread nD τ) (Pipeline.ucRefs τ sig) (W0 m c) ∗ Rest c) ∗ Pipeline.ownSems0 (fun k : PEmpty => k.elim) c ∗ (levAts L lv : sProp 𝕄))
      ⊢ |={Set.univ}=> iprop((R0.dat (E0 m) c).arrays ((R0.dat (E0 m) c).arrAt · 0)
          ∗ Pipeline.prefHeld (pcfgs (F := F) 0).pre c (fun _ => fullShare) (adm (F := F) 0).1
          ∗ (R0.dat (E0 m) c).owesAt () 0 ∗ iprop(∃ r, prngReg c r) ∗ degBypass c (W0 m c)) := by
  rw [deg_arrays R0 (E0 m) c, held_chain c (W0 m c)]
  iintro ⟨⟨⟨Ha0, Ha1, Ha2, Ha3, Hv0, Hv1, Hv2, Hv3, Hv4, Hv5⟩, Hp, HO⟩, -, -⟩
  imodintro
  isplitl [Ha1 Hv0]
  · isplitl [Ha1]
    · rw [show (R0.dat (E0 m) c).arrAt 0 0 = W0 m c main_arg1 from R0.A_eq (E0 m) c 0]; iexact Ha1
    · rw [show (R0.dat (E0 m) c).arrAt 1 0 = W0 m c main_v0 from R0.A_eq (E0 m) c 1]; iexact Hv0
  isplitr; · iapply (prefHeld_none c 0); iempintro
  isplitl [HO]
  · unfold Pipeline.Dat.owesAt Pipeline.owesWithin
    icases HO with ⟨%W, HO⟩; iexists W; isplitr; · ipureintro; unfold Pipeline.Dat.bound; rw [R0.recorded_eq]; exact fun _ _ => Or.inl trivial
    rw [R0.owed_eq]; iexact HO
  isplitl [Hp]; · iexact Hp
  isplitl [Ha0]; · iexact Ha0
  isplitl [Ha2]; · iexact Ha2
  isplitl [Ha3]; · iexact Ha3
  isplitl [Hv1]; · iexact Hv1
  isplitl [Hv2]; · iexact Hv2
  isplitl [Hv3]; · iexact Hv3
  isplitl [Hv4]; · iexact Hv4
  iexact Hv5

end Protocol

section Protocol2

variable (R0 : DegRegion F) (R1 : GcnRegion F)
variable (m : (ℓ : Loc nD τ sig) → Buf (Elt F) ℓ) (ρ : Dev nD → PrngReg)

/-- The invariant of region 0 at its first point: the generator register and the scoped buffers no window stages. -/
theorem deg_in (c : Dev nD) :
    iprop(iprop(∃ r, prngReg c r) ∗ Pipeline.prefHeld (pcfgs (F := F) 0).pre c (fun _ => fullShare) (adm (F := F) 0).1 ∗ (Pipeline.scopedRest spec0 c : sProp 𝕄))
      ⊢ (R0.dat (E0 m) c).Φ 0 := by
  refine .trans ?_ (R0.hin (E0 m) c)
  unfold Pipeline.ΦA
  iintro ⟨Hp, -, Hr⟩
  isplitl [Hr]; · iexact Hr
  iexact Hp

theorem deg_out (c : Dev nD) :
    (R0.dat (E0 m) c).Φ (Fin.last cfg0.N)
      ⊢ iprop(iprop(∃ r, prngReg c r) ∗ Pipeline.ownSems0 (fun k : PEmpty => k.elim) c ∗ (Pipeline.scopedRest spec0 c : sProp 𝕄)) := by
  refine (R0.hout (E0 m) c).trans ?_
  rw [Pipeline.ownSems0_none]; unfold Pipeline.ΦA
  iintro ⟨Hr, Hp⟩
  isplitl [Hp]; · iexact Hp
  isplitr; · iempintro
  iexact Hr

/-- EXIT of region 0: the adjacency matrix as entered, the factors' array at what the write-backs leave, the
    bypassing arrays as they were: the arrays at the next boundary's contents. -/
theorem deg_exit (c : Dev nD) :
    iprop((R0.dat (E0 m) c).arrays ((R0.dat (E0 m) c).arrAt · cfg0.N) ∗ (R0.dat (E0 m) c).owesAt () (Fin.last cfg0.N)
        ∗ iprop(∃ r, prngReg c r) ∗ degBypass c (W0 m c))
      ⊢ |={Set.univ}=> iprop(StableHlo.held (c : Thread nD τ) (Pipeline.ucRefs τ sig) (W1 R0 m c) ∗ Rest c) := by
  rw [deg_arrays R0 (E0 m) c, held_chain c (W1 R0 m c)]
  rw [W1_v0, W1_of_ne R0 m c main_arg0 (by decide), W1_of_ne R0 m c main_arg1 (by decide), W1_of_ne R0 m c main_arg2 (by decide),
    W1_of_ne R0 m c main_arg3 (by decide), W1_of_ne R0 m c main_v1 (by decide), W1_of_ne R0 m c main_v2 (by decide),
    W1_of_ne R0 m c main_v3 (by decide), W1_of_ne R0 m c main_v4 (by decide), W1_of_ne R0 m c main_v5 (by decide)]
  rw [show (R0.dat (E0 m) c).arrAt 0 cfg0.N = W0 m c main_arg1 from ((R0.dat (E0 m) c).arrAt_in 0 rfl _).trans (R0.A_eq (E0 m) c 0)]
  unfold Pipeline.Dat.owesAt Pipeline.owesWithin
  rw [R0.owed_eq]
  iintro ⟨⟨Ha1, Hv0⟩, ⟨%W, -, HO⟩, Hp, Ha0, Ha2, Ha3, Hv1, Hv2, Hv3, Hv4, Hv5⟩
  imodintro
  isplitr [Hp HO]
  · isplitl [Ha0]; · iexact Ha0
    isplitl [Ha1]; · iexact Ha1
    isplitl [Ha2]; · iexact Ha2
    isplitl [Ha3]; · iexact Ha3
    isplitl [Hv0]; · iexact Hv0
    isplitl [Hv1]; · iexact Hv1
    isplitl [Hv2]; · iexact Hv2
    isplitl [Hv3]; · iexact Hv3
    isplitl [Hv4]; · iexact Hv4
    iexact Hv5
  isplitl [Hp]; · iexact Hp
  iexists W; iexact HO

/-- ENTRY of region 1: the factors' array is split in two halves, one for the window that reads a row tile's
    factors and one for the window that reads a column tile's. -/
theorem gcn_entry (c : Dev nD) :
    iprop(iprop(StableHlo.held (c : Thread nD τ) (Pipeline.ucRefs τ sig) (W2 R0 m c) ∗ Rest c) ∗ Pipeline.ownSems0 (fun k : PEmpty => k.elim) c ∗ (levAts L lv : sProp 𝕄))
      ⊢ |={Set.univ}=> iprop((R1.dat (E2 R0 m) c).arrays ((R1.dat (E2 R0 m) c).arrAt · 0)
          ∗ Pipeline.prefHeld (pcfgs (F := F) 1).pre c (fun _ => fullShare) (adm (F := F) 1).1
          ∗ (R1.dat (E2 R0 m) c).owesAt () 0 ∗ iprop(∃ r, prngReg c r) ∗ gcnBypass c (W2 R0 m c)) := by
  rw [gcn_arrays R1 (E2 R0 m) c, held_chain c (W2 R0 m c)]
  iintro ⟨⟨⟨Ha0, Ha1, Ha2, Ha3, Hv0, Hv1, Hv2, Hv3, Hv4, Hv5⟩, Hp, HO⟩, -, -⟩
  ihave Hv0 := (pointsTo_share (PosShare.mem_left_op_right fullShare)).1 $$ Hv0
  icases Hv0 with ⟨Hv0l, Hv0r⟩
  imodintro
  isplitl [Ha1 Hv3 Hv0l Hv0r Hv2 Hv4 Hv5]
  · isplitl [Ha1]
    · rw [show (R1.dat (E2 R0 m) c).arrAt 0 0 = W2 R0 m c main_arg1 from R1.A_eq (E2 R0 m) c 0]; iexact Ha1
    isplitl [Hv3]
    · rw [show (R1.dat (E2 R0 m) c).arrAt 1 0 = W2 R0 m c main_v3 from R1.A_eq (E2 R0 m) c 1]; iexact Hv3
    isplitl [Hv0l]
    · rw [show (R1.dat (E2 R0 m) c).arrAt 2 0 = W2 R0 m c main_v0 from R1.A_eq (E2 R0 m) c 2]; iexact Hv0l
    isplitl [Hv0r]
    · rw [show (R1.dat (E2 R0 m) c).arrAt 3 0 = W2 R0 m c main_v0 from R1.A_eq (E2 R0 m) c 3]; iexact Hv0r
    isplitl [Hv2]
    · rw [show (R1.dat (E2 R0 m) c).arrAt 4 0 = W2 R0 m c main_v2 from R1.A_eq (E2 R0 m) c 4]; iexact Hv2
    isplitl [Hv4]
    · rw [show (R1.dat (E2 R0 m) c).arrAt 5 0 = W2 R0 m c main_v4 from R1.A_eq (E2 R0 m) c 5]; iexact Hv4
    · rw [show (R1.dat (E2 R0 m) c).arrAt 6 0 = W2 R0 m c main_v5 from R1.A_eq (E2 R0 m) c 6]; iexact Hv5
  isplitr; · iapply (prefHeld_none c 1); iempintro
  isplitl [HO]
  · unfold Pipeline.Dat.owesAt Pipeline.owesWithin
    icases HO with ⟨%W, HO⟩; iexists W; isplitr; · ipureintro; unfold Pipeline.Dat.bound; rw [R1.recorded_eq]; exact fun _ _ => Or.inl trivial
    rw [R1.owed_eq]; iexact HO
  isplitl [Hp]; · iexact Hp
  isplitl [Ha0]; · iexact Ha0
  isplitl [Ha2]; · iexact Ha2
  isplitl [Ha3]; · iexact Ha3
  iexact Hv1

theorem gcn_in (c : Dev nD) :
    iprop(iprop(∃ r, prngReg c r) ∗ Pipeline.prefHeld (pcfgs (F := F) 1).pre c (fun _ => fullShare) (adm (F := F) 1).1 ∗ (Pipeline.scopedRest spec1 c : sProp 𝕄))
      ⊢ (R1.dat (E2 R0 m) c).Φ 0 := by
  refine .trans ?_ (R1.hin (E2 R0 m) c)
  unfold Pipeline.ΦA
  iintro ⟨Hp, -, Hr⟩
  isplitl [Hr]; · iexact Hr
  iexact Hp

theorem gcn_out (c : Dev nD) :
    (R1.dat (E2 R0 m) c).Φ (Fin.last cfg1.N)
      ⊢ iprop(iprop(∃ r, prngReg c r) ∗ Pipeline.ownSems0 (fun k : PEmpty => k.elim) c ∗ (Pipeline.scopedRest spec1 c : sProp 𝕄)) := by
  refine (R1.hout (E2 R0 m) c).trans ?_
  rw [Pipeline.ownSems0_none]; unfold Pipeline.ΦA
  iintro ⟨Hr, Hp⟩
  isplitl [Hp]; · iexact Hp
  isplitr; · iempintro
  iexact Hr

/-- EXIT of region 1: every input array as entered (the two halves of the factors' array joined), the result
    array at what the write-backs leave. -/
theorem gcn_exit (c : Dev nD) :
    iprop((R1.dat (E2 R0 m) c).arrays ((R1.dat (E2 R0 m) c).arrAt · cfg1.N) ∗ (R1.dat (E2 R0 m) c).owesAt () (Fin.last cfg1.N)
        ∗ iprop(∃ r, prngReg c r) ∗ gcnBypass c (W2 R0 m c))
      ⊢ |={Set.univ}=> iprop(iprop(StableHlo.held (c : Thread nD τ) (Pipeline.ucRefs τ sig) (W3 R0 R1 m c) ∗ ∃ r, prngReg c r)
          ∗ ∃ W, owes (c : Thread nD τ) (0 : CellTallies nD τ sig Unit) W) := by
  rw [gcn_arrays R1 (E2 R0 m) c, held_chain c (W3 R0 R1 m c)]
  rw [W3_v5, W3_of_ne R0 R1 m c main_arg0 (by decide), W3_of_ne R0 R1 m c main_arg1 (by decide), W3_of_ne R0 R1 m c main_arg2 (by decide),
    W3_of_ne R0 R1 m c main_arg3 (by decide), W3_of_ne R0 R1 m c main_v0 (by decide), W3_of_ne R0 R1 m c main_v1 (by decide),
    W3_of_ne R0 R1 m c main_v2 (by decide), W3_of_ne R0 R1 m c main_v3 (by decide), W3_of_ne R0 R1 m c main_v4 (by decide)]
  rw [show (R1.dat (E2 R0 m) c).arrAt 0 cfg1.N = W2 R0 m c main_arg1 from ((R1.dat (E2 R0 m) c).arrAt_in 0 rfl _).trans (R1.A_eq (E2 R0 m) c 0),
    show (R1.dat (E2 R0 m) c).arrAt 1 cfg1.N = W2 R0 m c main_v3 from ((R1.dat (E2 R0 m) c).arrAt_in 1 rfl _).trans (R1.A_eq (E2 R0 m) c 1),
    show (R1.dat (E2 R0 m) c).arrAt 2 cfg1.N = W2 R0 m c main_v0 from ((R1.dat (E2 R0 m) c).arrAt_in 2 rfl _).trans (R1.A_eq (E2 R0 m) c 2),
    show (R1.dat (E2 R0 m) c).arrAt 3 cfg1.N = W2 R0 m c main_v0 from ((R1.dat (E2 R0 m) c).arrAt_in 3 rfl _).trans (R1.A_eq (E2 R0 m) c 3),
    show (R1.dat (E2 R0 m) c).arrAt 4 cfg1.N = W2 R0 m c main_v2 from ((R1.dat (E2 R0 m) c).arrAt_in 4 rfl _).trans (R1.A_eq (E2 R0 m) c 4),
    show (R1.dat (E2 R0 m) c).arrAt 5 cfg1.N = W2 R0 m c main_v4 from ((R1.dat (E2 R0 m) c).arrAt_in 5 rfl _).trans (R1.A_eq (E2 R0 m) c 5)]
  unfold Pipeline.Dat.owesAt Pipeline.owesWithin
  rw [R1.owed_eq]
  iintro ⟨⟨Ha1, Hv3, Hv0l, Hv0r, Hv2, Hv4, Hv5⟩, ⟨%W, -, HO⟩, Hp, Ha0, Ha2, Ha3, Hv1⟩
  ihave Hv0 := (pointsTo_share (PosShare.mem_left_op_right fullShare)).2 $$ [Hv0l Hv0r]
  · isplitl [Hv0l] <;> iassumption
  imodintro
  isplitr [HO]
  · isplitr [Hp]
    · isplitl [Ha0]; · iexact Ha0
      isplitl [Ha1]; · iexact Ha1
      isplitl [Ha2]; · iexact Ha2
      isplitl [Ha3]; · iexact Ha3
      isplitl [Hv0]; · iexact Hv0
      isplitl [Hv1]; · iexact Hv1
      isplitl [Hv2]; · iexact Hv2
      isplitl [Hv3]; · iexact Hv3
      isplitl [Hv4]; · iexact Hv4
      iexact Hv5
    iexact Hp
  iexists W; iexact HO

end Protocol2

section TheRun

variable (R0 : DegRegion F) (R1 : GcnRegion F)
variable (m : (ℓ : Loc nD τ sig) → Buf (Elt F) ℓ) (ρ : Dev nD → PrngReg)

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => R0.dat (E0 m) c
  | ⟨1, _⟩ => fun c => R1.dat (E2 R0 m) c

/-- The last thread state without the `owes`: every array at the last boundary's contents, the generator register. -/
abbrev Tₙ (c : Dev nD) : sProp 𝕄 := iprop(StableHlo.held (c : Thread nD τ) (Pipeline.ucRefs τ sig) (W3 R0 R1 m c) ∗ ∃ r, prngReg c r)

/-- The host stretch between the regions as a segment over all the arrays. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 R0 m) (fun c => Rest c)

set_option backward.isDefEq.respectTransparency.types false in
/-- Region 0 as a segment: entered from the launch contents, left with the factors' array written. -/
def reg0 : Pipeline.RegionSeg (pcfgs (F := F)) adm (pdats R0 R1 m) () defs₀ 𝒱₀ L lv 0 where
  win := launch0.win.to₀
  block_pos := launch0.block_pos
  stage_whole := launch0.stage_whole
  K := PEmpty
  osem k := k.elim
  ho := Pipeline.OwnSemFacts.none _
  hbody c := (R0.body (E0 m) c).loose
  hwaits := Pipeline.hwaits_of_owed_zero _ _ _ _ L lv 0 fun c t => R0.owed_eq (E0 m) c t
  pre c := iprop(StableHlo.held (c : Thread nD τ) (Pipeline.ucRefs τ sig) (W0 m c) ∗ Rest c)
  post c := iprop(StableHlo.held (c : Thread nD τ) (Pipeline.ucRefs τ sig) (W1 R0 m c) ∗ Rest c)
  X c := iprop(∃ r, prngReg c r)
  Y c := iprop(∃ r, prngReg c r)
  Z c := degBypass c (W0 m c)
  hentry c := deg_entry R0 m c
  hin c := deg_in R0 m c
  hout c := deg_out R0 m c
  hexit c := deg_exit R0 m c

set_option backward.isDefEq.respectTransparency.types false in
/-- Region 1 as a segment: entered from the contents the host stretch leaves, left with the result array written. -/
def reg1 : Pipeline.RegionSeg (pcfgs (F := F)) adm (pdats R0 R1 m) () defs₀ 𝒱₀ L lv 1 where
  win := winFacts₀1
  block_pos := block_pos1
  stage_whole := stage_whole1
  K := PEmpty
  osem k := k.elim
  ho := Pipeline.OwnSemFacts.none _
  hbody c := (R1.body (E2 R0 m) c).loose
  hwaits := Pipeline.hwaits_of_owed_zero _ _ _ _ L lv 1 fun c t => R1.owed_eq (E2 R0 m) c t
  pre c := iprop(StableHlo.held (c : Thread nD τ) (Pipeline.ucRefs τ sig) (W2 R0 m c) ∗ Rest c)
  post c := iprop(Tₙ R0 R1 m c ∗ ∃ W, owes (c : Thread nD τ) (0 : CellTallies nD τ sig Unit) W)
  X c := iprop(∃ r, prngReg c r)
  Y c := iprop(∃ r, prngReg c r)
  Z c := gcnBypass c (W2 R0 m c)
  hentry c := gcn_entry R0 R1 m c
  hin c := gcn_in R0 R1 m c
  hout c := gcn_out R0 R1 m c
  hexit c := gcn_exit R0 R1 m c

/-- @main's three segments in order. -/
abbrev segs : List (Pipeline.Seg (pcfgs (F := F)) adm (pdats R0 R1 m) () defs₀ 𝒱₀ L lv) :=
  [ .region (reg0 R0 R1 m), .host (hostSeg R0 m), .region (reg1 R0 R1 m) ]

theorem main_run (c : Dev nD) : main (F := F) c = Pipeline.Seg.run (segs R0 R1 m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting,
    and every final state holds every array of @main at the last boundary's contents. -/
theorem run : θ_run defs (onTc (τ := τ) (main (F := F))) ⟨m, fun _ => 0, ρ⟩
    (fun r => ∀ c : Dev nD, ∀ b ∈ Pipeline.ucRefs τ sig, r.2.mem (((c : Thread nD τ)).1, b) = W3 R0 R1 m c b) :=
  Pipeline.θ_run_regions_kit (pcfgs (F := F)) adm (pdats R0 R1 m) () cellOf_inj emb₁ defs₀ 𝒱₀ L lv m ρ main (segs R0 R1 m)
    (fun c Q => by rw [main_run R0 R1 m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Tₙ R0 R1 m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 R0 R1 m c b)
    (hfin := fun c s' => by
      iintro ⟨⟨Hh, -⟩, HSI⟩
      unfold StableHlo.held
      imodintro
      iapply (pointsTo_read_all (Pipeline.ucRefs τ sig) (fun b => (((c : Thread nD τ)).1, b)) (W3 R0 R1 m c) s')
      isplitl [Hh] <;> iassumption)
    (hQ := fun s h => h)

end TheRun

section Frame

variable (R0 : DegRegion F) (R1 : GcnRegion F)
variable (m : (ℓ : Loc nD τ sig) → Buf (Elt F) ℓ) (ρ : Dev nD → PrngReg)

/-- An array no region writes and no host operation writes ends as launched. -/
theorem W3_kept (c : Dev nD) (b : Ref sig .tc) (h5 : b ≠ main_v5) (hW : b ∉ hostOps1_W) (h0 : b ≠ main_v0) :
    W3 R0 R1 m c b = m ((c : Thread nD τ).loc b) :=
  (W3_of_ne R0 R1 m c b h5).trans <| (StableHlo.after_of_writes_sub hostOps1 _ hostOps1_writes hW).trans <|
    (W1_of_ne R0 m c b h0).trans rfl

include R0 R1 in
/-- THE FRAME: every weakly fair execution terminates, nothing faulting, with the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_kept R0 R1 m c main_arg0 (by decide) (by decide) (by decide)),
     (h c _ (mem_uc main_arg1 (by decide))).trans (W3_kept R0 R1 m c main_arg1 (by decide) (by decide) (by decide)),
     (h c _ (mem_uc main_arg2 (by decide))).trans (W3_kept R0 R1 m c main_arg2 (by decide) (by decide) (by decide)),
     (h c _ (mem_uc main_arg3 (by decide))).trans (W3_kept R0 R1 m c main_arg3 (by decide) (by decide) (by decide))⟩)
    (run R0 R1 m ρ)

/-- The result array after the run: what region 1's write-backs leave. -/
theorem result (r : PUnit × MemSt nD τ sig (Elt F)) (h : ∀ c : Dev nD, ∀ b ∈ Pipeline.ucRefs τ sig, r.2.mem (((c : Thread nD τ)).1, b) = W3 R0 R1 m c b)
    (c : Dev nD) : r.2.mem ((c.tc : Thread nD τ).loc main_v5) = (R1.dat (E2 R0 m) c).arrAt 6 cfg1.N :=
  (h c _ (mem_uc main_v5 (by decide))).trans (W3_v5 R0 R1 m c)

end Frame

end Cert.KernelIdeal.Run

end
-- ==== Proof.DegRuns.lean ====
/-
  The degree kernel, one grid point at a time. Its grid is 8 column tiles by 8 row tiles of the adjacency matrix
  (point t = 8·j + i, column tile j, row tile i). A scratch row of 1024 entries carries the partial column sums down
  one column of tiles: at the first row tile it is set to zero, at every row tile the column sums of the current
  1024×1024 tile are added to it, and at the last row tile the normalising factor of (sum + 1) is stored to the output
  row. So a point is in one of three cases — first row tile, a middle one, the last — and this module runs the body
  once per case on arbitrary whole memrefs: what each case leaves in the scratch row and in the output row, as the
  list of stores the run finds.
-/
import proofs.«104315_j2027224564458_2_alg».proof.Proof.Gen.KernelIdeal.Launch
import proofs.«104315_j2027224564458_2_alg».proof.Proof.Gen.KernelIdeal.Skeleton
import proofs.«104315_j2027224564458_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Deg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Which row tile a point is at -/

/-- The point is at the first row tile: the body's first conditional (the zeroing of the scratch row) is taken. -/
abbrev atFirstRow (i : grid0.Coords) : Prop := (Scalar.cmpi .ne (Scalar.extui (Scalar.cmpi .eq (BitVec.ofNat 32 (i 1).val) 0#32)) 0#32) = 1#1
/-- That is at the points ≡ 0 (mod 8). -/
theorem atFirstRow_iff : ∀ t : Fin cfg0.N, atFirstRow (grid0.coords t) ↔ t.val % 8 = 0 :=
  (by decide +kernel : ∀ t : Fin grid0.N, atFirstRow (grid0.coords t) ↔ t.val % 8 = 0)

/-- The point is at the last row tile: the body's second conditional (the store of the normalising factor) is taken. -/
abbrev atLastRow (i : grid0.Coords) : Prop := k0_cond2 i = 1#1
/-- That is at the points ≡ 7 (mod 8). -/
theorem atLastRow_iff : ∀ t : Fin cfg0.N, atLastRow (grid0.coords t) ↔ t.val % 8 = 7 :=
  (by decide +kernel : ∀ t : Fin grid0.N, atLastRow (grid0.coords t) ↔ t.val % 8 = 7)

/-! ## Where the output row is idle -/

/-- The adjacency window is an input: never idle. -/
theorem adj_live : ∀ t : Fin cfg0.N, cfg0.idle 0 (grid0.coords t) = false := by decide +kernel
/-- Below the last row tile nothing is stored to the output row and it is not written back. -/
theorem out_idle_first : ∀ t : Fin cfg0.N, atFirstRow (grid0.coords t) → ¬atLastRow (grid0.coords t) → cfg0.idle 1 (grid0.coords t) = true := by decide +kernel
theorem out_noFlush_first : ∀ t : Fin cfg0.N, atFirstRow (grid0.coords t) → ¬atLastRow (grid0.coords t) → (cfg0.win 1).flush t = false := by decide +kernel
theorem out_idle_mid : ∀ t : Fin cfg0.N, ¬atFirstRow (grid0.coords t) → ¬atLastRow (grid0.coords t) → cfg0.idle 1 (grid0.coords t) = true := by decide +kernel
theorem out_noFlush_mid : ∀ t : Fin cfg0.N, ¬atFirstRow (grid0.coords t) → ¬atLastRow (grid0.coords t) → (cfg0.win 1).flush t = false := by decide +kernel
/-- At the last row tile the output row is stored. -/
theorem out_live_last : ∀ t : Fin cfg0.N, ¬atFirstRow (grid0.coords t) → atLastRow (grid0.coords t) → cfg0.idle 1 (grid0.coords t) = false := by decide +kernel

/-! ## The memrefs the body is called with -/

/-- One staging buffer of the output row, through which its contents are stated (the choice does not matter). -/
abbrev outView : View sig .tc .vmem S1x1024 .f32 := (Memref.whole cc0_stg1_0 : Memref sig .tc .vmem S1x1024 .f32).view
/-- The current staging memrefs at point `t`, as the pipeline passes them, and their wholeness. -/
abbrev adjStage (t : Fin cfg0.N) : Memref sig .tc .vmem S1024x1024 .f32 := win0_0.stage (cfg0.slots t 0)
abbrev adjStage_whole (t : Fin cfg0.N) : (adjStage t).IsWhole := hstage0_0 ((cfg0.slots t 0).cast nbuf0_0)
abbrev outStage (t : Fin cfg0.N) : Memref sig .tc .vmem S1x1024 .f32 := win0_1.stage (cfg0.slots t 1)
abbrev outStage_whole (t : Fin cfg0.N) : (outStage t).IsWhole := hstage0_1 ((cfg0.slots t 1).cast nbuf0_1)
/-- The scratch row, a whole scoped buffer of the kernel's own, and its view. -/
abbrev accRef : Memref sig .tc .vmem S1x1024 .f32 := Memref.whole cc0_scratch0
abbrev accView : View sig .tc .vmem S1x1024 .f32 := accRef.view

/-- The core's scoped buffers other than this call's staging buffers and its scratch row (the second call's staging
    buffers and scratch), each at some contents: carried through the region unopened. -/
abbrev othersRest (c : Dev nD) : sProp 𝕄 :=
  Pipeline.scopedRestBut (Ix := Unit) (Name := ℕ) (U := UR sig nD τ) (Lvl := ℕ) (Val := Elt F) spec0 c [cc0_scratch0]

/-- The region's class invariant with the scratch row split out as a memref owned at some contents. -/
theorem PhiA_eq (c : Dev nD) :
    (Pipeline.ΦA spec0 c : sProp 𝕄)
      = iprop(iprop((∃ d, owns (c : Thread nD τ) accRef fullShare d) ∗ othersRest (F := F) c) ∗ (∃ r, prngReg c r)) := by
  unfold Pipeline.ΦA
  rw [Pipeline.scopedRest_split_of_list spec0 c [cc0_scratch0] (by decide) (by decide)]
  simp only [accRef, owns_whole]; try rfl

/-! ## The body, case by case -/

set_option maxHeartbeats 1000000 in
/-- FIRST ROW TILE. The stores the body leaves in the output row (none) and in the scratch row (the zeroing, then the
    sum of the zero row and the tile's column sums), with the proof that on whole memrefs — the adjacency tile at `a`,
    the output row at `o` handed back untouched, the scratch row at anything — the body runs to a continuation that
    holds the tile as it was, the output row as it was and the scratch row with those stores written. -/
noncomputable def runFirst (c : Dev nD) (i : grid0.Coords) (adj : Memref sig .tc .vmem S1024x1024 .f32) (hadj : adj.IsWhole)
    (dm : Memref sig .tc .vmem S1x1024 .f32) (hdm : dm.IsWhole) (acc : Memref sig .tc .vmem S1x1024 .f32) (hacc : acc.IsWhole)
    (hf : atFirstRow i) (hl : ¬atLastRow i) (a : Vec F S1024x1024 .f32) :
    Σ' (Lout : List (View.Piece (Elt F) S1x1024 .f32)), { Lacc : List (View.Piece (Elt F) S1x1024 .f32) //
      ∀ (o : Vec F S1x1024 .f32) (E : Set ℕ) (K : PUnit → sProp 𝕄),
        iprop(owns (c : Thread nD τ) adj fullShare a ∗ owns (c : Thread nD τ) dm fullShare o ∗ (∃ d, owns (c : Thread nD τ) acc fullShare d)
            ∗ (iprop(owns (c : Thread nD τ) adj fullShare a ∗ owns (c : Thread nD τ) dm fullShare o ∗ (∃ f, acc.view.loc (c : Thread nD τ) ↦[acc.view.set]{fullShare} acc.view.writes (Elt F) f Lacc)) -∗ K ⟨⟩))
          ⊢ wp frame (wpE (defs₀ (F := F)) Variants.none c none) E (cc0__deg_kernel i adj hadj dm hdm acc hacc) K } := by
  refine ⟨[], ?_, fun o E K => ?run⟩
  case run =>
    simp only [cc0__deg_kernel_eq_skeleton]; unfold cc0__deg_kernel_skel
    unfold owns
    iintro ⟨⟨%f0, %hf0, H0⟩, ⟨%f1, %hf1, H1⟩, ⟨%ds0, %fs0, -, HS0⟩, Hk⟩
    obtain rfl := hadj.eq_unread hf0; obtain rfl := hdm.eq_unread hf1
    sl_exec (disch := first | exact hf | exact hl)
    sl_step
    iapply Hk
    isplitl [H0]
    · iexists _; isplitr; · ipureintro; exact hadj.read_unread _
      iexact H0
    isplitl [H1]
    · iexists _; isplitr; · ipureintro; exact hdm.read_unread _
      iexact H1
    iexists _; iexact HS0

set_option maxHeartbeats 1000000 in
/-- A MIDDLE ROW TILE. No store to the output row; one store to the scratch row: what the row tile before left in it
    (`s`) plus the tile's column sums. -/
noncomputable def runMid (c : Dev nD) (i : grid0.Coords) (adj : Memref sig .tc .vmem S1024x1024 .f32) (hadj : adj.IsWhole)
    (dm : Memref sig .tc .vmem S1x1024 .f32) (hdm : dm.IsWhole) (acc : Memref sig .tc .vmem S1x1024 .f32) (hacc : acc.IsWhole)
    (hf : ¬atFirstRow i) (hl : ¬atLastRow i) (a : Vec F S1024x1024 .f32) (s : Vec F S1x1024 .f32) :
    Σ' (Lout : List (View.Piece (Elt F) S1x1024 .f32)), { Lacc : List (View.Piece (Elt F) S1x1024 .f32) //
      ∀ (o : Vec F S1x1024 .f32) (E : Set ℕ) (K : PUnit → sProp 𝕄),
        iprop(owns (c : Thread nD τ) adj fullShare a ∗ owns (c : Thread nD τ) dm fullShare o ∗ owns (c : Thread nD τ) acc fullShare s
            ∗ (iprop(owns (c : Thread nD τ) adj fullShare a ∗ owns (c : Thread nD τ) dm fullShare o ∗ (∃ f, acc.view.loc (c : Thread nD τ) ↦[acc.view.set]{fullShare} acc.view.writes (Elt F) f Lacc)) -∗ K ⟨⟩))
          ⊢ wp frame (wpE (defs₀ (F := F)) Variants.none c none) E (cc0__deg_kernel i adj hadj dm hdm acc hacc) K } := by
  refine ⟨[], ?_, fun o E K => ?run⟩
  case run =>
    simp only [cc0__deg_kernel_eq_skeleton]; unfold cc0__deg_kernel_skel
    unfold owns
    iintro ⟨⟨%f0, %hf0, H0⟩, ⟨%f1, %hf1, H1⟩, ⟨%fs0, %hfs0, HS0⟩, Hk⟩
    obtain rfl := hadj.eq_unread hf0; obtain rfl := hdm.eq_unread hf1; obtain rfl := hacc.eq_unread hfs0
    sl_exec (disch := first | exact hf | exact hl)
    sl_step
    iapply Hk
    isplitl [H0]
    · iexists _; isplitr; · ipureintro; exact hadj.read_unread _
      iexact H0
    isplitl [H1]
    · iexists _; isplitr; · ipureintro; exact hdm.read_unread _
      iexact H1
    iexists _; iexact HS0

set_option maxHeartbeats 1000000 in
/-- THE LAST ROW TILE. One store to the scratch row (the carried sums `s` plus the tile's column sums) and one to the
    output row: the normalising factor of that total plus one. The output row is taken at anything. -/
noncomputable def runLast (c : Dev nD) (i : grid0.Coords) (adj : Memref sig .tc .vmem S1024x1024 .f32) (hadj : adj.IsWhole)
    (dm : Memref sig .tc .vmem S1x1024 .f32) (hdm : dm.IsWhole) (acc : Memref sig .tc .vmem S1x1024 .f32) (hacc : acc.IsWhole)
    (hf : ¬atFirstRow i) (hl : atLastRow i) (a : Vec F S1024x1024 .f32) (s : Vec F S1x1024 .f32) :
    Σ' (Lout : List (View.Piece (Elt F) S1x1024 .f32)), { Lacc : List (View.Piece (Elt F) S1x1024 .f32) //
      ∀ (E : Set ℕ) (K : PUnit → sProp 𝕄),
        iprop(owns (c : Thread nD τ) adj fullShare a ∗ (∃ d, owns (c : Thread nD τ) dm fullShare d) ∗ owns (c : Thread nD τ) acc fullShare s
            ∗ (iprop(owns (c : Thread nD τ) adj fullShare a ∗ (∃ f, dm.view.loc (c : Thread nD τ) ↦[dm.view.set]{fullShare} dm.view.writes (Elt F) f Lout) ∗ (∃ f, acc.view.loc (c : Thread nD τ) ↦[acc.view.set]{fullShare} acc.view.writes (Elt F) f Lacc)) -∗ K ⟨⟩))
          ⊢ wp frame (wpE (defs₀ (F := F)) Variants.none c none) E (cc0__deg_kernel i adj hadj dm hdm acc hacc) K } := by
  refine ⟨?_, ?_, fun E K => ?run⟩
  case run =>
    simp only [cc0__deg_kernel_eq_skeleton]; unfold cc0__deg_kernel_skel
    unfold owns
    iintro ⟨⟨%f0, %hf0, H0⟩, ⟨%d1, %f1, -, H1⟩, ⟨%fs0, %hfs0, HS0⟩, Hk⟩
    obtain rfl := hadj.eq_unread hf0; obtain rfl := hacc.eq_unread hfs0
    sl_exec (disch := first | exact hf | exact hl)
    sl_step
    iapply Hk
    isplitl [H0]
    · iexists _; isplitr; · ipureintro; exact hadj.read_unread _
      iexact H0
    isplitl [H1]; · iexists _; iexact H1
    iexists _; iexact HS0

end Cert.KernelIdeal.Deg

end
-- ==== Proof.DegBody.lean ====
/-
  The degree kernel's region as proof data for the pipeline. From the three runs of the body (first, middle, last row
  tile) this module states what the output row's staging buffer and the scratch row hold after every grid point —
  a recursion over the points in which the scratch row at a point is computed from what the point before left in it —
  carries the scratch row through the region's invariant, and proves the body obligation at a generic point by
  deciding which row tile the point is at. Everything is stated at a parameter `V`: the buffer contents when the
  region is entered.
-/
import proofs.«104315_j2027224564458_2_alg».proof.Proof.DegRuns

set_option maxRecDepth 16384

noncomputable section

namespace Cert.KernelIdeal.Deg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. For the adjacency window this is the
    1024×1024 tile at row tile `t % 8`, column tile `t / 8`. -/
def tileAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's current staging buffer holds its tile at every point, for any proof data whose array is
    `V`'s and whose body leaves the tile in place (the window is fetched at every point, uncut, never idle). -/
theorem before_adj_of {c : Dev nD} (dat : Dat τ (Elt F) Unit ℕ (UR sig nD τ) ℕ cfg0 c) (hA : dat.A 0 = V c (Pipeline.arrRef spec0 0))
    (hafter : ∀ t, dat.after 0 t = tileAt V c 0 t) (t : Fin cfg0.N) (d) : dat.before 0 t d = tileAt V c 0 t :=
  (dat.before_in_eq_fetched 0 rfl (fun _ => rfl) (fun _ _ _ => rfl) (fun t => by rw [hafter]; unfold Dat.blockOf tileAt; rw [hA]; try rfl) t d).trans
    (by unfold Dat.fetched Dat.blockOf tileAt; rw [hA]; try rfl)

/-! ## The three runs at a grid point -/

/-- The body's run at a point `t` of the first row tile: on the point's staging memrefs and the scratch row, the
    adjacency tile at its block. -/
abbrev firstAt (c : Dev nD) (t : Fin cfg0.N) (h0 : t.val % 8 = 0) (h7 : ¬t.val % 8 = 7) :=
  runFirst (F := F) c (grid0.coords t) (adjStage t) (adjStage_whole t) (outStage t) (outStage_whole t) accRef (Memref.isWhole_whole _)
    ((atFirstRow_iff t).mpr h0) (fun h => h7 ((atLastRow_iff t).mp h)) (tileAt V c 0 t)
/-- At a middle row tile, over the scratch row's contents `s`. -/
abbrev midAt (c : Dev nD) (t : Fin cfg0.N) (h0 : ¬t.val % 8 = 0) (h7 : ¬t.val % 8 = 7) (s : Vec F S1x1024 .f32) :=
  runMid (F := F) c (grid0.coords t) (adjStage t) (adjStage_whole t) (outStage t) (outStage_whole t) accRef (Memref.isWhole_whole _)
    (fun h => h0 ((atFirstRow_iff t).mp h)) (fun h => h7 ((atLastRow_iff t).mp h)) (tileAt V c 0 t) s
/-- At the last row tile, over the scratch row's contents `s`. -/
abbrev lastAt (c : Dev nD) (t : Fin cfg0.N) (h0 : ¬t.val % 8 = 0) (h7 : t.val % 8 = 7) (s : Vec F S1x1024 .f32) :=
  runLast (F := F) c (grid0.coords t) (adjStage t) (adjStage_whole t) (outStage t) (outStage_whole t) accRef (Memref.isWhole_whole _)
    (fun h => h0 ((atFirstRow_iff t).mp h)) ((atLastRow_iff t).mpr h7) (tileAt V c 0 t) s

/-! ## What each case leaves -/

/-- First row tile: nothing is stored to the output row (a placeholder nothing consults: the window is idle there). -/
def outAfterFirst (c : Dev nD) (t : Fin cfg0.N) (h0 : t.val % 8 = 0) (h7 : ¬t.val % 8 = 7) : Vec F S1x1024 .f32 :=
  outView.read (Elt F) (outView.writes (Elt F) outView.junk (firstAt V c t h0 h7).1)
/-- First row tile: the two stores to the scratch row tile it, so they cover it. -/
theorem accFirst_cover (c : Dev nD) (t : Fin cfg0.N) (h0 : t.val % 8 = 0) (h7 : ¬t.val % 8 = 7) (y : S1x1024.Idx) :
    ∃ pc ∈ (firstAt V c t h0 h7).2.1, y ∈ pc.1.set :=
  View.cover_of_tiledL (firstAt V c t h0 h7).2.1 S1x1024.size (by sl_kernel_rfl) y
/-- First row tile: the scratch row afterwards. -/
def accAfterFirst (c : Dev nD) (t : Fin cfg0.N) (h0 : t.val % 8 = 0) (h7 : ¬t.val % 8 = 7) : Vec F S1x1024 .f32 :=
  accView.read (Elt F) (accView.writes (Elt F) accView.junk (firstAt V c t h0 h7).2.1)

/-- Middle row tile: nothing is stored to the output row. -/
def outAfterMid (c : Dev nD) (t : Fin cfg0.N) (h0 : ¬t.val % 8 = 0) (h7 : ¬t.val % 8 = 7) (s : Vec F S1x1024 .f32) : Vec F S1x1024 .f32 :=
  outView.read (Elt F) (outView.writes (Elt F) outView.junk (midAt V c t h0 h7 s).1)
theorem accMid_cover (c : Dev nD) (t : Fin cfg0.N) (h0 : ¬t.val % 8 = 0) (h7 : ¬t.val % 8 = 7) (s : Vec F S1x1024 .f32) (y : S1x1024.Idx) :
    ∃ pc ∈ (midAt V c t h0 h7 s).2.1, y ∈ pc.1.set :=
  View.cover_of_tiledL (midAt V c t h0 h7 s).2.1 S1x1024.size (by sl_kernel_rfl) y
/-- Middle row tile: the scratch row afterwards. -/
def accAfterMid (c : Dev nD) (t : Fin cfg0.N) (h0 : ¬t.val % 8 = 0) (h7 : ¬t.val % 8 = 7) (s : Vec F S1x1024 .f32) : Vec F S1x1024 .f32 :=
  accView.read (Elt F) (accView.writes (Elt F) accView.junk (midAt V c t h0 h7 s).2.1)

/-- Last row tile: the one store to the output row covers it. -/
theorem outLast_cover (c : Dev nD) (t : Fin cfg0.N) (h0 : ¬t.val % 8 = 0) (h7 : t.val % 8 = 7) (s : Vec F S1x1024 .f32) (y : S1x1024.Idx) :
    ∃ pc ∈ (lastAt V c t h0 h7 s).1, y ∈ pc.1.set :=
  View.cover_of_tiledL (lastAt V c t h0 h7 s).1 S1x1024.size (by sl_kernel_rfl) y
/-- Last row tile: the output row afterwards. -/
def outAfterLast (c : Dev nD) (t : Fin cfg0.N) (h0 : ¬t.val % 8 = 0) (h7 : t.val % 8 = 7) (s : Vec F S1x1024 .f32) : Vec F S1x1024 .f32 :=
  outView.read (Elt F) (outView.writes (Elt F) outView.junk (lastAt V c t h0 h7 s).1)
theorem accLast_cover (c : Dev nD) (t : Fin cfg0.N) (h0 : ¬t.val % 8 = 0) (h7 : t.val % 8 = 7) (s : Vec F S1x1024 .f32) (y : S1x1024.Idx) :
    ∃ pc ∈ (lastAt V c t h0 h7 s).2.1, y ∈ pc.1.set :=
  View.cover_of_tiledL (lastAt V c t h0 h7 s).2.1 S1x1024.size (by sl_kernel_rfl) y
/-- Last row tile: the scratch row afterwards. -/
def accAfterLast (c : Dev nD) (t : Fin cfg0.N) (h0 : ¬t.val % 8 = 0) (h7 : t.val % 8 = 7) (s : Vec F S1x1024 .f32) : Vec F S1x1024 .f32 :=
  accView.read (Elt F) (accView.writes (Elt F) accView.junk (lastAt V c t h0 h7 s).2.1)

/-! ## The accumulation down a column of tiles -/

/-- What the output row's staging buffer and the scratch row hold after the body at position `n` (a pair, in that
    order): the case of `n`'s row tile, run over what position `n - 1` left in the scratch row. -/
def heldAt (c : Dev nD) : (n : ℕ) → n < cfg0.N → Vec F S1x1024 .f32 × Vec F S1x1024 .f32
  | 0, hn => (outAfterFirst V c ⟨0, hn⟩ (Nat.zero_mod _) (by intro h; simp at h), accAfterFirst V c ⟨0, hn⟩ (Nat.zero_mod _) (by intro h; simp at h))
  | n + 1, hn =>
    if h0 : (n + 1) % 8 = 0 then
      if h7 : (n + 1) % 8 = 7 then
        False.elim (by omega)
      else
        (outAfterFirst V c ⟨n + 1, hn⟩ h0 h7, accAfterFirst V c ⟨n + 1, hn⟩ h0 h7)
    else
      if h7 : (n + 1) % 8 = 7 then
        (outAfterLast V c ⟨n + 1, hn⟩ h0 h7 (heldAt c n (Nat.lt_of_succ_lt hn)).2, accAfterLast V c ⟨n + 1, hn⟩ h0 h7 (heldAt c n (Nat.lt_of_succ_lt hn)).2)
      else
        (outAfterMid V c ⟨n + 1, hn⟩ h0 h7 (heldAt c n (Nat.lt_of_succ_lt hn)).2, accAfterMid V c ⟨n + 1, hn⟩ h0 h7 (heldAt c n (Nat.lt_of_succ_lt hn)).2)

/-- At a point of the first row tile. -/
theorem heldAt_first (c : Dev nD) (t : Fin cfg0.N) (h0 : t.val % 8 = 0) (h7 : ¬t.val % 8 = 7) :
    heldAt V c t.val t.isLt = (outAfterFirst V c t h0 h7, accAfterFirst V c t h0 h7) := by
  obtain ⟨n, hn⟩ := t
  cases n with
  | zero => exact rfl
  | succ n => exact (dif_pos h0).trans ((dif_neg h7).trans rfl)

/-- At a point of a middle row tile: over what the point before left. -/
theorem heldAt_mid (c : Dev nD) (t : Fin cfg0.N) (h0 : ¬t.val % 8 = 0) (h7 : ¬t.val % 8 = 7) :
    heldAt V c t.val t.isLt
      = (outAfterMid V c t h0 h7 (heldAt V c (t.val - 1) (Nat.lt_of_le_of_lt (Nat.sub_le _ _) t.isLt)).2,
         accAfterMid V c t h0 h7 (heldAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h7).trans rfl)

/-- At a point of the last row tile: over what the point before left. -/
theorem heldAt_last (c : Dev nD) (t : Fin cfg0.N) (h0 : ¬t.val % 8 = 0) (h7 : t.val % 8 = 7) :
    heldAt V c t.val t.isLt
      = (outAfterLast V c t h0 h7 (heldAt V c (t.val - 1) (Nat.lt_of_le_of_lt (Nat.sub_le _ _) t.isLt)).2,
         accAfterLast V c t h0 h7 (heldAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h7).trans rfl)

/-! ## The region's invariant: the scratch row carried between points -/

/-- Before position `n`: before the first point the class's invariant (every scoped buffer at anything); afterwards
    the scratch row at what the point before left in it, the other scoped buffers at anything, the generator register at
    some state. -/
def Inv (c : Dev nD) : (n : ℕ) → n ≤ cfg0.N → sProp 𝕄
  | 0, _ => Pipeline.ΦA spec0 c
  | n + 1, hn => iprop(iprop(owns (c : Thread nD τ) accRef fullShare ((heldAt V c n hn).2) ∗ othersRest (F := F) c) ∗ (∃ r, prngReg c r))

theorem Inv_zero (c : Dev nD) (n : ℕ) (h : n ≤ cfg0.N) (hz : n = 0) : Inv V c n h = Pipeline.ΦA spec0 c := by
  subst hz; rfl

theorem Inv_succ (c : Dev nD) (n : ℕ) (hn : n < cfg0.N) :
    Inv V c (n + 1) hn = iprop(iprop(owns (c : Thread nD τ) accRef fullShare ((heldAt V c n hn).2) ∗ othersRest (F := F) c) ∗ (∃ r, prngReg c r)) := rfl

theorem Inv_pos (c : Dev nD) (n : ℕ) (h : n ≤ cfg0.N) (hz : n ≠ 0) :
    Inv V c n h = iprop(iprop(owns (c : Thread nD τ) accRef fullShare ((heldAt V c (n - 1) (by omega)).2) ∗ othersRest (F := F) c) ∗ (∃ r, prngReg c r)) := by
  cases n with
  | zero => exact absurd rfl hz
  | succ n => rfl

/-! ## The pipeline's proof data -/

/-- The proof data of the degree kernel's pipeline on core `c`: the arrays as the region finds them; after the body at
    point `t` the adjacency window's buffer at its tile and the output row's at `heldAt`; the invariant `Inv`; nothing
    owed; full shares. -/
def dat0 (c : Dev nD) : Dat τ (Elt F) Unit ℕ (UR sig nD τ) ℕ cfg0 c where
  A w := V c (Pipeline.arrRef spec0 w)
  after w t := match w with
    | ⟨0, _⟩ => tileAt V c 0 t
    | ⟨1, _⟩ => (heldAt V c t.val t.isLt).1
  Φ t := Inv V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- Its shares are full, it owes nothing, and it bounds the recorded pairs by everything. -/
theorem q_eq0 (c : Dev nD) (w : Fin cfg0.W) : (dat0 V c).q w = fullShare := by dsimp only [dat0]
theorem owed_eq0 (c : Dev nD) (t : Fin (cfg0.N + 1)) : (dat0 V c).owed t = 0 := by dsimp only [dat0]
theorem recorded_eq0 (c : Dev nD) (t : Fin (cfg0.N + 1)) : (dat0 V c).recorded t = Set.univ := by dsimp only [dat0]

/-- The invariant at a point's start, restated at `t.val`. -/
theorem Inv_castSucc (c : Dev nD) (t : Fin cfg0.N) :
    (dat0 V c).Φ t.castSucc = Inv V c t.val (Nat.le_of_lt t.isLt) := by
  dsimp only [dat0]; simp only [Fin.coe_castSucc]

/-- What the body leaves, window by window. -/
theorem after_adj (c : Dev nD) (t : Fin cfg0.N) : (dat0 V c).after 0 t = tileAt V c 0 t := by dsimp only [dat0]
theorem after_out (c : Dev nD) (t : Fin cfg0.N) : (dat0 V c).after 1 t = (heldAt V c t.val t.isLt).1 := by dsimp only [dat0]

/-- The adjacency window's current staging buffer holds its tile at every point. -/
theorem before_adj (c : Dev nD) (t : Fin cfg0.N) (d) : (dat0 V c).before 0 t d = tileAt V c 0 t :=
  before_adj_of V (dat0 V c) (A_eq0 V c 0) (after_adj V c) t d

/-! ## The body obligation, at a generic point -/

/-- What the body is called with at point `t` (the obligation's precondition, the windows one by one), -/
def bodyPre (c : Dev nD) (t : Fin cfg0.N) : sProp 𝕄 :=
  iprop((dat0 V c).Φ t.castSucc ∗ (dat0 V c).owesAt () t.castSucc
    ∗ (∃ d, owns (c : Thread nD τ) (adjStage t) fullShare ((dat0 V c).before 0 t d))
    ∗ (∃ d, owns (c : Thread nD τ) (outStage t) fullShare ((dat0 V c).before 1 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The adjacency window's memref holds its tile; the point's residue mod 8 says which row tile it
    is at, so which run applies. The invariant hands the body the scratch row at what the point before left (at anything
    at the very first point) and takes it back at this point's contents; below the last row tile the output row's buffer is
    handed back as found; the other scoped buffers, the generator register and what the core owes pass through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_adj]
  rw [show (dat0 V c).owesAt () t.succ = (dat0 V c).owesAt () t.castSucc from rfl]
  rw [show (dat0 V c).Φ t.succ = Inv V c (t.val + 1) t.isLt from rfl, Inv_succ]
  have hN : t.val < 64 := lt_of_lt_of_eq t.isLt (show cfg0.N = 64 from N_0)
  by_cases h0 : t.val % 8 = 0
  · by_cases h7 : t.val % 8 = 7
    · exfalso; omega
    · -- first row tile
      rw [show (dat0 V c).leavesExact 0 t = owns (c : Thread nD τ) (adjStage t) fullShare ((dat0 V c).after 0 t) from by
        unfold Dat.leavesExact; rw [adj_live t], after_adj]
      rw [Dat.leavesExact_idle (dat0 V c) 1 t (out_idle_first t ((atFirstRow_iff t).mpr h0) (fun h => h7 ((atLastRow_iff t).mp h)))
        (out_noFlush_first t ((atFirstRow_iff t).mpr h0) (fun h => h7 ((atLastRow_iff t).mp h)))]
      rw [heldAt_first V c t h0 h7]
      unfold accAfterFirst; (try dsimp only)
      by_cases hz : t.val = 0
      · rw [Inv_castSucc V c t, Inv_zero V c _ _ hz, PhiA_eq]
        iintro ⟨⟨⟨HS, Hr⟩, Hg⟩, Ho, ⟨%d0, H0⟩, ⟨%d1, H1⟩⟩
        iapply ((firstAt V c t h0 h7).2.2 _ Set.univ _)
        isplitl [H0]; · iexact H0
        isplitl [H1]; · iexact H1
        isplitl [HS]; · iexact HS
        iintro ⟨H0, H1, ⟨%es, HS⟩⟩
        isplitl [HS Hr Hg]
        · isplitl [HS Hr]
          · isplitl [HS]
            · unfold owns; iexists _; isplitr
              swap; · iexact HS
              ipureintro; exact View.read_writes_of_cover _ _ _ _ _ (accFirst_cover V c t h0 h7)
            iexact Hr
          iexact Hg
        isplitl [Ho]; · iexact Ho
        isplitl [H0]; · iexact H0
        iexists _; iexact H1
      · rw [Inv_castSucc V c t, Inv_pos V c _ _ hz]
        iintro ⟨⟨⟨HS, Hr⟩, Hg⟩, Ho, ⟨%d0, H0⟩, ⟨%d1, H1⟩⟩
        iapply ((firstAt V c t h0 h7).2.2 _ Set.univ _)
        isplitl [H0]; · iexact H0
        isplitl [H1]; · iexact H1
        isplitl [HS]; · iexists _; iexact HS
        iintro ⟨H0, H1, ⟨%es, HS⟩⟩
        isplitl [HS Hr Hg]
        · isplitl [HS Hr]
          · isplitl [HS]
            · unfold owns; iexists _; isplitr
              swap; · iexact HS
              ipureintro; exact View.read_writes_of_cover _ _ _ _ _ (accFirst_cover V c t h0 h7)
            iexact Hr
          iexact Hg
        isplitl [Ho]; · iexact Ho
        isplitl [H0]; · iexact H0
        iexists _; iexact H1
  · have hz : t.val ≠ 0 := fun h => h0 (by rw [h])
    by_cases h7 : t.val % 8 = 7
    · -- last row tile
      rw [show (dat0 V c).leavesExact 0 t = owns (c : Thread nD τ) (adjStage t) fullShare ((dat0 V c).after 0 t) from by
        unfold Dat.leavesExact; rw [adj_live t], after_adj]
      rw [show (dat0 V c).leavesExact 1 t = owns (c : Thread nD τ) (outStage t) fullShare ((dat0 V c).after 1 t) from by
        unfold Dat.leavesExact; rw [out_live_last t (fun h => h0 ((atFirstRow_iff t).mp h)) ((atLastRow_iff t).mpr h7)], after_out]
      rw [heldAt_last V c t h0 h7]
      unfold outAfterLast accAfterLast; (try dsimp only)
      rw [Inv_castSucc V c t, Inv_pos V c _ _ hz]
      iintro ⟨⟨⟨HS, Hr⟩, Hg⟩, Ho, ⟨%d0, H0⟩, ⟨%d1, H1⟩⟩
      iapply ((lastAt V c t h0 h7 _).2.2 Set.univ _)
      isplitl [H0]; · iexact H0
      isplitl [H1]; · iexists _; iexact H1
      isplitl [HS]; · iexact HS
      iintro ⟨H0, ⟨%e1, H1⟩, ⟨%es, HS⟩⟩
      isplitl [HS Hr Hg]
      · isplitl [HS Hr]
        · isplitl [HS]
          · unfold owns; iexists _; isplitr
            swap; · iexact HS
            ipureintro; exact View.read_writes_of_cover _ _ _ _ _ (accLast_cover V c t h0 h7 _)
          iexact Hr
        iexact Hg
      isplitl [Ho]; · iexact Ho
      isplitl [H0]; · iexact H0
      unfold owns; iexists _; isplitr
      swap; · iexact H1
      ipureintro; exact View.read_writes_of_cover _ _ _ _ _ (outLast_cover V c t h0 h7 _)
    · -- a middle row tile
      rw [show (dat0 V c).leavesExact 0 t = owns (c : Thread nD τ) (adjStage t) fullShare ((dat0 V c).after 0 t) from by
        unfold Dat.leavesExact; rw [adj_live t], after_adj]
      rw [Dat.leavesExact_idle (dat0 V c) 1 t (out_idle_mid t (fun h => h0 ((atFirstRow_iff t).mp h)) (fun h => h7 ((atLastRow_iff t).mp h)))
        (out_noFlush_mid t (fun h => h0 ((atFirstRow_iff t).mp h)) (fun h => h7 ((atLastRow_iff t).mp h)))]
      rw [heldAt_mid V c t h0 h7]
      unfold accAfterMid; (try dsimp only)
      rw [Inv_castSucc V c t, Inv_pos V c _ _ hz]
      iintro ⟨⟨⟨HS, Hr⟩, Hg⟩, Ho, ⟨%d0, H0⟩, ⟨%d1, H1⟩⟩
      iapply ((midAt V c t h0 h7 _).2.2 _ Set.univ _)
      isplitl [H0]; · iexact H0
      isplitl [H1]; · iexact H1
      isplitl [HS]; · iexact HS
      iintro ⟨H0, H1, ⟨%es, HS⟩⟩
      isplitl [HS Hr Hg]
      · isplitl [HS Hr]
        · isplitl [HS]
          · unfold owns; iexists _; isplitr
            swap; · iexact HS
            ipureintro; exact View.read_writes_of_cover _ _ _ _ _ (accMid_cover V c t h0 h7 _)
          iexact Hr
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = Inv V c 0 (Nat.zero_le _) from rfl, Inv_zero V c 0 _ rfl]
  try exact Idealize.SL.BI.Entails.refl _

/-- After any point but the first the invariant gives the class's back: the scratch row's named contents are forgotten. -/
theorem Inv_out (c : Dev nD) (t : Fin (cfg0.N + 1)) (ht : t.val ≠ 0) : (dat0 V c).Φ t ⊢ Pipeline.ΦA spec0 c := by
  rw [show (dat0 V c).Φ t = Inv V c t.val (Nat.le_of_lt_succ t.isLt) from rfl, Inv_pos V c _ _ ht, PhiA_eq]
  iintro ⟨⟨HS, Hr⟩, Hg⟩
  isplitl [HS Hr]
  · isplitl [HS]
    · iexists _; iexact HS
    iexact Hr
  iexact Hg

/-- The same after the last point. -/
theorem hout0 (c : Dev nD) : (dat0 V c).Φ (Fin.last cfg0.N) ⊢ Pipeline.ΦA spec0 c :=
  Inv_out V c _ (by rw [Fin.val_last]; have : cfg0.N = 64 := N_0; omega)

end Cert.KernelIdeal.Deg

end
-- ==== Proof.GcnRuns.lean ====
/- The propagate-and-project region (grid 16 × 8: row tile i, contraction tile k; point t = 8 i + k): what its
   three control cases share. The body zeroes its 512×512 accumulator when k = 0, adds the product of the scaled
   adjacency block with 1024 rows of the features at every point, and when k = 7 forms
   tanh((d_row ⊙ acc + d_row² ⊙ H[rows of tile i]) · Wt + bias) into the output block. Here: the blocks the input
   windows hold, the two conditions in closed form over the grid, where the output window is idle, the staging and
   accumulator memrefs, and the region invariant spelled buffer by buffer. Everything is stated at a parameter V,
   the buffer contents when the region is entered. -/
import proofs.«104315_j2027224564458_2_alg».proof.Proof.Gen.KernelIdeal.Launch
import proofs.«104315_j2027224564458_2_alg».proof.Proof.Gen.KernelIdeal.Skeleton
import proofs.«104315_j2027224564458_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency window's buffer holds its 512×1024 block at every point (it is fetched at every point). -/
theorem foundAdj_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The feature window's buffer holds all of H at every point: fetched once, its block index never moves, and the body leaves it in place. -/
theorem foundFeat_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The row-scale window's buffer holds entries 512 i … 512 i + 511 of d at every point of row tile i: fetched when k = 0 and left in place. -/
theorem foundDrow_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The column-scale window's buffer holds entries 1024 k … 1024 k + 1023 of d at every point. -/
theorem foundDcol_of {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- The projection window's buffer holds all of Wt at every point: fetched once. -/
theorem foundWt_of {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The bias window's buffer holds the bias row at every point: fetched once. -/
theorem foundBias_of {c : Dev nD} (dat : Dat τ (Elt F) Unit ℕ (UR sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-! ## The two conditions of the body -/

/-- The first conditional's condition (k = 0), from the grid coordinates: the body's scalar chain substituted. -/
abbrev firstK (i : grid1.Coords) : Prop := (Scalar.cmpi .ne (Scalar.extui (Scalar.cmpi .eq (BitVec.ofNat 32 (i 1).val) 0#32)) 0#32) = 1#1
/-- It holds at the points ≡ 0 (mod 8): decided over the grid. -/
theorem firstK_iff : ∀ t : Fin cfg1.N, firstK (grid1.coords t) ↔ t.val % 8 = 0 :=
  (by decide +kernel : ∀ t : Fin grid1.N, firstK (grid1.coords t) ↔ t.val % 8 = 0)

/-- The second conditional's condition (k = 7). -/
abbrev lastK (i : grid1.Coords) : Prop := k1_cond2 i = 1#1
/-- It holds at the points ≡ 7 (mod 8): decided over the grid. -/
theorem lastK_iff : ∀ t : Fin cfg1.N, lastK (grid1.coords t) ↔ t.val % 8 = 7 :=
  (by decide +kernel : ∀ t : Fin grid1.N, lastK (grid1.coords t) ↔ t.val % 8 = 7)

/-! ## Where the windows are idle -/

theorem live0 : ∀ t : Fin cfg1.N, cfg1.idle 0 (grid1.coords t) = false := fun _ => rfl
theorem live1 : ∀ t : Fin cfg1.N, cfg1.idle 1 (grid1.coords t) = false := fun _ => rfl
theorem live2 : ∀ t : Fin cfg1.N, cfg1.idle 2 (grid1.coords t) = false := fun _ => rfl
theorem live3 : ∀ t : Fin cfg1.N, cfg1.idle 3 (grid1.coords t) = false := fun _ => rfl
theorem live4 : ∀ t : Fin cfg1.N, cfg1.idle 4 (grid1.coords t) = false := fun _ => rfl
theorem live5 : ∀ t : Fin cfg1.N, cfg1.idle 5 (grid1.coords t) = false := fun _ => rfl
/-- Where k = 0 the output window is idle (nothing is stored into it) -/
theorem outIdle_first : ∀ t : Fin cfg1.N, firstK (grid1.coords t) → ¬lastK (grid1.coords t) → cfg1.idle 6 (grid1.coords t) = true := by decide +kernel
/-- and is not written back. -/
theorem outKept_first : ∀ t : Fin cfg1.N, firstK (grid1.coords t) → ¬lastK (grid1.coords t) → (cfg1.win 6).flush t = false := by decide +kernel
/-- The same where 0 < k < 7. -/
theorem outIdle_mid : ∀ t : Fin cfg1.N, ¬firstK (grid1.coords t) → ¬lastK (grid1.coords t) → cfg1.idle 6 (grid1.coords t) = true := by decide +kernel
theorem outKept_mid : ∀ t : Fin cfg1.N, ¬firstK (grid1.coords t) → ¬lastK (grid1.coords t) → (cfg1.win 6).flush t = false := by decide +kernel
/-- Where k = 7 the output window is live: the body stores its block. -/
theorem outLive_last : ∀ t : Fin cfg1.N, ¬firstK (grid1.coords t) → lastK (grid1.coords t) → cfg1.idle 6 (grid1.coords t) = false := by decide +kernel

/-! ## The memrefs the body is called with -/

/-- One staging buffer of the output window, through which its contents are stated (the choice does not matter). -/
abbrev outView : View sig .tc .vmem S512x512 .f32 := (Memref.whole cc1_stg6_0 : Memref sig .tc .vmem S512x512 .f32).view
/-- Each window's current staging memref at point t, spelled as the pipeline passes it, and its wholeness. -/
abbrev sAdj (t : Fin cfg1.N) : Memref sig .tc .vmem S512x1024 .f32 := win1_0.stage (cfg1.slots t 0)
abbrev wAdj (t : Fin cfg1.N) : (sAdj t).IsWhole := hstage1_0 ((cfg1.slots t 0).cast nbuf1_0)
abbrev sFeat (t : Fin cfg1.N) : Memref sig .tc .vmem S8192x512 .bf16 := win1_1.stage (cfg1.slots t 1)
abbrev wFeat (t : Fin cfg1.N) : (sFeat t).IsWhole := hstage1_1 ((cfg1.slots t 1).cast nbuf1_1)
abbrev sDrow (t : Fin cfg1.N) : Memref sig .tc .vmem S1x512 .f32 := win1_2.stage (cfg1.slots t 2)
abbrev wDrow (t : Fin cfg1.N) : (sDrow t).IsWhole := hstage1_2 ((cfg1.slots t 2).cast nbuf1_2)
abbrev sDcol (t : Fin cfg1.N) : Memref sig .tc .vmem S1x1024 .f32 := win1_3.stage (cfg1.slots t 3)
abbrev wDcol (t : Fin cfg1.N) : (sDcol t).IsWhole := hstage1_3 ((cfg1.slots t 3).cast nbuf1_3)
abbrev sWt (t : Fin cfg1.N) : Memref sig .tc .vmem S512x512 .bf16 := win1_4.stage (cfg1.slots t 4)
abbrev wWt (t : Fin cfg1.N) : (sWt t).IsWhole := hstage1_4 ((cfg1.slots t 4).cast nbuf1_4)
abbrev sBias (t : Fin cfg1.N) : Memref sig .tc .vmem S1x512 .f32 := win1_5.stage (cfg1.slots t 5)
abbrev wBias (t : Fin cfg1.N) : (sBias t).IsWhole := hstage1_5 ((cfg1.slots t 5).cast nbuf1_5)
abbrev sOut (t : Fin cfg1.N) : Memref sig .tc .vmem S512x512 .f32 := win1_6.stage (cfg1.slots t 6)
abbrev wOut (t : Fin cfg1.N) : (sOut t).IsWhole := hstage1_6 ((cfg1.slots t 6).cast nbuf1_6)
/-- The accumulator: a whole scoped buffer of the kernel's own, passed beside the windows and carried from point to point. -/
abbrev accMem : Memref sig .tc .vmem S512x512 .f32 := Memref.whole cc1_scratch0
abbrev accView : View sig .tc .vmem S512x512 .f32 := accMem.view

/-! ## The region invariant, buffer by buffer -/

/-- The core's scoped buffers that this region does not stage: the other region's four staging buffers and its
    accumulator, each at some contents, and then this region's accumulator as S describes it. -/
abbrev scopedWith (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_scratch0), ((c : Thread nD τ).loc cc0_scratch0) ↦{fullShare} f)
    ∗ S)

/-- What the region is entered with: those buffers, the accumulator at anything, the generator register at some state. -/
theorem entryInv_eq (c : Dev nD) :
    (Pipeline.ΦA spec1 c : sProp 𝕄)
      = iprop(scopedWith c (iprop(∃ d, owns (c : Thread nD τ) accMem fullShare d)) ∗ (∃ r, prngReg c r)) := by
  unfold Pipeline.ΦA; rw [scopedRest1_eq]; simp only [scopedWith, accMem, owns_whole]; try rfl

end Cert.KernelIdeal.Gcn

end
-- ==== Proof.GcnRunA.lean ====
/- The body of the propagate-and-project region run at a point with k = 0 (the accumulator is zeroed, then the
   first partial product is added; nothing is stored into the output block). -/
import proofs.«104315_j2027224564458_2_alg».proof.Proof.GcnRuns

-- membership in a rectangle of full extents recurses once per coordinate of the long axes
set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the accumulator, as pieces (last first), when k = 0, WITH the proof that on whole
    memrefs — the six inputs' at their contents, the output's at contents handed back untouched, the accumulator at
    anything — the body runs to the continuation holding the inputs' and the output's as they were and the accumulator
    with those pieces written. The pieces are the witness the run finds. -/
noncomputable def runFirst (c : Dev nD) (i : grid1.Coords) (arg2 : Memref sig .tc .vmem S512x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1x1024 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (hc0 : firstK i) (hc1 : ¬lastK i)
    (x0 : Vec F S512x1024 .f32) (x1 : Vec F S8192x512 .bf16) (x2 : Vec F S1x512 .f32) (x3 : Vec F S1x1024 .f32) (x4 : Vec F S512x512 .bf16) (x5 : Vec F S1x512 .f32) :
    Σ' (L6 : List (View.Piece (Elt F) S512x512 .f32)), { LS : List (View.Piece (Elt F) S512x512 .f32) //
      ∀ (xi6 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨[], ?_, fun xi6 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS

end Cert.KernelIdeal.Gcn

end
-- ==== Proof.GcnRunB.lean ====
/- The body of the propagate-and-project region run at a point with 0 < k < 7 (one more partial product is added
   to the accumulator; nothing is stored into the output block). -/
import proofs.«104315_j2027224564458_2_alg».proof.Proof.GcnRunA

-- membership in a rectangle of full extents recurses once per coordinate of the long axes
set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the accumulator, as pieces, when 0 < k < 7, WITH the proof that on whole memrefs —
    the six inputs' at their contents, the output's at contents handed back untouched, the accumulator at what the
    point before left — the body runs to the continuation holding the inputs' and the output's as they were and the
    accumulator with those pieces written. -/
noncomputable def runMid (c : Dev nD) (i : grid1.Coords) (arg2 : Memref sig .tc .vmem S512x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1x1024 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (hc0 : ¬firstK i) (hc1 : ¬lastK i)
    (x0 : Vec F S512x1024 .f32) (x1 : Vec F S8192x512 .bf16) (x2 : Vec F S1x512 .f32) (x3 : Vec F S1x1024 .f32) (x4 : Vec F S512x512 .bf16) (x5 : Vec F S1x512 .f32) (xs : Vec F S512x512 .f32) :
    Σ' (L6 : List (View.Piece (Elt F) S512x512 .f32)), { LS : List (View.Piece (Elt F) S512x512 .f32) //
      ∀ (xi6 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨[], ?_, fun xi6 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS

end Cert.KernelIdeal.Gcn

end
-- ==== Proof.GcnRunC.lean ====
/- The body of the propagate-and-project region run at a point with k = 7 (the last partial product is added, and
   the finished block tanh((d_row ⊙ acc + d_row² ⊙ H[rows]) · Wt + bias) is stored into the output window). -/
import proofs.«104315_j2027224564458_2_alg».proof.Proof.GcnRunB

-- membership in a rectangle of full extents recurses once per coordinate of the long axes
set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output block and in the accumulator, as pieces, when k = 7, WITH the proof that
    on whole memrefs — the six inputs' at their contents, the output's at anything, the accumulator at what the point
    before left — the body runs to the continuation holding the inputs' as they were and the output's and the
    accumulator with their pieces written. -/
noncomputable def runLast (c : Dev nD) (i : grid1.Coords) (arg2 : Memref sig .tc .vmem S512x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1x1024 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (hc0 : ¬firstK i) (hc1 : lastK i)
    (x0 : Vec F S512x1024 .f32) (x1 : Vec F S8192x512 .bf16) (x2 : Vec F S1x512 .f32) (x3 : Vec F S1x1024 .f32) (x4 : Vec F S512x512 .bf16) (x5 : Vec F S1x512 .f32) (xs : Vec F S512x512 .f32) :
    Σ' (L6 : List (View.Piece (Elt F) S512x512 .f32)), { LS : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS

end Cert.KernelIdeal.Gcn

end
-- ==== Proof.GcnBody.lean ====
/- The propagate-and-project region: what its accumulator and output block hold after every grid point (a recursion
   over the points: zeroed-then-added at k = 0, added to at 0 < k < 7, added to and the finished block stored at
   k = 7), the invariant carrying the accumulator from point to point, the pipeline's proof data at a parameter V
   (the buffer contents when the region is entered), and the body obligation at every point. -/
import proofs.«104315_j2027224564458_2_alg».proof.Proof.GcnRunC

-- membership in a rectangle of full extents recurses once per coordinate of the long axes
set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Contents for the output block at the points that store nothing into it: nothing reads them (the block is neither
    written back there nor read at the next point). -/
def idleOut : Vec F S512x512 .f32 := outView.read (Elt F) outView.junk

/-- The accumulator after a point with k = 0: the case's pieces read back. -/
def accFirstAt (c : Dev nD) (t : Fin cfg1.N) (h0 : t.val % 8 = 0) (h1 : ¬t.val % 8 = 7) : Vec F S512x512 .f32 :=
  accView.read (Elt F) (accView.writes (Elt F) accView.junk (runFirst c (grid1.coords t) (sAdj t) (wAdj t) (sFeat t) (wFeat t) (sDrow t) (wDrow t) (sDcol t) (wDcol t) (sWt t) (wWt t) (sBias t) (wBias t) (sOut t) (wOut t) accMem (Memref.isWhole_whole _) ((firstK_iff t).mpr h0) (fun h => h1 ((lastK_iff t).mp h)) (blk V c 0 t) (blk V c 1 t) (blk V c 2 t) (blk V c 3 t) (blk V c 4 t) (blk V c 5 t)).2.1)

/-- The accumulator after a point with 0 < k < 7, from what the point before left in it. -/
def accMidAt (c : Dev nD) (t : Fin cfg1.N) (h0 : ¬t.val % 8 = 0) (h1 : ¬t.val % 8 = 7) (xs : Vec F S512x512 .f32) : Vec F S512x512 .f32 :=
  accView.read (Elt F) (accView.writes (Elt F) accView.junk (runMid c (grid1.coords t) (sAdj t) (wAdj t) (sFeat t) (wFeat t) (sDrow t) (wDrow t) (sDcol t) (wDcol t) (sWt t) (wWt t) (sBias t) (wBias t) (sOut t) (wOut t) accMem (Memref.isWhole_whole _) (fun h => h0 ((firstK_iff t).mp h)) (fun h => h1 ((lastK_iff t).mp h)) (blk V c 0 t) (blk V c 1 t) (blk V c 2 t) (blk V c 3 t) (blk V c 4 t) (blk V c 5 t) xs).2.1)

/-- The accumulator after a point with k = 7, from what the point before left in it. -/
def accLastAt (c : Dev nD) (t : Fin cfg1.N) (h0 : ¬t.val % 8 = 0) (h1 : t.val % 8 = 7) (xs : Vec F S512x512 .f32) : Vec F S512x512 .f32 :=
  accView.read (Elt F) (accView.writes (Elt F) accView.junk (runLast c (grid1.coords t) (sAdj t) (wAdj t) (sFeat t) (wFeat t) (sDrow t) (wDrow t) (sDcol t) (wDcol t) (sWt t) (wWt t) (sBias t) (wBias t) (sOut t) (wOut t) accMem (Memref.isWhole_whole _) (fun h => h0 ((firstK_iff t).mp h)) ((lastK_iff t).mpr h1) (blk V c 0 t) (blk V c 1 t) (blk V c 2 t) (blk V c 3 t) (blk V c 4 t) (blk V c 5 t) xs).2.1)

/-- The output block after a point with k = 7, from what the point before left in the accumulator. -/
def outLastAt (c : Dev nD) (t : Fin cfg1.N) (h0 : ¬t.val % 8 = 0) (h1 : t.val % 8 = 7) (xs : Vec F S512x512 .f32) : Vec F S512x512 .f32 :=
  outView.read (Elt F) (outView.writes (Elt F) outView.junk (runLast c (grid1.coords t) (sAdj t) (wAdj t) (sFeat t) (wFeat t) (sDrow t) (wDrow t) (sDcol t) (wDcol t) (sWt t) (wWt t) (sBias t) (wBias t) (sOut t) (wOut t) accMem (Memref.isWhole_whole _) (fun h => h0 ((firstK_iff t).mp h)) ((lastK_iff t).mpr h1) (blk V c 0 t) (blk V c 1 t) (blk V c 2 t) (blk V c 3 t) (blk V c 4 t) (blk V c 5 t) xs).1)

/-- Each case's pieces for the accumulator tile it, so they cover it. -/
theorem accCover_first (c : Dev nD) (i : grid1.Coords) (arg2 : Memref sig .tc .vmem S512x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1x1024 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (hc0 : firstK i) (hc1 : ¬lastK i)
    (x0 : Vec F S512x1024 .f32) (x1 : Vec F S8192x512 .bf16) (x2 : Vec F S1x512 .f32) (x3 : Vec F S1x1024 .f32) (x4 : Vec F S512x512 .bf16) (x5 : Vec F S1x512 .f32) (y : S512x512.Idx) :
    ∃ pc ∈ (runFirst c i arg2 harg2 arg3 harg3 arg4 harg4 arg5 harg5 arg6 harg6 arg7 harg7 arg8 harg8 arg9 harg9 hc0 hc1 x0 x1 x2 x3 x4 x5).2.1, y ∈ pc.1.set :=
  View.cover_of_tiledL (runFirst c i arg2 harg2 arg3 harg3 arg4 harg4 arg5 harg5 arg6 harg6 arg7 harg7 arg8 harg8 arg9 harg9 hc0 hc1 x0 x1 x2 x3 x4 x5).2.1 S512x512.size (by sl_kernel_rfl) y

theorem accCover_mid (c : Dev nD) (i : grid1.Coords) (arg2 : Memref sig .tc .vmem S512x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1x1024 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (hc0 : ¬firstK i) (hc1 : ¬lastK i)
    (x0 : Vec F S512x1024 .f32) (x1 : Vec F S8192x512 .bf16) (x2 : Vec F S1x512 .f32) (x3 : Vec F S1x1024 .f32) (x4 : Vec F S512x512 .bf16) (x5 : Vec F S1x512 .f32) (xs : Vec F S512x512 .f32) (y : S512x512.Idx) :
    ∃ pc ∈ (runMid c i arg2 harg2 arg3 harg3 arg4 harg4 arg5 harg5 arg6 harg6 arg7 harg7 arg8 harg8 arg9 harg9 hc0 hc1 x0 x1 x2 x3 x4 x5 xs).2.1, y ∈ pc.1.set :=
  View.cover_of_tiledL (runMid c i arg2 harg2 arg3 harg3 arg4 harg4 arg5 harg5 arg6 harg6 arg7 harg7 arg8 harg8 arg9 harg9 hc0 hc1 x0 x1 x2 x3 x4 x5 xs).2.1 S512x512.size (by sl_kernel_rfl) y

theorem accCover_last (c : Dev nD) (i : grid1.Coords) (arg2 : Memref sig .tc .vmem S512x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1x1024 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (hc0 : ¬firstK i) (hc1 : lastK i)
    (x0 : Vec F S512x1024 .f32) (x1 : Vec F S8192x512 .bf16) (x2 : Vec F S1x512 .f32) (x3 : Vec F S1x1024 .f32) (x4 : Vec F S512x512 .bf16) (x5 : Vec F S1x512 .f32) (xs : Vec F S512x512 .f32) (y : S512x512.Idx) :
    ∃ pc ∈ (runLast c i arg2 harg2 arg3 harg3 arg4 harg4 arg5 harg5 arg6 harg6 arg7 harg7 arg8 harg8 arg9 harg9 hc0 hc1 x0 x1 x2 x3 x4 x5 xs).2.1, y ∈ pc.1.set :=
  View.cover_of_tiledL (runLast c i arg2 harg2 arg3 harg3 arg4 harg4 arg5 harg5 arg6 harg6 arg7 harg7 arg8 harg8 arg9 harg9 hc0 hc1 x0 x1 x2 x3 x4 x5 xs).2.1 S512x512.size (by sl_kernel_rfl) y

/-- The last case's one store into the output block covers it. -/
theorem outCover_last (c : Dev nD) (i : grid1.Coords) (arg2 : Memref sig .tc .vmem S512x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1x1024 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (hc0 : ¬firstK i) (hc1 : lastK i)
    (x0 : Vec F S512x1024 .f32) (x1 : Vec F S8192x512 .bf16) (x2 : Vec F S1x512 .f32) (x3 : Vec F S1x1024 .f32) (x4 : Vec F S512x512 .bf16) (x5 : Vec F S1x512 .f32) (xs : Vec F S512x512 .f32) (y : S512x512.Idx) :
    ∃ pc ∈ (runLast c i arg2 harg2 arg3 harg3 arg4 harg4 arg5 harg5 arg6 harg6 arg7 harg7 arg8 harg8 arg9 harg9 hc0 hc1 x0 x1 x2 x3 x4 x5 xs).1, y ∈ pc.1.set :=
  View.cover_of_tiledL (runLast c i arg2 harg2 arg3 harg3 arg4 harg4 arg5 harg5 arg6 harg6 arg7 harg7 arg8 harg8 arg9 harg9 hc0 hc1 x0 x1 x2 x3 x4 x5 xs).1 S512x512.size (by sl_kernel_rfl) y

/-! ## The accumulation, point by point -/

/-- What the output block's staging buffer and the accumulator hold after the body at position n (a pair): at k = 0
    the accumulator starts afresh; otherwise the case runs over what position n - 1 left in the accumulator. -/
def trace (c : Dev nD) : (n : ℕ) → n < cfg1.N → Vec F S512x512 .f32 × Vec F S512x512 .f32
  | 0, hn => (idleOut, accFirstAt V c ⟨0, hn⟩ (Nat.zero_mod _) (by show ¬(0 % 8 = 7); decide))
  | n + 1, hn =>
    if h0 : (n + 1) % 8 = 0 then
      (idleOut, accFirstAt V c ⟨n + 1, hn⟩ h0 (fun h1 => by rw [h0] at h1; exact absurd h1 (by decide)))
    else
      if h1 : (n + 1) % 8 = 7 then
        (outLastAt V c ⟨n + 1, hn⟩ h0 h1 (trace c n (Nat.lt_of_succ_lt hn)).2, accLastAt V c ⟨n + 1, hn⟩ h0 h1 (trace c n (Nat.lt_of_succ_lt hn)).2)
      else
        (idleOut, accMidAt V c ⟨n + 1, hn⟩ h0 h1 (trace c n (Nat.lt_of_succ_lt hn)).2)

theorem trace_first (c : Dev nD) (t : Fin cfg1.N) (h0 : t.val % 8 = 0) (h1 : ¬t.val % 8 = 7) :
    trace V c t.val t.isLt = (idleOut, accFirstAt V c t h0 h1) := by
  obtain ⟨n, hn⟩ := t
  cases n with
  | zero => exact rfl
  | succ n => exact (dif_pos h0).trans rfl

theorem trace_mid (c : Dev nD) (t : Fin cfg1.N) (h0 : ¬t.val % 8 = 0) (h1 : ¬t.val % 8 = 7) :
    trace V c t.val t.isLt = (idleOut, accMidAt V c t h0 h1 (trace V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem trace_last (c : Dev nD) (t : Fin cfg1.N) (h0 : ¬t.val % 8 = 0) (h1 : t.val % 8 = 7) :
    trace V c t.val t.isLt = (outLastAt V c t h0 h1 (trace V c (t.val - 1) (Nat.lt_of_le_of_lt (Nat.sub_le _ _) t.isLt)).2, accLastAt V c t h0 h1 (trace V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant that carries the accumulator -/

/-- Before position n: at the first point what the region is entered with; afterwards the scoped buffers with the
    accumulator at what the point before left, and the generator register at some state. -/
def inv (c : Dev nD) : (n : ℕ) → n ≤ cfg1.N → sProp 𝕄
  | 0, _ => Pipeline.ΦA spec1 c
  | n + 1, hn => iprop(scopedWith c (owns (c : Thread nD τ) accMem fullShare ((trace V c n hn).2)) ∗ (∃ r, prngReg c r))

theorem inv_zero (c : Dev nD) (n : ℕ) (h : n ≤ cfg1.N) (hz : n = 0) : inv V c n h = Pipeline.ΦA spec1 c := by
  subst hz; rfl

theorem inv_succ (c : Dev nD) (n : ℕ) (hn : n < cfg1.N) :
    inv V c (n + 1) hn = iprop(scopedWith c (owns (c : Thread nD τ) accMem fullShare ((trace V c n hn).2)) ∗ (∃ r, prngReg c r)) := rfl

theorem inv_pos (c : Dev nD) (n : ℕ) (h : n ≤ cfg1.N) (hz : n ≠ 0) :
    inv V c n h = iprop(scopedWith c (owns (c : Thread nD τ) accMem fullShare ((trace V c (n - 1) (by omega)).2)) ∗ (∃ r, prngReg c r)) := by
  cases n with
  | zero => exact absurd rfl hz
  | succ n => rfl

/-! ## The pipeline's proof data -/

/-- The proof data of this pipeline on core c: the arrays as the region finds them; after the body at point t each
    input's buffer at its block and the output's at the trace; the invariant above; nothing owed. The row-scale and
    the column-scale windows read one array (the vector d): its full share is split between them. -/
def dat1 (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => (trace V c t.val t.isLt).1
  Φ t := inv V c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
  owed _ := 0

/-- The proof data's arrays are the region-entry contents. -/
theorem A_eq1 (c : Dev nD) (w : Fin cfg1.W) : (dat1 V c).A w = V c (Pipeline.arrRef spec1 w) := by
  dsimp only [dat1]

theorem inv_castSucc (c : Dev nD) (t : Fin cfg1.N) :
    (dat1 V c).Φ t.castSucc = inv V c t.val (Nat.le_of_lt t.isLt) := by
  dsimp only [dat1]; simp only [Fin.coe_castSucc]

theorem after0 (c : Dev nD) (t : Fin cfg1.N) : (dat1 V c).after 0 t = blk V c 0 t := by dsimp only [dat1]
theorem after1 (c : Dev nD) (t : Fin cfg1.N) : (dat1 V c).after 1 t = blk V c 1 t := by dsimp only [dat1]
theorem after2 (c : Dev nD) (t : Fin cfg1.N) : (dat1 V c).after 2 t = blk V c 2 t := by dsimp only [dat1]
theorem after3 (c : Dev nD) (t : Fin cfg1.N) : (dat1 V c).after 3 t = blk V c 3 t := by dsimp only [dat1]
theorem after4 (c : Dev nD) (t : Fin cfg1.N) : (dat1 V c).after 4 t = blk V c 4 t := by dsimp only [dat1]
theorem after5 (c : Dev nD) (t : Fin cfg1.N) : (dat1 V c).after 5 t = blk V c 5 t := by dsimp only [dat1]
theorem after6 (c : Dev nD) (t : Fin cfg1.N) : (dat1 V c).after 6 t = (trace V c t.val t.isLt).1 := by dsimp only [dat1]

/-- Each input's current staging buffer holds its block at every point, fetched there or not. -/
theorem before0 (c : Dev nD) (t : Fin cfg1.N) (d) : (dat1 V c).before 0 t d = blk V c 0 t := foundAdj_of V (dat1 V c) (A_eq1 V c 0) (after0 V c) t d
theorem before1 (c : Dev nD) (t : Fin cfg1.N) (d) : (dat1 V c).before 1 t d = blk V c 1 t := foundFeat_of V (dat1 V c) (A_eq1 V c 1) (after1 V c) t d
theorem before2 (c : Dev nD) (t : Fin cfg1.N) (d) : (dat1 V c).before 2 t d = blk V c 2 t := foundDrow_of V (dat1 V c) (A_eq1 V c 2) (after2 V c) t d
theorem before3 (c : Dev nD) (t : Fin cfg1.N) (d) : (dat1 V c).before 3 t d = blk V c 3 t := foundDcol_of V (dat1 V c) (A_eq1 V c 3) (after3 V c) t d
theorem before4 (c : Dev nD) (t : Fin cfg1.N) (d) : (dat1 V c).before 4 t d = blk V c 4 t := foundWt_of V (dat1 V c) (A_eq1 V c 4) (after4 V c) t d
theorem before5 (c : Dev nD) (t : Fin cfg1.N) (d) : (dat1 V c).before 5 t d = blk V c 5 t := foundBias_of V (dat1 V c) (A_eq1 V c 5) (after5 V c) t d

/-! ## The body obligation, at a generic point -/

/-- What the body is called with at point t, the windows one by one, -/
def bodyPre (c : Dev nD) (t : Fin cfg1.N) : sProp 𝕄 :=
  iprop((dat1 V c).Φ t.castSucc ∗ (dat1 V c).owesAt () t.castSucc
    ∗ (∃ d, owns (c : Thread nD τ) (sAdj t) fullShare ((dat1 V c).before 0 t d))
    ∗ (∃ d, owns (c : Thread nD τ) (sFeat t) fullShare ((dat1 V c).before 1 t d))
    ∗ (∃ d, owns (c : Thread nD τ) (sDrow t) fullShare ((dat1 V c).before 2 t d))
    ∗ (∃ d, owns (c : Thread nD τ) (sDcol t) fullShare ((dat1 V c).before 3 t d))
    ∗ (∃ d, owns (c : Thread nD τ) (sWt t) fullShare ((dat1 V c).before 4 t d))
    ∗ (∃ d, owns (c : Thread nD τ) (sBias t) fullShare ((dat1 V c).before 5 t d))
    ∗ (∃ d, owns (c : Thread nD τ) (sOut t) fullShare ((dat1 V c).before 6 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

theorem leaves0 (c : Dev nD) (t : Fin cfg1.N) : (dat1 V c).leavesExact 0 t = owns (c : Thread nD τ) (sAdj t) fullShare (blk V c 0 t) := by
  unfold Dat.leavesExact; rw [live0 t, after0]
theorem leaves1 (c : Dev nD) (t : Fin cfg1.N) : (dat1 V c).leavesExact 1 t = owns (c : Thread nD τ) (sFeat t) fullShare (blk V c 1 t) := by
  unfold Dat.leavesExact; rw [live1 t, after1]
theorem leaves2 (c : Dev nD) (t : Fin cfg1.N) : (dat1 V c).leavesExact 2 t = owns (c : Thread nD τ) (sDrow t) fullShare (blk V c 2 t) := by
  unfold Dat.leavesExact; rw [live2 t, after2]
theorem leaves3 (c : Dev nD) (t : Fin cfg1.N) : (dat1 V c).leavesExact 3 t = owns (c : Thread nD τ) (sDcol t) fullShare (blk V c 3 t) := by
  unfold Dat.leavesExact; rw [live3 t, after3]
theorem leaves4 (c : Dev nD) (t : Fin cfg1.N) : (dat1 V c).leavesExact 4 t = owns (c : Thread nD τ) (sWt t) fullShare (blk V c 4 t) := by
  unfold Dat.leavesExact; rw [live4 t, after4]
theorem leaves5 (c : Dev nD) (t : Fin cfg1.N) : (dat1 V c).leavesExact 5 t = owns (c : Thread nD τ) (sBias t) fullShare (blk V c 5 t) := by
  unfold Dat.leavesExact; rw [live5 t, after5]

set_option maxHeartbeats 4800000 in
/-- The body at any point: the inputs' memrefs hold their blocks; the closed forms say which case the point is in;
    the invariant hands the body the accumulator at what the point before left (at anything at the first point) and
    takes it back at this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5]
  rw [show (dat1 V c).owesAt () t.succ = (dat1 V c).owesAt () t.castSucc from rfl]
  rw [show (dat1 V c).Φ t.succ = inv V c (t.val + 1) t.isLt from rfl, inv_succ]
  rw [leaves0, leaves1, leaves2, leaves3, leaves4, leaves5]
  have hN : t.val < 128 := lt_of_lt_of_eq t.isLt (show cfg1.N = 128 from N_1)
  by_cases h0 : t.val % 8 = 0
  · have h1 : ¬t.val % 8 = 7 := by omega
    rw [Dat.leavesExact_idle (dat1 V c) 6 t (outIdle_first t ((firstK_iff t).mpr h0) (fun h => h1 ((lastK_iff t).mp h))) (outKept_first t ((firstK_iff t).mpr h0) (fun h => h1 ((lastK_iff t).mp h)))]
    rw [trace_first V c t h0 h1]
    unfold accFirstAt; (try dsimp only)
    by_cases hz : t.val = 0
    · rw [inv_castSucc V c t, inv_zero V c _ _ hz, entryInv_eq]
      iintro ⟨⟨⟨R0, R1, R2, R3, R4, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid1.coords t) _ _ _ _ _ _ _ _ _ _ _ _ _ _ _ _ ((firstK_iff t).mpr h0) (fun h => h1 ((lastK_iff t).mp h)) (blk V c 0 t) (blk V c 1 t) (blk V c 2 t) (blk V c 3 t) (blk V c 4 t) (blk V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [R0 R1 R2 R3 R4 HS Hg]
      · isplitl [R0 R1 R2 R3 R4 HS]
        · isplitl [R0]; · iexact R0
          isplitl [R1]; · iexact R1
          isplitl [R2]; · iexact R2
          isplitl [R3]; · iexact R3
          isplitl [R4]; · iexact R4
          unfold owns; iexists _; isplitr
          swap; · iexact HS
          ipureintro; exact View.read_writes_of_cover _ _ _ _ _ (accCover_first c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [inv_castSucc V c t, inv_pos V c _ _ hz]
      iintro ⟨⟨⟨R0, R1, R2, R3, R4, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid1.coords t) _ _ _ _ _ _ _ _ _ _ _ _ _ _ _ _ ((firstK_iff t).mpr h0) (fun h => h1 ((lastK_iff t).mp h)) (blk V c 0 t) (blk V c 1 t) (blk V c 2 t) (blk V c 3 t) (blk V c 4 t) (blk V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, ⟨%es, HS⟩⟩
      isplitl [R0 R1 R2 R3 R4 HS Hg]
      · isplitl [R0 R1 R2 R3 R4 HS]
        · isplitl [R0]; · iexact R0
          isplitl [R1]; · iexact R1
          isplitl [R2]; · iexact R2
          isplitl [R3]; · iexact R3
          isplitl [R4]; · iexact R4
          unfold owns; iexists _; isplitr
          swap; · iexact HS
          ipureintro; exact View.read_writes_of_cover _ _ _ _ _ (accCover_first c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · by_cases h1 : t.val % 8 = 7
    · rw [show (dat1 V c).leavesExact 6 t = owns (c : Thread nD τ) (sOut t) fullShare ((dat1 V c).after 6 t) from by
        unfold Dat.leavesExact; rw [outLive_last t (fun h => h0 ((firstK_iff t).mp h)) ((lastK_iff t).mpr h1)], after6]
      rw [trace_last V c t h0 h1]
      unfold outLastAt accLastAt; (try dsimp only)
      have hz : t.val ≠ 0 := by omega
      rw [inv_castSucc V c t, inv_pos V c _ _ hz]
      iintro ⟨⟨⟨R0, R1, R2, R3, R4, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid1.coords t) _ _ _ _ _ _ _ _ _ _ _ _ _ _ _ _ (fun h => h0 ((firstK_iff t).mp h)) ((lastK_iff t).mpr h1) (blk V c 0 t) (blk V c 1 t) (blk V c 2 t) (blk V c 3 t) (blk V c 4 t) (blk V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [R0 R1 R2 R3 R4 HS Hg]
      · isplitl [R0 R1 R2 R3 R4 HS]
        · isplitl [R0]; · iexact R0
          isplitl [R1]; · iexact R1
          isplitl [R2]; · iexact R2
          isplitl [R3]; · iexact R3
          isplitl [R4]; · iexact R4
          unfold owns; iexists _; isplitr
          swap; · iexact HS
          ipureintro; exact View.read_writes_of_cover _ _ _ _ _ (accCover_last c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (outCover_last c _ _ _ _ _ _ _ _ _ _ _ _ _ _ _ _ _ _ _ _ _ _ _ _ _ _)
    · rw [Dat.leavesExact_idle (dat1 V c) 6 t (outIdle_mid t (fun h => h0 ((firstK_iff t).mp h)) (fun h => h1 ((lastK_iff t).mp h))) (outKept_mid t (fun h => h0 ((firstK_iff t).mp h)) (fun h => h1 ((lastK_iff t).mp h)))]
      rw [trace_mid V c t h0 h1]
      unfold accMidAt; (try dsimp only)
      have hz : t.val ≠ 0 := by omega
      rw [inv_castSucc V c t, inv_pos V c _ _ hz]
      iintro ⟨⟨⟨R0, R1, R2, R3, R4, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runMid c (grid1.coords t) _ _ _ _ _ _ _ _ _ _ _ _ _ _ _ _ (fun h => h0 ((firstK_iff t).mp h)) (fun h => h1 ((lastK_iff t).mp h)) (blk V c 0 t) (blk V c 1 t) (blk V c 2 t) (blk V c 3 t) (blk V c 4 t) (blk V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [R0 R1 R2 R3 R4 HS Hg]
      · isplitl [R0 R1 R2 R3 R4 HS]
        · isplitl [R0]; · iexact R0
          isplitl [R1]; · iexact R1
          isplitl [R2]; · iexact R2
          isplitl [R3]; · iexact R3
          isplitl [R4]; · iexact R4
          unfold owns; iexists _; isplitr
          swap; · iexact HS
          ipureintro; exact View.read_writes_of_cover _ _ _ _ _ (accCover_mid c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = inv V c 0 (Nat.zero_le _) from rfl, inv_zero V c 0 _ rfl]
  try exact Idealize.SL.BI.Entails.refl _

/-- After any point but the first the invariant gives the entry form back: the accumulator's named contents are forgotten. -/
theorem inv_out (c : Dev nD) (t : Fin (cfg1.N + 1)) (ht : t.val ≠ 0) : (dat1 V c).Φ t ⊢ Pipeline.ΦA spec1 c := by
  rw [show (dat1 V c).Φ t = inv V c t.val (Nat.le_of_lt_succ t.isLt) from rfl, inv_pos V c _ _ ht, entryInv_eq]
  iintro ⟨⟨R0, R1, R2, R3, R4, HS⟩, Hg⟩
  isplitl [R0 R1 R2 R3 R4 HS]
  · isplitl [R0]; · iexact R0
    isplitl [R1]; · iexact R1
    isplitl [R2]; · iexact R2
    isplitl [R3]; · iexact R3
    isplitl [R4]; · iexact R4
    iexists _; iexact HS
  iexact Hg

/-- The same after the last point. -/
theorem hout1 (c : Dev nD) : (dat1 V c).Φ (Fin.last cfg1.N) ⊢ Pipeline.ΦA spec1 c :=
  inv_out V c _ (by rw [Fin.val_last]; have : cfg1.N = 128 := N_1; omega)

end Cert.KernelIdeal.Gcn

end
-- ==== Proof.Regions.lean ====
/-
  The two regions' proof data, as the whole-program run takes them: region 0 (column degrees and normalising
  factors) and region 1 (propagation, linear layer and tanh), each at any entry contents; and the program's
  frame: every weakly fair execution terminates with the argument arrays as launched.
-/
import proofs.«104315_j2027224564458_2_alg».proof.Proof.Run
import proofs.«104315_j2027224564458_2_alg».proof.Proof.DegBody
import proofs.«104315_j2027224564458_2_alg».proof.Proof.GcnBody

noncomputable section

namespace Cert.KernelIdeal.Regions

open Cert.KernelIdeal.Gen
open Idealize.ShloMosaic Idealize.ShloMosaic.TcCoe
open Idealize.SL Idealize.SL.Sem

variable {F : FTy → Type} [FloatOps F]

/-- Region 0's record. -/
def degRegion : Cert.KernelIdeal.Run.DegRegion F where
  dat := Cert.KernelIdeal.Deg.dat0
  A_eq := Cert.KernelIdeal.Deg.A_eq0
  q_eq := Cert.KernelIdeal.Deg.q_eq0
  owed_eq := Cert.KernelIdeal.Deg.owed_eq0
  recorded_eq := Cert.KernelIdeal.Deg.recorded_eq0
  body := Cert.KernelIdeal.Deg.body_obligation0
  hin := Cert.KernelIdeal.Deg.hin0
  hout := Cert.KernelIdeal.Deg.hout0

/-- Region 1's record: the factors' array is held in two halves, one per window that reads it. -/
def gcnRegion : Cert.KernelIdeal.Run.GcnRegion F where
  dat := Cert.KernelIdeal.Gcn.dat1
  A_eq := Cert.KernelIdeal.Gcn.A_eq1
  q_eq := fun V c w => by fin_cases w <;> rfl
  owed_eq := fun V c t => rfl
  recorded_eq := fun V c t => rfl
  body := Cert.KernelIdeal.Gcn.body_obligation1
  hin := Cert.KernelIdeal.Gcn.hin1
  hout := Cert.KernelIdeal.Gcn.hout1

/-- The program's frame, at any instance. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Cert.KernelIdeal.Run.frame degRegion gcnRegion m ρ

end Cert.KernelIdeal.Regions

end
-- ==== Proof.KRun.lean ====
/-
  The whole program as two kernel regions around one stretch of host operations: the contents of every
  array of @main at each boundary, the two regions as segments entered from and left at those contents,
  and the run — every weakly fair execution terminates with every array of @main at the last boundary's
  contents. The two regions' proof data enter as records (what each region's body obligation, entry and
  exit lemmas state), so this module does not depend on how the bodies are run.

  Region 1 reads one array (the normalising factors) through two windows: its full share is split in
  two halves at the region's entry, one per window, and joined again at the exit.
-/
import proofs.«104315_j2027224564458_2_alg».proof.Proof.Gen.Kernel.Launch
import proofs.«104315_j2027224564458_2_alg».proof.Proof.Gen.Kernel.Points
import proofs.«104315_j2027224564458_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of every TensorCore array as a region finds them. -/
abbrev Entry (F : FTy → Type) : Type := (c : Dev nD) → (b : Ref sig .tc) → Buf (Elt F) ((c : Thread nD τ).loc b)

/-- The shares region 1 holds its input arrays at: the factors' array is read through windows 2 and 3, half each. -/
def gcnShare : Fin cfg1.W → PosShare TreeShare
  | ⟨0, _⟩ => fullShare
  | ⟨1, _⟩ => fullShare
  | ⟨2, _⟩ => fullShare.left
  | ⟨3, _⟩ => fullShare.right
  | ⟨4, _⟩ => fullShare
  | ⟨5, _⟩ => fullShare
  | ⟨6, _⟩ => fullShare

/-- What region 0's proof states, at any entry contents. -/
structure DegRegion (F : FTy → Type) [FloatOps F] where
  dat : Entry F → (c : Dev nD) → Dat τ (Elt F) Unit ℕ (UR sig nD τ) ℕ cfg0 c
  A_eq : ∀ V c w, (dat V c).A w = V c (Pipeline.arrRef spec0 w)
  q_eq : ∀ V c w, (dat V c).q w = fullShare
  owed_eq : ∀ V c t, (dat V c).owed t = 0
  recorded_eq : ∀ V c t, (dat V c).recorded t = Set.univ
  body : ∀ V c, BodyObligation (dat V c) (defs₀ (F := F)) Variants.none () Set.univ
  hin : ∀ V c, (Pipeline.ΦA spec0 c : sProp (MT nD τ sig Unit (Elt F) ℕ (UR sig nD τ) ℕ)) ⊢ (dat V c).Φ 0
  hout : ∀ V c, (dat V c).Φ (Fin.last cfg0.N) ⊢ (Pipeline.ΦA spec0 c : sProp (MT nD τ sig Unit (Elt F) ℕ (UR sig nD τ) ℕ))

/-- What region 1's proof states, at any entry contents. -/
structure GcnRegion (F : FTy → Type) [FloatOps F] where
  dat : Entry F → (c : Dev nD) → Dat τ (Elt F) Unit ℕ (UR sig nD τ) ℕ cfg1 c
  A_eq : ∀ V c w, (dat V c).A w = V c (Pipeline.arrRef spec1 w)
  q_eq : ∀ V c w, (dat V c).q w = gcnShare w
  owed_eq : ∀ V c t, (dat V c).owed t = 0
  recorded_eq : ∀ V c t, (dat V c).recorded t = Set.univ
  body : ∀ V c, BodyObligation (dat V c) (defs₀ (F := F)) Variants.none () Set.univ
  hin : ∀ V c, (Pipeline.ΦA spec1 c : sProp (MT nD τ sig Unit (Elt F) ℕ (UR sig nD τ) ℕ)) ⊢ (dat V c).Φ 0
  hout : ∀ V c, (dat V c).Φ (Fin.last cfg1.N) ⊢ (Pipeline.ΦA spec1 c : sProp (MT nD τ sig Unit (Elt F) ℕ (UR sig nD τ) ℕ))

section Boundaries

variable (R0 : DegRegion F) (R1 : GcnRegion F)
variable (m : (ℓ : Loc nD τ sig) → Buf (Elt F) ℓ) (ρ : Dev nD → PrngReg)

/-- Core `c`'s arrays at launch (region 0's entry). -/
abbrev W0 : Dev nD → Valuation τ sig (Elt F) := fun c b => m (c, b)
/-- The same read at the TensorCore's references. -/
abbrev E0 : Entry F := fun c b => W0 m c b

/-- At region 0's exit: the factors' array at what the region's write-backs leave, every other array as launched. -/
def W1 (c : Dev nD) : Valuation τ sig (Elt F) :=
  Function.update (W0 m c) main_v0 ((R0.dat (E0 m) c).arrAt 1 cfg0.N)

/-- After the host stretch (region 1's entry). -/
abbrev W2 : Dev nD → Valuation τ sig (Elt F) := fun c => StableHlo.after hostOps1 (W1 R0 m c)
abbrev E2 : Entry F := fun c b => W2 R0 m c b

/-- At region 1's exit: the result array at what the region's write-backs leave, every other array as entered. -/
def W3 (c : Dev nD) : Valuation τ sig (Elt F) :=
  Function.update (W2 R0 m c) main_v5 ((R1.dat (E2 R0 m) c).arrAt 6 cfg1.N)

theorem W1_v0 (c : Dev nD) : W1 R0 m c main_v0 = (R0.dat (E0 m) c).arrAt 1 cfg0.N := by
  unfold W1; exact Function.update_self ..
theorem W1_of_ne (c : Dev nD) (b : Ref sig .tc) (h : b ≠ main_v0) : W1 R0 m c b = W0 m c b := by
  unfold W1; exact Function.update_of_ne (StableHlo.devRef_ne_of_ne h) ..
theorem W3_v5 (c : Dev nD) : W3 R0 R1 m c main_v5 = (R1.dat (E2 R0 m) c).arrAt 6 cfg1.N := by
  unfold W3; exact Function.update_self ..
theorem W3_of_ne (c : Dev nD) (b : Ref sig .tc) (h : b ≠ main_v5) : W3 R0 R1 m c b = W2 R0 m c b := by
  unfold W3; exact Function.update_of_ne (StableHlo.devRef_ne_of_ne h) ..

/-- The unscoped arrays of a core, one by one. -/
theorem held_chain (c : Dev nD) (W : Valuation τ sig (Elt F)) :
    (StableHlo.held (c : Thread nD τ) (Pipeline.ucRefs τ sig) W : sProp 𝕄)
      = iprop((((c : Thread nD τ).loc main_arg0) ↦{fullShare} W main_arg0) ∗ (((c : Thread nD τ).loc main_arg1) ↦{fullShare} W main_arg1)
          ∗ (((c : Thread nD τ).loc main_arg2) ↦{fullShare} W main_arg2) ∗ (((c : Thread nD τ).loc main_arg3) ↦{fullShare} W main_arg3)
          ∗ (((c : Thread nD τ).loc main_v0) ↦{fullShare} W main_v0) ∗ (((c : Thread nD τ).loc main_v1) ↦{fullShare} W main_v1)
          ∗ (((c : Thread nD τ).loc main_v2) ↦{fullShare} W main_v2) ∗ (((c : Thread nD τ).loc main_v3) ↦{fullShare} W main_v3)
          ∗ (((c : Thread nD τ).loc main_v4) ↦{fullShare} W main_v4) ∗ (((c : Thread nD τ).loc main_v5) ↦{fullShare} W main_v5)) := by
  rw [← Pipeline.unscopedBufs_held (Ix := Unit) (Name := ℕ) (U := UR sig nD τ) (Lvl := ℕ) c W]
  unfold unscopedBufs
  exact bigSep_eq_bigSepL_of_eq [main_arg0, main_arg1, main_arg2, main_arg3, main_v0, main_v1, main_v2, main_v3, main_v4, main_v5]
    (by decide) (by decide) _

end Boundaries

section Segments

variable (R0 : DegRegion F) (R1 : GcnRegion F)
variable (m : (ℓ : Loc nD τ sig) → Buf (Elt F) ℓ) (ρ : Dev nD → PrngReg)

/-- Region 0's arrays one by one: the adjacency matrix (read) and the factors (written), both whole. -/
theorem deg_arrays (V : Entry F) (c : Dev nD) (Fc : (w : Fin cfg0.W) → Buf (Elt F) ((cfg0.win w).arr.view.loc (c.tc : Thread nD τ))) :
    ((R0.dat V c).arrays Fc : sProp 𝕄)
      = iprop((((c : Thread nD τ).loc main_arg1) ↦{fullShare} Fc 0) ∗ (((c : Thread nD τ).loc main_v0) ↦{fullShare} Fc 1)) := by
  unfold Dat.arrays
  rw [bigSep_W0]
  rw [(R0.dat V c).share_full (R0.q_eq V c) 0, (R0.dat V c).share_full (R0.q_eq V c) 1, (arr_whole0 0).set_eq_univ, (arr_whole0 1).set_eq_univ]

theorem gcn_share (V : Entry F) (c : Dev nD) (w : Fin cfg1.W) : (R1.dat V c).share w = gcnShare w := by
  unfold Dat.share; rw [R1.q_eq V c w]; fin_cases w <;> rfl

/-- Region 1's arrays one by one: the factors' array appears twice, at the two halves of its share. -/
theorem gcn_arrays (V : Entry F) (c : Dev nD) (Fc : (w : Fin cfg1.W) → Buf (Elt F) ((cfg1.win w).arr.view.loc (c.tc : Thread nD τ))) :
    ((R1.dat V c).arrays Fc : sProp 𝕄)
      = iprop((((c : Thread nD τ).loc main_arg1) ↦{fullShare} Fc 0) ∗ (((c : Thread nD τ).loc main_v3) ↦{fullShare} Fc 1)
          ∗ (((c : Thread nD τ).loc main_v0) ↦{fullShare.left} Fc 2) ∗ (((c : Thread nD τ).loc main_v0) ↦{fullShare.right} Fc 3)
          ∗ (((c : Thread nD τ).loc main_v2) ↦{fullShare} Fc 4) ∗ (((c : Thread nD τ).loc main_v4) ↦{fullShare} Fc 5)
          ∗ (((c : Thread nD τ).loc main_v5) ↦{fullShare} Fc 6)) := by
  unfold Dat.arrays
  rw [bigSep_W1]
  rw [gcn_share R1 V c 0, gcn_share R1 V c 1, gcn_share R1 V c 2, gcn_share R1 V c 3, gcn_share R1 V c 4, gcn_share R1 V c 5, gcn_share R1 V c 6,
    (arr_whole1 0).set_eq_univ, (arr_whole1 1).set_eq_univ, (arr_whole1 2).set_eq_univ,
    (arr_whole1 4).set_eq_univ, (arr_whole1 5).set_eq_univ, (arr_whole1 6).set_eq_univ]
  all_goals rfl

end Segments

section Protocol

variable (R0 : DegRegion F) (R1 : GcnRegion F)
variable (m : (ℓ : Loc nD τ sig) → Buf (Elt F) ℓ) (ρ : Dev nD → PrngReg)

abbrev adm : (p : Fin 2) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0
/-- What rides beside the arrays through every segment: the generator register at some state, nothing owed. -/
abbrev Rest (c : Dev nD) : sProp 𝕄 := iprop((∃ r, prngReg c r) ∗ ∃ W, owes (c : Thread nD τ) (0 : CellTallies nD τ sig Unit) W)

/-- The arrays region 0 does not touch, at contents `W`. -/
abbrev degBypass (c : Dev nD) (W : Valuation τ sig (Elt F)) : sProp 𝕄 :=
  iprop((((c : Thread nD τ).loc main_arg0) ↦{fullShare} W main_arg0) ∗ (((c : Thread nD τ).loc main_arg2) ↦{fullShare} W main_arg2)
    ∗ (((c : Thread nD τ).loc main_arg3) ↦{fullShare} W main_arg3) ∗ (((c : Thread nD τ).loc main_v1) ↦{fullShare} W main_v1)
    ∗ (((c : Thread nD τ).loc main_v2) ↦{fullShare} W main_v2) ∗ (((c : Thread nD τ).loc main_v3) ↦{fullShare} W main_v3)
    ∗ (((c : Thread nD τ).loc main_v4) ↦{fullShare} W main_v4) ∗ (((c : Thread nD τ).loc main_v5) ↦{fullShare} W main_v5))

/-- The arrays region 1 does not touch, at contents `W`. -/
abbrev gcnBypass (c : Dev nD) (W : Valuation τ sig (Elt F)) : sProp 𝕄 :=
  iprop((((c : Thread nD τ).loc main_arg0) ↦{fullShare} W main_arg0) ∗ (((c : Thread nD τ).loc main_arg2) ↦{fullShare} W main_arg2)
    ∗ (((c : Thread nD τ).loc main_arg3) ↦{fullShare} W main_arg3) ∗ (((c : Thread nD τ).loc main_v1) ↦{fullShare} W main_v1))

theorem prefHeld_none (c : Dev nD) (p : Fin 2) :
    (BI.emp : sProp 𝕄) ⊢ Pipeline.prefHeld (pcfgs (F := F) p).pre c (fun _ => fullShare) (adm (F := F) p).1 := by
  unfold Pipeline.prefHeld; rw [show (Finset.univ : Finset (Fin 0)) = ∅ from rfl, BI.bigSep_empty]

/-- ENTRY of region 0: the adjacency matrix and the factors' array go to the pipeline, the generator register to
    its invariant, the other arrays bypass it. -/
theorem deg_entry (c : Dev nD) :
    iprop(iprop(StableHlo.held (c : Thread nD τ) (Pipeline.ucRefs τ sig) (W0 m c) ∗ Rest c) ∗ Pipeline.ownSems0 (fun k : PEmpty => k.elim) c ∗ (levAts L lv : sProp 𝕄))
      ⊢ |={Set.univ}=> iprop((R0.dat (E0 m) c).arrays ((R0.dat (E0 m) c).arrAt · 0)
          ∗ Pipeline.prefHeld (pcfgs (F := F) 0).pre c (fun _ => fullShare) (adm (F := F) 0).1
          ∗ (R0.dat (E0 m) c).owesAt () 0 ∗ iprop(∃ r, prngReg c r) ∗ degBypass c (W0 m c)) := by
  rw [deg_arrays R0 (E0 m) c, held_chain c (W0 m c)]
  iintro ⟨⟨⟨Ha0, Ha1, Ha2, Ha3, Hv0, Hv1, Hv2, Hv3, Hv4, Hv5⟩, Hp, HO⟩, -, -⟩
  imodintro
  isplitl [Ha1 Hv0]
  · isplitl [Ha1]
    · rw [show (R0.dat (E0 m) c).arrAt 0 0 = W0 m c main_arg1 from R0.A_eq (E0 m) c 0]; iexact Ha1
    · rw [show (R0.dat (E0 m) c).arrAt 1 0 = W0 m c main_v0 from R0.A_eq (E0 m) c 1]; iexact Hv0
  isplitr; · iapply (prefHeld_none c 0); iempintro
  isplitl [HO]
  · unfold Pipeline.Dat.owesAt Pipeline.owesWithin
    icases HO with ⟨%W, HO⟩; iexists W; isplitr; · ipureintro; unfold Pipeline.Dat.bound; rw [R0.recorded_eq]; exact fun _ _ => Or.inl trivial
    rw [R0.owed_eq]; iexact HO
  isplitl [Hp]; · iexact Hp
  isplitl [Ha0]; · iexact Ha0
  isplitl [Ha2]; · iexact Ha2
  isplitl [Ha3]; · iexact Ha3
  isplitl [Hv1]; · iexact Hv1
  isplitl [Hv2]; · iexact Hv2
  isplitl [Hv3]; · iexact Hv3
  isplitl [Hv4]; · iexact Hv4
  iexact Hv5

end Protocol

section Protocol2

variable (R0 : DegRegion F) (R1 : GcnRegion F)
variable (m : (ℓ : Loc nD τ sig) → Buf (Elt F) ℓ) (ρ : Dev nD → PrngReg)

/-- The invariant of region 0 at its first point: the generator register and the scoped buffers no window stages. -/
theorem deg_in (c : Dev nD) :
    iprop(iprop(∃ r, prngReg c r) ∗ Pipeline.prefHeld (pcfgs (F := F) 0).pre c (fun _ => fullShare) (adm (F := F) 0).1 ∗ (Pipeline.scopedRest spec0 c : sProp 𝕄))
      ⊢ (R0.dat (E0 m) c).Φ 0 := by
  refine .trans ?_ (R0.hin (E0 m) c)
  unfold Pipeline.ΦA
  iintro ⟨Hp, -, Hr⟩
  isplitl [Hr]; · iexact Hr
  iexact Hp

theorem deg_out (c : Dev nD) :
    (R0.dat (E0 m) c).Φ (Fin.last cfg0.N)
      ⊢ iprop(iprop(∃ r, prngReg c r) ∗ Pipeline.ownSems0 (fun k : PEmpty => k.elim) c ∗ (Pipeline.scopedRest spec0 c : sProp 𝕄)) := by
  refine (R0.hout (E0 m) c).trans ?_
  rw [Pipeline.ownSems0_none]; unfold Pipeline.ΦA
  iintro ⟨Hr, Hp⟩
  isplitl [Hp]; · iexact Hp
  isplitr; · iempintro
  iexact Hr

/-- EXIT of region 0: the adjacency matrix as entered, the factors' array at what the write-backs leave, the
    bypassing arrays as they were: the arrays at the next boundary's contents. -/
theorem deg_exit (c : Dev nD) :
    iprop((R0.dat (E0 m) c).arrays ((R0.dat (E0 m) c).arrAt · cfg0.N) ∗ (R0.dat (E0 m) c).owesAt () (Fin.last cfg0.N)
        ∗ iprop(∃ r, prngReg c r) ∗ degBypass c (W0 m c))
      ⊢ |={Set.univ}=> iprop(StableHlo.held (c : Thread nD τ) (Pipeline.ucRefs τ sig) (W1 R0 m c) ∗ Rest c) := by
  rw [deg_arrays R0 (E0 m) c, held_chain c (W1 R0 m c)]
  rw [W1_v0, W1_of_ne R0 m c main_arg0 (by decide), W1_of_ne R0 m c main_arg1 (by decide), W1_of_ne R0 m c main_arg2 (by decide),
    W1_of_ne R0 m c main_arg3 (by decide), W1_of_ne R0 m c main_v1 (by decide), W1_of_ne R0 m c main_v2 (by decide),
    W1_of_ne R0 m c main_v3 (by decide), W1_of_ne R0 m c main_v4 (by decide), W1_of_ne R0 m c main_v5 (by decide)]
  rw [show (R0.dat (E0 m) c).arrAt 0 cfg0.N = W0 m c main_arg1 from ((R0.dat (E0 m) c).arrAt_in 0 rfl _).trans (R0.A_eq (E0 m) c 0)]
  unfold Pipeline.Dat.owesAt Pipeline.owesWithin
  rw [R0.owed_eq]
  iintro ⟨⟨Ha1, Hv0⟩, ⟨%W, -, HO⟩, Hp, Ha0, Ha2, Ha3, Hv1, Hv2, Hv3, Hv4, Hv5⟩
  imodintro
  isplitr [Hp HO]
  · isplitl [Ha0]; · iexact Ha0
    isplitl [Ha1]; · iexact Ha1
    isplitl [Ha2]; · iexact Ha2
    isplitl [Ha3]; · iexact Ha3
    isplitl [Hv0]; · iexact Hv0
    isplitl [Hv1]; · iexact Hv1
    isplitl [Hv2]; · iexact Hv2
    isplitl [Hv3]; · iexact Hv3
    isplitl [Hv4]; · iexact Hv4
    iexact Hv5
  isplitl [Hp]; · iexact Hp
  iexists W; iexact HO

/-- ENTRY of region 1: the factors' array is split in two halves, one for the window that reads a row tile's
    factors and one for the window that reads a column tile's. -/
theorem gcn_entry (c : Dev nD) :
    iprop(iprop(StableHlo.held (c : Thread nD τ) (Pipeline.ucRefs τ sig) (W2 R0 m c) ∗ Rest c) ∗ Pipeline.ownSems0 (fun k : PEmpty => k.elim) c ∗ (levAts L lv : sProp 𝕄))
      ⊢ |={Set.univ}=> iprop((R1.dat (E2 R0 m) c).arrays ((R1.dat (E2 R0 m) c).arrAt · 0)
          ∗ Pipeline.prefHeld (pcfgs (F := F) 1).pre c (fun _ => fullShare) (adm (F := F) 1).1
          ∗ (R1.dat (E2 R0 m) c).owesAt () 0 ∗ iprop(∃ r, prngReg c r) ∗ gcnBypass c (W2 R0 m c)) := by
  rw [gcn_arrays R1 (E2 R0 m) c, held_chain c (W2 R0 m c)]
  iintro ⟨⟨⟨Ha0, Ha1, Ha2, Ha3, Hv0, Hv1, Hv2, Hv3, Hv4, Hv5⟩, Hp, HO⟩, -, -⟩
  ihave Hv0 := (pointsTo_share (PosShare.mem_left_op_right fullShare)).1 $$ Hv0
  icases Hv0 with ⟨Hv0l, Hv0r⟩
  imodintro
  isplitl [Ha1 Hv3 Hv0l Hv0r Hv2 Hv4 Hv5]
  · isplitl [Ha1]
    · rw [show (R1.dat (E2 R0 m) c).arrAt 0 0 = W2 R0 m c main_arg1 from R1.A_eq (E2 R0 m) c 0]; iexact Ha1
    isplitl [Hv3]
    · rw [show (R1.dat (E2 R0 m) c).arrAt 1 0 = W2 R0 m c main_v3 from R1.A_eq (E2 R0 m) c 1]; iexact Hv3
    isplitl [Hv0l]
    · rw [show (R1.dat (E2 R0 m) c).arrAt 2 0 = W2 R0 m c main_v0 from R1.A_eq (E2 R0 m) c 2]; iexact Hv0l
    isplitl [Hv0r]
    · rw [show (R1.dat (E2 R0 m) c).arrAt 3 0 = W2 R0 m c main_v0 from R1.A_eq (E2 R0 m) c 3]; iexact Hv0r
    isplitl [Hv2]
    · rw [show (R1.dat (E2 R0 m) c).arrAt 4 0 = W2 R0 m c main_v2 from R1.A_eq (E2 R0 m) c 4]; iexact Hv2
    isplitl [Hv4]
    · rw [show (R1.dat (E2 R0 m) c).arrAt 5 0 = W2 R0 m c main_v4 from R1.A_eq (E2 R0 m) c 5]; iexact Hv4
    · rw [show (R1.dat (E2 R0 m) c).arrAt 6 0 = W2 R0 m c main_v5 from R1.A_eq (E2 R0 m) c 6]; iexact Hv5
  isplitr; · iapply (prefHeld_none c 1); iempintro
  isplitl [HO]
  · unfold Pipeline.Dat.owesAt Pipeline.owesWithin
    icases HO with ⟨%W, HO⟩; iexists W; isplitr; · ipureintro; unfold Pipeline.Dat.bound; rw [R1.recorded_eq]; exact fun _ _ => Or.inl trivial
    rw [R1.owed_eq]; iexact HO
  isplitl [Hp]; · iexact Hp
  isplitl [Ha0]; · iexact Ha0
  isplitl [Ha2]; · iexact Ha2
  isplitl [Ha3]; · iexact Ha3
  iexact Hv1

theorem gcn_in (c : Dev nD) :
    iprop(iprop(∃ r, prngReg c r) ∗ Pipeline.prefHeld (pcfgs (F := F) 1).pre c (fun _ => fullShare) (adm (F := F) 1).1 ∗ (Pipeline.scopedRest spec1 c : sProp 𝕄))
      ⊢ (R1.dat (E2 R0 m) c).Φ 0 := by
  refine .trans ?_ (R1.hin (E2 R0 m) c)
  unfold Pipeline.ΦA
  iintro ⟨Hp, -, Hr⟩
  isplitl [Hr]; · iexact Hr
  iexact Hp

theorem gcn_out (c : Dev nD) :
    (R1.dat (E2 R0 m) c).Φ (Fin.last cfg1.N)
      ⊢ iprop(iprop(∃ r, prngReg c r) ∗ Pipeline.ownSems0 (fun k : PEmpty => k.elim) c ∗ (Pipeline.scopedRest spec1 c : sProp 𝕄)) := by
  refine (R1.hout (E2 R0 m) c).trans ?_
  rw [Pipeline.ownSems0_none]; unfold Pipeline.ΦA
  iintro ⟨Hr, Hp⟩
  isplitl [Hp]; · iexact Hp
  isplitr; · iempintro
  iexact Hr

/-- EXIT of region 1: every input array as entered (the two halves of the factors' array joined), the result
    array at what the write-backs leave. -/
theorem gcn_exit (c : Dev nD) :
    iprop((R1.dat (E2 R0 m) c).arrays ((R1.dat (E2 R0 m) c).arrAt · cfg1.N) ∗ (R1.dat (E2 R0 m) c).owesAt () (Fin.last cfg1.N)
        ∗ iprop(∃ r, prngReg c r) ∗ gcnBypass c (W2 R0 m c))
      ⊢ |={Set.univ}=> iprop(iprop(StableHlo.held (c : Thread nD τ) (Pipeline.ucRefs τ sig) (W3 R0 R1 m c) ∗ ∃ r, prngReg c r)
          ∗ ∃ W, owes (c : Thread nD τ) (0 : CellTallies nD τ sig Unit) W) := by
  rw [gcn_arrays R1 (E2 R0 m) c, held_chain c (W3 R0 R1 m c)]
  rw [W3_v5, W3_of_ne R0 R1 m c main_arg0 (by decide), W3_of_ne R0 R1 m c main_arg1 (by decide), W3_of_ne R0 R1 m c main_arg2 (by decide),
    W3_of_ne R0 R1 m c main_arg3 (by decide), W3_of_ne R0 R1 m c main_v0 (by decide), W3_of_ne R0 R1 m c main_v1 (by decide),
    W3_of_ne R0 R1 m c main_v2 (by decide), W3_of_ne R0 R1 m c main_v3 (by decide), W3_of_ne R0 R1 m c main_v4 (by decide)]
  rw [show (R1.dat (E2 R0 m) c).arrAt 0 cfg1.N = W2 R0 m c main_arg1 from ((R1.dat (E2 R0 m) c).arrAt_in 0 rfl _).trans (R1.A_eq (E2 R0 m) c 0),
    show (R1.dat (E2 R0 m) c).arrAt 1 cfg1.N = W2 R0 m c main_v3 from ((R1.dat (E2 R0 m) c).arrAt_in 1 rfl _).trans (R1.A_eq (E2 R0 m) c 1),
    show (R1.dat (E2 R0 m) c).arrAt 2 cfg1.N = W2 R0 m c main_v0 from ((R1.dat (E2 R0 m) c).arrAt_in 2 rfl _).trans (R1.A_eq (E2 R0 m) c 2),
    show (R1.dat (E2 R0 m) c).arrAt 3 cfg1.N = W2 R0 m c main_v0 from ((R1.dat (E2 R0 m) c).arrAt_in 3 rfl _).trans (R1.A_eq (E2 R0 m) c 3),
    show (R1.dat (E2 R0 m) c).arrAt 4 cfg1.N = W2 R0 m c main_v2 from ((R1.dat (E2 R0 m) c).arrAt_in 4 rfl _).trans (R1.A_eq (E2 R0 m) c 4),
    show (R1.dat (E2 R0 m) c).arrAt 5 cfg1.N = W2 R0 m c main_v4 from ((R1.dat (E2 R0 m) c).arrAt_in 5 rfl _).trans (R1.A_eq (E2 R0 m) c 5)]
  unfold Pipeline.Dat.owesAt Pipeline.owesWithin
  rw [R1.owed_eq]
  iintro ⟨⟨Ha1, Hv3, Hv0l, Hv0r, Hv2, Hv4, Hv5⟩, ⟨%W, -, HO⟩, Hp, Ha0, Ha2, Ha3, Hv1⟩
  ihave Hv0 := (pointsTo_share (PosShare.mem_left_op_right fullShare)).2 $$ [Hv0l Hv0r]
  · isplitl [Hv0l] <;> iassumption
  imodintro
  isplitr [HO]
  · isplitr [Hp]
    · isplitl [Ha0]; · iexact Ha0
      isplitl [Ha1]; · iexact Ha1
      isplitl [Ha2]; · iexact Ha2
      isplitl [Ha3]; · iexact Ha3
      isplitl [Hv0]; · iexact Hv0
      isplitl [Hv1]; · iexact Hv1
      isplitl [Hv2]; · iexact Hv2
      isplitl [Hv3]; · iexact Hv3
      isplitl [Hv4]; · iexact Hv4
      iexact Hv5
    iexact Hp
  iexists W; iexact HO

end Protocol2

section TheRun

variable (R0 : DegRegion F) (R1 : GcnRegion F)
variable (m : (ℓ : Loc nD τ sig) → Buf (Elt F) ℓ) (ρ : Dev nD → PrngReg)

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => R0.dat (E0 m) c
  | ⟨1, _⟩ => fun c => R1.dat (E2 R0 m) c

/-- The last thread state without the `owes`: every array at the last boundary's contents, the generator register. -/
abbrev Tₙ (c : Dev nD) : sProp 𝕄 := iprop(StableHlo.held (c : Thread nD τ) (Pipeline.ucRefs τ sig) (W3 R0 R1 m c) ∗ ∃ r, prngReg c r)

/-- The host stretch between the regions as a segment over all the arrays. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 R0 m) (fun c => Rest c)

set_option backward.isDefEq.respectTransparency.types false in
/-- Region 0 as a segment: entered from the launch contents, left with the factors' array written. -/
def reg0 : Pipeline.RegionSeg (pcfgs (F := F)) adm (pdats R0 R1 m) () defs₀ 𝒱₀ L lv 0 where
  win := launch0.win.to₀
  block_pos := launch0.block_pos
  stage_whole := launch0.stage_whole
  K := PEmpty
  osem k := k.elim
  ho := Pipeline.OwnSemFacts.none _
  hbody c := (R0.body (E0 m) c).loose
  hwaits := Pipeline.hwaits_of_owed_zero _ _ _ _ L lv 0 fun c t => R0.owed_eq (E0 m) c t
  pre c := iprop(StableHlo.held (c : Thread nD τ) (Pipeline.ucRefs τ sig) (W0 m c) ∗ Rest c)
  post c := iprop(StableHlo.held (c : Thread nD τ) (Pipeline.ucRefs τ sig) (W1 R0 m c) ∗ Rest c)
  X c := iprop(∃ r, prngReg c r)
  Y c := iprop(∃ r, prngReg c r)
  Z c := degBypass c (W0 m c)
  hentry c := deg_entry R0 m c
  hin c := deg_in R0 m c
  hout c := deg_out R0 m c
  hexit c := deg_exit R0 m c

set_option backward.isDefEq.respectTransparency.types false in
/-- Region 1 as a segment: entered from the contents the host stretch leaves, left with the result array written. -/
def reg1 : Pipeline.RegionSeg (pcfgs (F := F)) adm (pdats R0 R1 m) () defs₀ 𝒱₀ L lv 1 where
  win := winFacts₀1
  block_pos := block_pos1
  stage_whole := stage_whole1
  K := PEmpty
  osem k := k.elim
  ho := Pipeline.OwnSemFacts.none _
  hbody c := (R1.body (E2 R0 m) c).loose
  hwaits := Pipeline.hwaits_of_owed_zero _ _ _ _ L lv 1 fun c t => R1.owed_eq (E2 R0 m) c t
  pre c := iprop(StableHlo.held (c : Thread nD τ) (Pipeline.ucRefs τ sig) (W2 R0 m c) ∗ Rest c)
  post c := iprop(Tₙ R0 R1 m c ∗ ∃ W, owes (c : Thread nD τ) (0 : CellTallies nD τ sig Unit) W)
  X c := iprop(∃ r, prngReg c r)
  Y c := iprop(∃ r, prngReg c r)
  Z c := gcnBypass c (W2 R0 m c)
  hentry c := gcn_entry R0 R1 m c
  hin c := gcn_in R0 R1 m c
  hout c := gcn_out R0 R1 m c
  hexit c := gcn_exit R0 R1 m c

/-- @main's three segments in order. -/
abbrev segs : List (Pipeline.Seg (pcfgs (F := F)) adm (pdats R0 R1 m) () defs₀ 𝒱₀ L lv) :=
  [ .region (reg0 R0 R1 m), .host (hostSeg R0 m), .region (reg1 R0 R1 m) ]

theorem main_run (c : Dev nD) : main (F := F) c = Pipeline.Seg.run (segs R0 R1 m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting,
    and every final state holds every array of @main at the last boundary's contents. -/
theorem run : θ_run defs (onTc (τ := τ) (main (F := F))) ⟨m, fun _ => 0, ρ⟩
    (fun r => ∀ c : Dev nD, ∀ b ∈ Pipeline.ucRefs τ sig, r.2.mem (((c : Thread nD τ)).1, b) = W3 R0 R1 m c b) :=
  Pipeline.θ_run_regions_kit (pcfgs (F := F)) adm (pdats R0 R1 m) () cellOf_inj emb₁ defs₀ 𝒱₀ L lv m ρ main (segs R0 R1 m)
    (fun c Q => by rw [main_run R0 R1 m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Tₙ R0 R1 m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 R0 R1 m c b)
    (hfin := fun c s' => by
      iintro ⟨⟨Hh, -⟩, HSI⟩
      unfold StableHlo.held
      imodintro
      iapply (pointsTo_read_all (Pipeline.ucRefs τ sig) (fun b => (((c : Thread nD τ)).1, b)) (W3 R0 R1 m c) s')
      isplitl [Hh] <;> iassumption)
    (hQ := fun s h => h)

end TheRun

section Frame

variable (R0 : DegRegion F) (R1 : GcnRegion F)
variable (m : (ℓ : Loc nD τ sig) → Buf (Elt F) ℓ) (ρ : Dev nD → PrngReg)

/-- An array no region writes and no host operation writes ends as launched. -/
theorem W3_kept (c : Dev nD) (b : Ref sig .tc) (h5 : b ≠ main_v5) (hW : b ∉ hostOps1_W) (h0 : b ≠ main_v0) :
    W3 R0 R1 m c b = m ((c : Thread nD τ).loc b) :=
  (W3_of_ne R0 R1 m c b h5).trans <| (StableHlo.after_of_writes_sub hostOps1 _ hostOps1_writes hW).trans <|
    (W1_of_ne R0 m c b h0).trans rfl

include R0 R1 in
/-- THE FRAME: every weakly fair execution terminates, nothing faulting, with the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_kept R0 R1 m c main_arg0 (by decide) (by decide) (by decide)),
     (h c _ (mem_uc main_arg1 (by decide))).trans (W3_kept R0 R1 m c main_arg1 (by decide) (by decide) (by decide)),
     (h c _ (mem_uc main_arg2 (by decide))).trans (W3_kept R0 R1 m c main_arg2 (by decide) (by decide) (by decide)),
     (h c _ (mem_uc main_arg3 (by decide))).trans (W3_kept R0 R1 m c main_arg3 (by decide) (by decide) (by decide))⟩)
    (run R0 R1 m ρ)

/-- The result array after the run: what region 1's write-backs leave. -/
theorem result (r : PUnit × MemSt nD τ sig (Elt F)) (h : ∀ c : Dev nD, ∀ b ∈ Pipeline.ucRefs τ sig, r.2.mem (((c : Thread nD τ)).1, b) = W3 R0 R1 m c b)
    (c : Dev nD) : r.2.mem ((c.tc : Thread nD τ).loc main_v5) = (R1.dat (E2 R0 m) c).arrAt 6 cfg1.N :=
  (h c _ (mem_uc main_v5 (by decide))).trans (W3_v5 R0 R1 m c)

end Frame

end Cert.Kernel.Run

end
-- ==== Proof.KDegRuns.lean ====
/-
  The degree kernel, one grid point at a time. Its grid is 8 column tiles by 8 row tiles of the adjacency matrix
  (point t = 8·j + i, column tile j, row tile i). A scratch row of 1024 entries carries the partial column sums down
  one column of tiles: at the first row tile it is set to zero, at every row tile the column sums of the current
  1024×1024 tile are added to it, and at the last row tile the normalising factor of (sum + 1) is stored to the output
  row. So a point is in one of three cases — first row tile, a middle one, the last — and this module runs the body
  once per case on arbitrary whole memrefs: what each case leaves in the scratch row and in the output row, as the
  list of stores the run finds.
-/
import proofs.«104315_j2027224564458_2_alg».proof.Proof.Gen.Kernel.Launch
import proofs.«104315_j2027224564458_2_alg».proof.Proof.Gen.Kernel.Skeleton
import proofs.«104315_j2027224564458_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Deg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Which row tile a point is at -/

/-- The point is at the first row tile: the body's first conditional (the zeroing of the scratch row) is taken. -/
abbrev atFirstRow (i : grid0.Coords) : Prop := (Scalar.cmpi .ne (Scalar.extui (Scalar.cmpi .eq (BitVec.ofNat 32 (i 1).val) 0#32)) 0#32) = 1#1
/-- That is at the points ≡ 0 (mod 8). -/
theorem atFirstRow_iff : ∀ t : Fin cfg0.N, atFirstRow (grid0.coords t) ↔ t.val % 8 = 0 :=
  (by decide +kernel : ∀ t : Fin grid0.N, atFirstRow (grid0.coords t) ↔ t.val % 8 = 0)

/-- The point is at the last row tile: the body's second conditional (the store of the normalising factor) is taken. -/
abbrev atLastRow (i : grid0.Coords) : Prop := k0_cond2 i = 1#1
/-- That is at the points ≡ 7 (mod 8). -/
theorem atLastRow_iff : ∀ t : Fin cfg0.N, atLastRow (grid0.coords t) ↔ t.val % 8 = 7 :=
  (by decide +kernel : ∀ t : Fin grid0.N, atLastRow (grid0.coords t) ↔ t.val % 8 = 7)

/-! ## Where the output row is idle -/

/-- The adjacency window is an input: never idle. -/
theorem adj_live : ∀ t : Fin cfg0.N, cfg0.idle 0 (grid0.coords t) = false := by decide +kernel
/-- Below the last row tile nothing is stored to the output row and it is not written back. -/
theorem out_idle_first : ∀ t : Fin cfg0.N, atFirstRow (grid0.coords t) → ¬atLastRow (grid0.coords t) → cfg0.idle 1 (grid0.coords t) = true := by decide +kernel
theorem out_noFlush_first : ∀ t : Fin cfg0.N, atFirstRow (grid0.coords t) → ¬atLastRow (grid0.coords t) → (cfg0.win 1).flush t = false := by decide +kernel
theorem out_idle_mid : ∀ t : Fin cfg0.N, ¬atFirstRow (grid0.coords t) → ¬atLastRow (grid0.coords t) → cfg0.idle 1 (grid0.coords t) = true := by decide +kernel
theorem out_noFlush_mid : ∀ t : Fin cfg0.N, ¬atFirstRow (grid0.coords t) → ¬atLastRow (grid0.coords t) → (cfg0.win 1).flush t = false := by decide +kernel
/-- At the last row tile the output row is stored. -/
theorem out_live_last : ∀ t : Fin cfg0.N, ¬atFirstRow (grid0.coords t) → atLastRow (grid0.coords t) → cfg0.idle 1 (grid0.coords t) = false := by decide +kernel

/-! ## The memrefs the body is called with -/

/-- One staging buffer of the output row, through which its contents are stated (the choice does not matter). -/
abbrev outView : View sig .tc .vmem S1x1024 .f32 := (Memref.whole cc0_stg1_0 : Memref sig .tc .vmem S1x1024 .f32).view
/-- The current staging memrefs at point `t`, as the pipeline passes them, and their wholeness. -/
abbrev adjStage (t : Fin cfg0.N) : Memref sig .tc .vmem S1024x1024 .f32 := win0_0.stage (cfg0.slots t 0)
abbrev adjStage_whole (t : Fin cfg0.N) : (adjStage t).IsWhole := hstage0_0 ((cfg0.slots t 0).cast nbuf0_0)
abbrev outStage (t : Fin cfg0.N) : Memref sig .tc .vmem S1x1024 .f32 := win0_1.stage (cfg0.slots t 1)
abbrev outStage_whole (t : Fin cfg0.N) : (outStage t).IsWhole := hstage0_1 ((cfg0.slots t 1).cast nbuf0_1)
/-- The scratch row, a whole scoped buffer of the kernel's own, and its view. -/
abbrev accRef : Memref sig .tc .vmem S1x1024 .f32 := Memref.whole cc0_scratch0
abbrev accView : View sig .tc .vmem S1x1024 .f32 := accRef.view

/-- The core's scoped buffers other than this call's staging buffers and its scratch row (the second call's staging
    buffers and scratch), each at some contents: carried through the region unopened. -/
abbrev othersRest (c : Dev nD) : sProp 𝕄 :=
  Pipeline.scopedRestBut (Ix := Unit) (Name := ℕ) (U := UR sig nD τ) (Lvl := ℕ) (Val := Elt F) spec0 c [cc0_scratch0]

/-- The region's class invariant with the scratch row split out as a memref owned at some contents. -/
theorem PhiA_eq (c : Dev nD) :
    (Pipeline.ΦA spec0 c : sProp 𝕄)
      = iprop(iprop((∃ d, owns (c : Thread nD τ) accRef fullShare d) ∗ othersRest (F := F) c) ∗ (∃ r, prngReg c r)) := by
  unfold Pipeline.ΦA
  rw [Pipeline.scopedRest_split_of_list spec0 c [cc0_scratch0] (by decide) (by decide)]
  simp only [accRef, owns_whole]; try rfl

/-! ## The body, case by case -/

set_option maxHeartbeats 1000000 in
/-- FIRST ROW TILE. The stores the body leaves in the output row (none) and in the scratch row (the zeroing, then the
    sum of the zero row and the tile's column sums), with the proof that on whole memrefs — the adjacency tile at `a`,
    the output row at `o` handed back untouched, the scratch row at anything — the body runs to a continuation that
    holds the tile as it was, the output row as it was and the scratch row with those stores written. -/
noncomputable def runFirst (c : Dev nD) (i : grid0.Coords) (adj : Memref sig .tc .vmem S1024x1024 .f32) (hadj : adj.IsWhole)
    (dm : Memref sig .tc .vmem S1x1024 .f32) (hdm : dm.IsWhole) (acc : Memref sig .tc .vmem S1x1024 .f32) (hacc : acc.IsWhole)
    (hf : atFirstRow i) (hl : ¬atLastRow i) (a : Vec F S1024x1024 .f32) :
    Σ' (Lout : List (View.Piece (Elt F) S1x1024 .f32)), { Lacc : List (View.Piece (Elt F) S1x1024 .f32) //
      ∀ (o : Vec F S1x1024 .f32) (E : Set ℕ) (K : PUnit → sProp 𝕄),
        iprop(owns (c : Thread nD τ) adj fullShare a ∗ owns (c : Thread nD τ) dm fullShare o ∗ (∃ d, owns (c : Thread nD τ) acc fullShare d)
            ∗ (iprop(owns (c : Thread nD τ) adj fullShare a ∗ owns (c : Thread nD τ) dm fullShare o ∗ (∃ f, acc.view.loc (c : Thread nD τ) ↦[acc.view.set]{fullShare} acc.view.writes (Elt F) f Lacc)) -∗ K ⟨⟩))
          ⊢ wp frame (wpE (defs₀ (F := F)) Variants.none c none) E (cc0__deg_kernel i adj hadj dm hdm acc hacc) K } := by
  refine ⟨[], ?_, fun o E K => ?run⟩
  case run =>
    simp only [cc0__deg_kernel_eq_skeleton]; unfold cc0__deg_kernel_skel
    unfold owns
    iintro ⟨⟨%f0, %hf0, H0⟩, ⟨%f1, %hf1, H1⟩, ⟨%ds0, %fs0, -, HS0⟩, Hk⟩
    obtain rfl := hadj.eq_unread hf0; obtain rfl := hdm.eq_unread hf1
    sl_exec (disch := first | exact hf | exact hl)
    sl_step
    iapply Hk
    isplitl [H0]
    · iexists _; isplitr; · ipureintro; exact hadj.read_unread _
      iexact H0
    isplitl [H1]
    · iexists _; isplitr; · ipureintro; exact hdm.read_unread _
      iexact H1
    iexists _; iexact HS0

set_option maxHeartbeats 1000000 in
/-- A MIDDLE ROW TILE. No store to the output row; one store to the scratch row: what the row tile before left in it
    (`s`) plus the tile's column sums. -/
noncomputable def runMid (c : Dev nD) (i : grid0.Coords) (adj : Memref sig .tc .vmem S1024x1024 .f32) (hadj : adj.IsWhole)
    (dm : Memref sig .tc .vmem S1x1024 .f32) (hdm : dm.IsWhole) (acc : Memref sig .tc .vmem S1x1024 .f32) (hacc : acc.IsWhole)
    (hf : ¬atFirstRow i) (hl : ¬atLastRow i) (a : Vec F S1024x1024 .f32) (s : Vec F S1x1024 .f32) :
    Σ' (Lout : List (View.Piece (Elt F) S1x1024 .f32)), { Lacc : List (View.Piece (Elt F) S1x1024 .f32) //
      ∀ (o : Vec F S1x1024 .f32) (E : Set ℕ) (K : PUnit → sProp 𝕄),
        iprop(owns (c : Thread nD τ) adj fullShare a ∗ owns (c : Thread nD τ) dm fullShare o ∗ owns (c : Thread nD τ) acc fullShare s
            ∗ (iprop(owns (c : Thread nD τ) adj fullShare a ∗ owns (c : Thread nD τ) dm fullShare o ∗ (∃ f, acc.view.loc (c : Thread nD τ) ↦[acc.view.set]{fullShare} acc.view.writes (Elt F) f Lacc)) -∗ K ⟨⟩))
          ⊢ wp frame (wpE (defs₀ (F := F)) Variants.none c none) E (cc0__deg_kernel i adj hadj dm hdm acc hacc) K } := by
  refine ⟨[], ?_, fun o E K => ?run⟩
  case run =>
    simp only [cc0__deg_kernel_eq_skeleton]; unfold cc0__deg_kernel_skel
    unfold owns
    iintro ⟨⟨%f0, %hf0, H0⟩, ⟨%f1, %hf1, H1⟩, ⟨%fs0, %hfs0, HS0⟩, Hk⟩
    obtain rfl := hadj.eq_unread hf0; obtain rfl := hdm.eq_unread hf1; obtain rfl := hacc.eq_unread hfs0
    sl_exec (disch := first | exact hf | exact hl)
    sl_step
    iapply Hk
    isplitl [H0]
    · iexists _; isplitr; · ipureintro; exact hadj.read_unread _
      iexact H0
    isplitl [H1]
    · iexists _; isplitr; · ipureintro; exact hdm.read_unread _
      iexact H1
    iexists _; iexact HS0

set_option maxHeartbeats 1000000 in
/-- THE LAST ROW TILE. One store to the scratch row (the carried sums `s` plus the tile's column sums) and one to the
    output row: the normalising factor of that total plus one. The output row is taken at anything. -/
noncomputable def runLast (c : Dev nD) (i : grid0.Coords) (adj : Memref sig .tc .vmem S1024x1024 .f32) (hadj : adj.IsWhole)
    (dm : Memref sig .tc .vmem S1x1024 .f32) (hdm : dm.IsWhole) (acc : Memref sig .tc .vmem S1x1024 .f32) (hacc : acc.IsWhole)
    (hf : ¬atFirstRow i) (hl : atLastRow i) (a : Vec F S1024x1024 .f32) (s : Vec F S1x1024 .f32) :
    Σ' (Lout : List (View.Piece (Elt F) S1x1024 .f32)), { Lacc : List (View.Piece (Elt F) S1x1024 .f32) //
      ∀ (E : Set ℕ) (K : PUnit → sProp 𝕄),
        iprop(owns (c : Thread nD τ) adj fullShare a ∗ (∃ d, owns (c : Thread nD τ) dm fullShare d) ∗ owns (c : Thread nD τ) acc fullShare s
            ∗ (iprop(owns (c : Thread nD τ) adj fullShare a ∗ (∃ f, dm.view.loc (c : Thread nD τ) ↦[dm.view.set]{fullShare} dm.view.writes (Elt F) f Lout) ∗ (∃ f, acc.view.loc (c : Thread nD τ) ↦[acc.view.set]{fullShare} acc.view.writes (Elt F) f Lacc)) -∗ K ⟨⟩))
          ⊢ wp frame (wpE (defs₀ (F := F)) Variants.none c none) E (cc0__deg_kernel i adj hadj dm hdm acc hacc) K } := by
  refine ⟨?_, ?_, fun E K => ?run⟩
  case run =>
    simp only [cc0__deg_kernel_eq_skeleton]; unfold cc0__deg_kernel_skel
    unfold owns
    iintro ⟨⟨%f0, %hf0, H0⟩, ⟨%d1, %f1, -, H1⟩, ⟨%fs0, %hfs0, HS0⟩, Hk⟩
    obtain rfl := hadj.eq_unread hf0; obtain rfl := hacc.eq_unread hfs0
    sl_exec (disch := first | exact hf | exact hl)
    sl_step
    iapply Hk
    isplitl [H0]
    · iexists _; isplitr; · ipureintro; exact hadj.read_unread _
      iexact H0
    isplitl [H1]; · iexists _; iexact H1
    iexists _; iexact HS0

end Cert.Kernel.Deg

end
-- ==== Proof.KDegBody.lean ====
/-
  The degree kernel's region as proof data for the pipeline. From the three runs of the body (first, middle, last row
  tile) this module states what the output row's staging buffer and the scratch row hold after every grid point —
  a recursion over the points in which the scratch row at a point is computed from what the point before left in it —
  carries the scratch row through the region's invariant, and proves the body obligation at a generic point by
  deciding which row tile the point is at. Everything is stated at a parameter `V`: the buffer contents when the
  region is entered.
-/
import proofs.«104315_j2027224564458_2_alg».proof.Proof.KDegRuns

set_option maxRecDepth 16384

noncomputable section

namespace Cert.Kernel.Deg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. For the adjacency window this is the
    1024×1024 tile at row tile `t % 8`, column tile `t / 8`. -/
def tileAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's current staging buffer holds its tile at every point, for any proof data whose array is
    `V`'s and whose body leaves the tile in place (the window is fetched at every point, uncut, never idle). -/
theorem before_adj_of {c : Dev nD} (dat : Dat τ (Elt F) Unit ℕ (UR sig nD τ) ℕ cfg0 c) (hA : dat.A 0 = V c (Pipeline.arrRef spec0 0))
    (hafter : ∀ t, dat.after 0 t = tileAt V c 0 t) (t : Fin cfg0.N) (d) : dat.before 0 t d = tileAt V c 0 t :=
  (dat.before_in_eq_fetched 0 rfl (fun _ => rfl) (fun _ _ _ => rfl) (fun t => by rw [hafter]; unfold Dat.blockOf tileAt; rw [hA]; try rfl) t d).trans
    (by unfold Dat.fetched Dat.blockOf tileAt; rw [hA]; try rfl)

/-! ## The three runs at a grid point -/

/-- The body's run at a point `t` of the first row tile: on the point's staging memrefs and the scratch row, the
    adjacency tile at its block. -/
abbrev firstAt (c : Dev nD) (t : Fin cfg0.N) (h0 : t.val % 8 = 0) (h7 : ¬t.val % 8 = 7) :=
  runFirst (F := F) c (grid0.coords t) (adjStage t) (adjStage_whole t) (outStage t) (outStage_whole t) accRef (Memref.isWhole_whole _)
    ((atFirstRow_iff t).mpr h0) (fun h => h7 ((atLastRow_iff t).mp h)) (tileAt V c 0 t)
/-- At a middle row tile, over the scratch row's contents `s`. -/
abbrev midAt (c : Dev nD) (t : Fin cfg0.N) (h0 : ¬t.val % 8 = 0) (h7 : ¬t.val % 8 = 7) (s : Vec F S1x1024 .f32) :=
  runMid (F := F) c (grid0.coords t) (adjStage t) (adjStage_whole t) (outStage t) (outStage_whole t) accRef (Memref.isWhole_whole _)
    (fun h => h0 ((atFirstRow_iff t).mp h)) (fun h => h7 ((atLastRow_iff t).mp h)) (tileAt V c 0 t) s
/-- At the last row tile, over the scratch row's contents `s`. -/
abbrev lastAt (c : Dev nD) (t : Fin cfg0.N) (h0 : ¬t.val % 8 = 0) (h7 : t.val % 8 = 7) (s : Vec F S1x1024 .f32) :=
  runLast (F := F) c (grid0.coords t) (adjStage t) (adjStage_whole t) (outStage t) (outStage_whole t) accRef (Memref.isWhole_whole _)
    (fun h => h0 ((atFirstRow_iff t).mp h)) ((atLastRow_iff t).mpr h7) (tileAt V c 0 t) s

/-! ## What each case leaves -/

/-- First row tile: nothing is stored to the output row (a placeholder nothing consults: the window is idle there). -/
def outAfterFirst (c : Dev nD) (t : Fin cfg0.N) (h0 : t.val % 8 = 0) (h7 : ¬t.val % 8 = 7) : Vec F S1x1024 .f32 :=
  outView.read (Elt F) (outView.writes (Elt F) outView.junk (firstAt V c t h0 h7).1)
/-- First row tile: the two stores to the scratch row tile it, so they cover it. -/
theorem accFirst_cover (c : Dev nD) (t : Fin cfg0.N) (h0 : t.val % 8 = 0) (h7 : ¬t.val % 8 = 7) (y : S1x1024.Idx) :
    ∃ pc ∈ (firstAt V c t h0 h7).2.1, y ∈ pc.1.set :=
  View.cover_of_tiledL (firstAt V c t h0 h7).2.1 S1x1024.size (by sl_kernel_rfl) y
/-- First row tile: the scratch row afterwards. -/
def accAfterFirst (c : Dev nD) (t : Fin cfg0.N) (h0 : t.val % 8 = 0) (h7 : ¬t.val % 8 = 7) : Vec F S1x1024 .f32 :=
  accView.read (Elt F) (accView.writes (Elt F) accView.junk (firstAt V c t h0 h7).2.1)

/-- Middle row tile: nothing is stored to the output row. -/
def outAfterMid (c : Dev nD) (t : Fin cfg0.N) (h0 : ¬t.val % 8 = 0) (h7 : ¬t.val % 8 = 7) (s : Vec F S1x1024 .f32) : Vec F S1x1024 .f32 :=
  outView.read (Elt F) (outView.writes (Elt F) outView.junk (midAt V c t h0 h7 s).1)
theorem accMid_cover (c : Dev nD) (t : Fin cfg0.N) (h0 : ¬t.val % 8 = 0) (h7 : ¬t.val % 8 = 7) (s : Vec F S1x1024 .f32) (y : S1x1024.Idx) :
    ∃ pc ∈ (midAt V c t h0 h7 s).2.1, y ∈ pc.1.set :=
  View.cover_of_tiledL (midAt V c t h0 h7 s).2.1 S1x1024.size (by sl_kernel_rfl) y
/-- Middle row tile: the scratch row afterwards. -/
def accAfterMid (c : Dev nD) (t : Fin cfg0.N) (h0 : ¬t.val % 8 = 0) (h7 : ¬t.val % 8 = 7) (s : Vec F S1x1024 .f32) : Vec F S1x1024 .f32 :=
  accView.read (Elt F) (accView.writes (Elt F) accView.junk (midAt V c t h0 h7 s).2.1)

/-- Last row tile: the one store to the output row covers it. -/
theorem outLast_cover (c : Dev nD) (t : Fin cfg0.N) (h0 : ¬t.val % 8 = 0) (h7 : t.val % 8 = 7) (s : Vec F S1x1024 .f32) (y : S1x1024.Idx) :
    ∃ pc ∈ (lastAt V c t h0 h7 s).1, y ∈ pc.1.set :=
  View.cover_of_tiledL (lastAt V c t h0 h7 s).1 S1x1024.size (by sl_kernel_rfl) y
/-- Last row tile: the output row afterwards. -/
def outAfterLast (c : Dev nD) (t : Fin cfg0.N) (h0 : ¬t.val % 8 = 0) (h7 : t.val % 8 = 7) (s : Vec F S1x1024 .f32) : Vec F S1x1024 .f32 :=
  outView.read (Elt F) (outView.writes (Elt F) outView.junk (lastAt V c t h0 h7 s).1)
theorem accLast_cover (c : Dev nD) (t : Fin cfg0.N) (h0 : ¬t.val % 8 = 0) (h7 : t.val % 8 = 7) (s : Vec F S1x1024 .f32) (y : S1x1024.Idx) :
    ∃ pc ∈ (lastAt V c t h0 h7 s).2.1, y ∈ pc.1.set :=
  View.cover_of_tiledL (lastAt V c t h0 h7 s).2.1 S1x1024.size (by sl_kernel_rfl) y
/-- Last row tile: the scratch row afterwards. -/
def accAfterLast (c : Dev nD) (t : Fin cfg0.N) (h0 : ¬t.val % 8 = 0) (h7 : t.val % 8 = 7) (s : Vec F S1x1024 .f32) : Vec F S1x1024 .f32 :=
  accView.read (Elt F) (accView.writes (Elt F) accView.junk (lastAt V c t h0 h7 s).2.1)

/-! ## The accumulation down a column of tiles -/

/-- What the output row's staging buffer and the scratch row hold after the body at position `n` (a pair, in that
    order): the case of `n`'s row tile, run over what position `n - 1` left in the scratch row. -/
def heldAt (c : Dev nD) : (n : ℕ) → n < cfg0.N → Vec F S1x1024 .f32 × Vec F S1x1024 .f32
  | 0, hn => (outAfterFirst V c ⟨0, hn⟩ (Nat.zero_mod _) (by intro h; simp at h), accAfterFirst V c ⟨0, hn⟩ (Nat.zero_mod _) (by intro h; simp at h))
  | n + 1, hn =>
    if h0 : (n + 1) % 8 = 0 then
      if h7 : (n + 1) % 8 = 7 then
        False.elim (by omega)
      else
        (outAfterFirst V c ⟨n + 1, hn⟩ h0 h7, accAfterFirst V c ⟨n + 1, hn⟩ h0 h7)
    else
      if h7 : (n + 1) % 8 = 7 then
        (outAfterLast V c ⟨n + 1, hn⟩ h0 h7 (heldAt c n (Nat.lt_of_succ_lt hn)).2, accAfterLast V c ⟨n + 1, hn⟩ h0 h7 (heldAt c n (Nat.lt_of_succ_lt hn)).2)
      else
        (outAfterMid V c ⟨n + 1, hn⟩ h0 h7 (heldAt c n (Nat.lt_of_succ_lt hn)).2, accAfterMid V c ⟨n + 1, hn⟩ h0 h7 (heldAt c n (Nat.lt_of_succ_lt hn)).2)

/-- At a point of the first row tile. -/
theorem heldAt_first (c : Dev nD) (t : Fin cfg0.N) (h0 : t.val % 8 = 0) (h7 : ¬t.val % 8 = 7) :
    heldAt V c t.val t.isLt = (outAfterFirst V c t h0 h7, accAfterFirst V c t h0 h7) := by
  obtain ⟨n, hn⟩ := t
  cases n with
  | zero => exact rfl
  | succ n => exact (dif_pos h0).trans ((dif_neg h7).trans rfl)

/-- At a point of a middle row tile: over what the point before left. -/
theorem heldAt_mid (c : Dev nD) (t : Fin cfg0.N) (h0 : ¬t.val % 8 = 0) (h7 : ¬t.val % 8 = 7) :
    heldAt V c t.val t.isLt
      = (outAfterMid V c t h0 h7 (heldAt V c (t.val - 1) (Nat.lt_of_le_of_lt (Nat.sub_le _ _) t.isLt)).2,
         accAfterMid V c t h0 h7 (heldAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h7).trans rfl)

/-- At a point of the last row tile: over what the point before left. -/
theorem heldAt_last (c : Dev nD) (t : Fin cfg0.N) (h0 : ¬t.val % 8 = 0) (h7 : t.val % 8 = 7) :
    heldAt V c t.val t.isLt
      = (outAfterLast V c t h0 h7 (heldAt V c (t.val - 1) (Nat.lt_of_le_of_lt (Nat.sub_le _ _) t.isLt)).2,
         accAfterLast V c t h0 h7 (heldAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h7).trans rfl)

/-! ## The region's invariant: the scratch row carried between points -/

/-- Before position `n`: before the first point the class's invariant (every scoped buffer at anything); afterwards
    the scratch row at what the point before left in it, the other scoped buffers at anything, the generator register at
    some state. -/
def Inv (c : Dev nD) : (n : ℕ) → n ≤ cfg0.N → sProp 𝕄
  | 0, _ => Pipeline.ΦA spec0 c
  | n + 1, hn => iprop(iprop(owns (c : Thread nD τ) accRef fullShare ((heldAt V c n hn).2) ∗ othersRest (F := F) c) ∗ (∃ r, prngReg c r))

theorem Inv_zero (c : Dev nD) (n : ℕ) (h : n ≤ cfg0.N) (hz : n = 0) : Inv V c n h = Pipeline.ΦA spec0 c := by
  subst hz; rfl

theorem Inv_succ (c : Dev nD) (n : ℕ) (hn : n < cfg0.N) :
    Inv V c (n + 1) hn = iprop(iprop(owns (c : Thread nD τ) accRef fullShare ((heldAt V c n hn).2) ∗ othersRest (F := F) c) ∗ (∃ r, prngReg c r)) := rfl

theorem Inv_pos (c : Dev nD) (n : ℕ) (h : n ≤ cfg0.N) (hz : n ≠ 0) :
    Inv V c n h = iprop(iprop(owns (c : Thread nD τ) accRef fullShare ((heldAt V c (n - 1) (by omega)).2) ∗ othersRest (F := F) c) ∗ (∃ r, prngReg c r)) := by
  cases n with
  | zero => exact absurd rfl hz
  | succ n => rfl

/-! ## The pipeline's proof data -/

/-- The proof data of the degree kernel's pipeline on core `c`: the arrays as the region finds them; after the body at
    point `t` the adjacency window's buffer at its tile and the output row's at `heldAt`; the invariant `Inv`; nothing
    owed; full shares. -/
def dat0 (c : Dev nD) : Dat τ (Elt F) Unit ℕ (UR sig nD τ) ℕ cfg0 c where
  A w := V c (Pipeline.arrRef spec0 w)
  after w t := match w with
    | ⟨0, _⟩ => tileAt V c 0 t
    | ⟨1, _⟩ => (heldAt V c t.val t.isLt).1
  Φ t := Inv V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- Its shares are full, it owes nothing, and it bounds the recorded pairs by everything. -/
theorem q_eq0 (c : Dev nD) (w : Fin cfg0.W) : (dat0 V c).q w = fullShare := by dsimp only [dat0]
theorem owed_eq0 (c : Dev nD) (t : Fin (cfg0.N + 1)) : (dat0 V c).owed t = 0 := by dsimp only [dat0]
theorem recorded_eq0 (c : Dev nD) (t : Fin (cfg0.N + 1)) : (dat0 V c).recorded t = Set.univ := by dsimp only [dat0]

/-- The invariant at a point's start, restated at `t.val`. -/
theorem Inv_castSucc (c : Dev nD) (t : Fin cfg0.N) :
    (dat0 V c).Φ t.castSucc = Inv V c t.val (Nat.le_of_lt t.isLt) := by
  dsimp only [dat0]; simp only [Fin.coe_castSucc]

/-- What the body leaves, window by window. -/
theorem after_adj (c : Dev nD) (t : Fin cfg0.N) : (dat0 V c).after 0 t = tileAt V c 0 t := by dsimp only [dat0]
theorem after_out (c : Dev nD) (t : Fin cfg0.N) : (dat0 V c).after 1 t = (heldAt V c t.val t.isLt).1 := by dsimp only [dat0]

/-- The adjacency window's current staging buffer holds its tile at every point. -/
theorem before_adj (c : Dev nD) (t : Fin cfg0.N) (d) : (dat0 V c).before 0 t d = tileAt V c 0 t :=
  before_adj_of V (dat0 V c) (A_eq0 V c 0) (after_adj V c) t d

/-! ## The body obligation, at a generic point -/

/-- What the body is called with at point `t` (the obligation's precondition, the windows one by one), -/
def bodyPre (c : Dev nD) (t : Fin cfg0.N) : sProp 𝕄 :=
  iprop((dat0 V c).Φ t.castSucc ∗ (dat0 V c).owesAt () t.castSucc
    ∗ (∃ d, owns (c : Thread nD τ) (adjStage t) fullShare ((dat0 V c).before 0 t d))
    ∗ (∃ d, owns (c : Thread nD τ) (outStage t) fullShare ((dat0 V c).before 1 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The adjacency window's memref holds its tile; the point's residue mod 8 says which row tile it
    is at, so which run applies. The invariant hands the body the scratch row at what the point before left (at anything
    at the very first point) and takes it back at this point's contents; below the last row tile the output row's buffer is
    handed back as found; the other scoped buffers, the generator register and what the core owes pass through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_adj]
  rw [show (dat0 V c).owesAt () t.succ = (dat0 V c).owesAt () t.castSucc from rfl]
  rw [show (dat0 V c).Φ t.succ = Inv V c (t.val + 1) t.isLt from rfl, Inv_succ]
  have hN : t.val < 64 := lt_of_lt_of_eq t.isLt (show cfg0.N = 64 from N_0)
  by_cases h0 : t.val % 8 = 0
  · by_cases h7 : t.val % 8 = 7
    · exfalso; omega
    · -- first row tile
      rw [show (dat0 V c).leavesExact 0 t = owns (c : Thread nD τ) (adjStage t) fullShare ((dat0 V c).after 0 t) from by
        unfold Dat.leavesExact; rw [adj_live t], after_adj]
      rw [Dat.leavesExact_idle (dat0 V c) 1 t (out_idle_first t ((atFirstRow_iff t).mpr h0) (fun h => h7 ((atLastRow_iff t).mp h)))
        (out_noFlush_first t ((atFirstRow_iff t).mpr h0) (fun h => h7 ((atLastRow_iff t).mp h)))]
      rw [heldAt_first V c t h0 h7]
      unfold accAfterFirst; (try dsimp only)
      by_cases hz : t.val = 0
      · rw [Inv_castSucc V c t, Inv_zero V c _ _ hz, PhiA_eq]
        iintro ⟨⟨⟨HS, Hr⟩, Hg⟩, Ho, ⟨%d0, H0⟩, ⟨%d1, H1⟩⟩
        iapply ((firstAt V c t h0 h7).2.2 _ Set.univ _)
        isplitl [H0]; · iexact H0
        isplitl [H1]; · iexact H1
        isplitl [HS]; · iexact HS
        iintro ⟨H0, H1, ⟨%es, HS⟩⟩
        isplitl [HS Hr Hg]
        · isplitl [HS Hr]
          · isplitl [HS]
            · unfold owns; iexists _; isplitr
              swap; · iexact HS
              ipureintro; exact View.read_writes_of_cover _ _ _ _ _ (accFirst_cover V c t h0 h7)
            iexact Hr
          iexact Hg
        isplitl [Ho]; · iexact Ho
        isplitl [H0]; · iexact H0
        iexists _; iexact H1
      · rw [Inv_castSucc V c t, Inv_pos V c _ _ hz]
        iintro ⟨⟨⟨HS, Hr⟩, Hg⟩, Ho, ⟨%d0, H0⟩, ⟨%d1, H1⟩⟩
        iapply ((firstAt V c t h0 h7).2.2 _ Set.univ _)
        isplitl [H0]; · iexact H0
        isplitl [H1]; · iexact H1
        isplitl [HS]; · iexists _; iexact HS
        iintro ⟨H0, H1, ⟨%es, HS⟩⟩
        isplitl [HS Hr Hg]
        · isplitl [HS Hr]
          · isplitl [HS]
            · unfold owns; iexists _; isplitr
              swap; · iexact HS
              ipureintro; exact View.read_writes_of_cover _ _ _ _ _ (accFirst_cover V c t h0 h7)
            iexact Hr
          iexact Hg
        isplitl [Ho]; · iexact Ho
        isplitl [H0]; · iexact H0
        iexists _; iexact H1
  · have hz : t.val ≠ 0 := fun h => h0 (by rw [h])
    by_cases h7 : t.val % 8 = 7
    · -- last row tile
      rw [show (dat0 V c).leavesExact 0 t = owns (c : Thread nD τ) (adjStage t) fullShare ((dat0 V c).after 0 t) from by
        unfold Dat.leavesExact; rw [adj_live t], after_adj]
      rw [show (dat0 V c).leavesExact 1 t = owns (c : Thread nD τ) (outStage t) fullShare ((dat0 V c).after 1 t) from by
        unfold Dat.leavesExact; rw [out_live_last t (fun h => h0 ((atFirstRow_iff t).mp h)) ((atLastRow_iff t).mpr h7)], after_out]
      rw [heldAt_last V c t h0 h7]
      unfold outAfterLast accAfterLast; (try dsimp only)
      rw [Inv_castSucc V c t, Inv_pos V c _ _ hz]
      iintro ⟨⟨⟨HS, Hr⟩, Hg⟩, Ho, ⟨%d0, H0⟩, ⟨%d1, H1⟩⟩
      iapply ((lastAt V c t h0 h7 _).2.2 Set.univ _)
      isplitl [H0]; · iexact H0
      isplitl [H1]; · iexists _; iexact H1
      isplitl [HS]; · iexact HS
      iintro ⟨H0, ⟨%e1, H1⟩, ⟨%es, HS⟩⟩
      isplitl [HS Hr Hg]
      · isplitl [HS Hr]
        · isplitl [HS]
          · unfold owns; iexists _; isplitr
            swap; · iexact HS
            ipureintro; exact View.read_writes_of_cover _ _ _ _ _ (accLast_cover V c t h0 h7 _)
          iexact Hr
        iexact Hg
      isplitl [Ho]; · iexact Ho
      isplitl [H0]; · iexact H0
      unfold owns; iexists _; isplitr
      swap; · iexact H1
      ipureintro; exact View.read_writes_of_cover _ _ _ _ _ (outLast_cover V c t h0 h7 _)
    · -- a middle row tile
      rw [show (dat0 V c).leavesExact 0 t = owns (c : Thread nD τ) (adjStage t) fullShare ((dat0 V c).after 0 t) from by
        unfold Dat.leavesExact; rw [adj_live t], after_adj]
      rw [Dat.leavesExact_idle (dat0 V c) 1 t (out_idle_mid t (fun h => h0 ((atFirstRow_iff t).mp h)) (fun h => h7 ((atLastRow_iff t).mp h)))
        (out_noFlush_mid t (fun h => h0 ((atFirstRow_iff t).mp h)) (fun h => h7 ((atLastRow_iff t).mp h)))]
      rw [heldAt_mid V c t h0 h7]
      unfold accAfterMid; (try dsimp only)
      rw [Inv_castSucc V c t, Inv_pos V c _ _ hz]
      iintro ⟨⟨⟨HS, Hr⟩, Hg⟩, Ho, ⟨%d0, H0⟩, ⟨%d1, H1⟩⟩
      iapply ((midAt V c t h0 h7 _).2.2 _ Set.univ _)
      isplitl [H0]; · iexact H0
      isplitl [H1]; · iexact H1
      isplitl [HS]; · iexact HS
      iintro ⟨H0, H1, ⟨%es, HS⟩⟩
      isplitl [HS Hr Hg]
      · isplitl [HS Hr]
        · isplitl [HS]
          · unfold owns; iexists _; isplitr
            swap; · iexact HS
            ipureintro; exact View.read_writes_of_cover _ _ _ _ _ (accMid_cover V c t h0 h7 _)
          iexact Hr
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = Inv V c 0 (Nat.zero_le _) from rfl, Inv_zero V c 0 _ rfl]
  try exact Idealize.SL.BI.Entails.refl _

/-- After any point but the first the invariant gives the class's back: the scratch row's named contents are forgotten. -/
theorem Inv_out (c : Dev nD) (t : Fin (cfg0.N + 1)) (ht : t.val ≠ 0) : (dat0 V c).Φ t ⊢ Pipeline.ΦA spec0 c := by
  rw [show (dat0 V c).Φ t = Inv V c t.val (Nat.le_of_lt_succ t.isLt) from rfl, Inv_pos V c _ _ ht, PhiA_eq]
  iintro ⟨⟨HS, Hr⟩, Hg⟩
  isplitl [HS Hr]
  · isplitl [HS]
    · iexists _; iexact HS
    iexact Hr
  iexact Hg

/-- The same after the last point. -/
theorem hout0 (c : Dev nD) : (dat0 V c).Φ (Fin.last cfg0.N) ⊢ Pipeline.ΦA spec0 c :=
  Inv_out V c _ (by rw [Fin.val_last]; have : cfg0.N = 64 := N_0; omega)

end Cert.Kernel.Deg

end
-- ==== Proof.KGcnRuns.lean ====
/- The propagate-and-project region (grid 16 × 8: row tile i, contraction tile k; point t = 8 i + k): what its
   three control cases share. The body zeroes its 512×512 accumulator when k = 0, adds the product of the scaled
   adjacency block with 1024 rows of the features at every point, and when k = 7 forms
   tanh((d_row ⊙ acc + d_row² ⊙ H[rows of tile i]) · Wt + bias) into the output block. Here: the blocks the input
   windows hold, the two conditions in closed form over the grid, where the output window is idle, the staging and
   accumulator memrefs, and the region invariant spelled buffer by buffer. Everything is stated at a parameter V,
   the buffer contents when the region is entered. -/
import proofs.«104315_j2027224564458_2_alg».proof.Proof.Gen.Kernel.Launch
import proofs.«104315_j2027224564458_2_alg».proof.Proof.Gen.Kernel.Skeleton
import proofs.«104315_j2027224564458_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency window's buffer holds its 512×1024 block at every point (it is fetched at every point). -/
theorem foundAdj_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The feature window's buffer holds all of H at every point: fetched once, its block index never moves, and the body leaves it in place. -/
theorem foundFeat_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The row-scale window's buffer holds entries 512 i … 512 i + 511 of d at every point of row tile i: fetched when k = 0 and left in place. -/
theorem foundDrow_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The column-scale window's buffer holds entries 1024 k … 1024 k + 1023 of d at every point. -/
theorem foundDcol_of {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- The projection window's buffer holds all of Wt at every point: fetched once. -/
theorem foundWt_of {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The bias window's buffer holds the bias row at every point: fetched once. -/
theorem foundBias_of {c : Dev nD} (dat : Dat τ (Elt F) Unit ℕ (UR sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-! ## The two conditions of the body -/

/-- The first conditional's condition (k = 0), from the grid coordinates: the body's scalar chain substituted. -/
abbrev firstK (i : grid1.Coords) : Prop := (Scalar.cmpi .ne (Scalar.extui (Scalar.cmpi .eq (BitVec.ofNat 32 (i 1).val) 0#32)) 0#32) = 1#1
/-- It holds at the points ≡ 0 (mod 8): decided over the grid. -/
theorem firstK_iff : ∀ t : Fin cfg1.N, firstK (grid1.coords t) ↔ t.val % 8 = 0 :=
  (by decide +kernel : ∀ t : Fin grid1.N, firstK (grid1.coords t) ↔ t.val % 8 = 0)

/-- The second conditional's condition (k = 7). -/
abbrev lastK (i : grid1.Coords) : Prop := k1_cond2 i = 1#1
/-- It holds at the points ≡ 7 (mod 8): decided over the grid. -/
theorem lastK_iff : ∀ t : Fin cfg1.N, lastK (grid1.coords t) ↔ t.val % 8 = 7 :=
  (by decide +kernel : ∀ t : Fin grid1.N, lastK (grid1.coords t) ↔ t.val % 8 = 7)

/-! ## Where the windows are idle -/

theorem live0 : ∀ t : Fin cfg1.N, cfg1.idle 0 (grid1.coords t) = false := fun _ => rfl
theorem live1 : ∀ t : Fin cfg1.N, cfg1.idle 1 (grid1.coords t) = false := fun _ => rfl
theorem live2 : ∀ t : Fin cfg1.N, cfg1.idle 2 (grid1.coords t) = false := fun _ => rfl
theorem live3 : ∀ t : Fin cfg1.N, cfg1.idle 3 (grid1.coords t) = false := fun _ => rfl
theorem live4 : ∀ t : Fin cfg1.N, cfg1.idle 4 (grid1.coords t) = false := fun _ => rfl
theorem live5 : ∀ t : Fin cfg1.N, cfg1.idle 5 (grid1.coords t) = false := fun _ => rfl
/-- Where k = 0 the output window is idle (nothing is stored into it) -/
theorem outIdle_first : ∀ t : Fin cfg1.N, firstK (grid1.coords t) → ¬lastK (grid1.coords t) → cfg1.idle 6 (grid1.coords t) = true := by decide +kernel
/-- and is not written back. -/
theorem outKept_first : ∀ t : Fin cfg1.N, firstK (grid1.coords t) → ¬lastK (grid1.coords t) → (cfg1.win 6).flush t = false := by decide +kernel
/-- The same where 0 < k < 7. -/
theorem outIdle_mid : ∀ t : Fin cfg1.N, ¬firstK (grid1.coords t) → ¬lastK (grid1.coords t) → cfg1.idle 6 (grid1.coords t) = true := by decide +kernel
theorem outKept_mid : ∀ t : Fin cfg1.N, ¬firstK (grid1.coords t) → ¬lastK (grid1.coords t) → (cfg1.win 6).flush t = false := by decide +kernel
/-- Where k = 7 the output window is live: the body stores its block. -/
theorem outLive_last : ∀ t : Fin cfg1.N, ¬firstK (grid1.coords t) → lastK (grid1.coords t) → cfg1.idle 6 (grid1.coords t) = false := by decide +kernel

/-! ## The memrefs the body is called with -/

/-- One staging buffer of the output window, through which its contents are stated (the choice does not matter). -/
abbrev outView : View sig .tc .vmem S512x512 .f32 := (Memref.whole cc1_stg6_0 : Memref sig .tc .vmem S512x512 .f32).view
/-- Each window's current staging memref at point t, spelled as the pipeline passes it, and its wholeness. -/
abbrev sAdj (t : Fin cfg1.N) : Memref sig .tc .vmem S512x1024 .f32 := win1_0.stage (cfg1.slots t 0)
abbrev wAdj (t : Fin cfg1.N) : (sAdj t).IsWhole := hstage1_0 ((cfg1.slots t 0).cast nbuf1_0)
abbrev sFeat (t : Fin cfg1.N) : Memref sig .tc .vmem S8192x512 .bf16 := win1_1.stage (cfg1.slots t 1)
abbrev wFeat (t : Fin cfg1.N) : (sFeat t).IsWhole := hstage1_1 ((cfg1.slots t 1).cast nbuf1_1)
abbrev sDrow (t : Fin cfg1.N) : Memref sig .tc .vmem S1x512 .f32 := win1_2.stage (cfg1.slots t 2)
abbrev wDrow (t : Fin cfg1.N) : (sDrow t).IsWhole := hstage1_2 ((cfg1.slots t 2).cast nbuf1_2)
abbrev sDcol (t : Fin cfg1.N) : Memref sig .tc .vmem S1x1024 .f32 := win1_3.stage (cfg1.slots t 3)
abbrev wDcol (t : Fin cfg1.N) : (sDcol t).IsWhole := hstage1_3 ((cfg1.slots t 3).cast nbuf1_3)
abbrev sWt (t : Fin cfg1.N) : Memref sig .tc .vmem S512x512 .bf16 := win1_4.stage (cfg1.slots t 4)
abbrev wWt (t : Fin cfg1.N) : (sWt t).IsWhole := hstage1_4 ((cfg1.slots t 4).cast nbuf1_4)
abbrev sBias (t : Fin cfg1.N) : Memref sig .tc .vmem S1x512 .f32 := win1_5.stage (cfg1.slots t 5)
abbrev wBias (t : Fin cfg1.N) : (sBias t).IsWhole := hstage1_5 ((cfg1.slots t 5).cast nbuf1_5)
abbrev sOut (t : Fin cfg1.N) : Memref sig .tc .vmem S512x512 .f32 := win1_6.stage (cfg1.slots t 6)
abbrev wOut (t : Fin cfg1.N) : (sOut t).IsWhole := hstage1_6 ((cfg1.slots t 6).cast nbuf1_6)
/-- The accumulator: a whole scoped buffer of the kernel's own, passed beside the windows and carried from point to point. -/
abbrev accMem : Memref sig .tc .vmem S512x512 .f32 := Memref.whole cc1_scratch0
abbrev accView : View sig .tc .vmem S512x512 .f32 := accMem.view

/-! ## The region invariant, buffer by buffer -/

/-- The core's scoped buffers that this region does not stage: the other region's four staging buffers and its
    accumulator, each at some contents, and then this region's accumulator as S describes it. -/
abbrev scopedWith (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_scratch0), ((c : Thread nD τ).loc cc0_scratch0) ↦{fullShare} f)
    ∗ S)

/-- What the region is entered with: those buffers, the accumulator at anything, the generator register at some state. -/
theorem entryInv_eq (c : Dev nD) :
    (Pipeline.ΦA spec1 c : sProp 𝕄)
      = iprop(scopedWith c (iprop(∃ d, owns (c : Thread nD τ) accMem fullShare d)) ∗ (∃ r, prngReg c r)) := by
  unfold Pipeline.ΦA; rw [scopedRest1_eq]; simp only [scopedWith, accMem, owns_whole]; try rfl

end Cert.Kernel.Gcn

end
-- ==== Proof.KGcnRunA.lean ====
/- The body of the propagate-and-project region run at a point with k = 0 (the accumulator is zeroed, then the
   first partial product is added; nothing is stored into the output block). -/
import proofs.«104315_j2027224564458_2_alg».proof.Proof.KGcnRuns

-- membership in a rectangle of full extents recurses once per coordinate of the long axes
set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the accumulator, as pieces (last first), when k = 0, WITH the proof that on whole
    memrefs — the six inputs' at their contents, the output's at contents handed back untouched, the accumulator at
    anything — the body runs to the continuation holding the inputs' and the output's as they were and the accumulator
    with those pieces written. The pieces are the witness the run finds. -/
noncomputable def runFirst (c : Dev nD) (i : grid1.Coords) (arg2 : Memref sig .tc .vmem S512x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1x1024 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (hc0 : firstK i) (hc1 : ¬lastK i)
    (x0 : Vec F S512x1024 .f32) (x1 : Vec F S8192x512 .bf16) (x2 : Vec F S1x512 .f32) (x3 : Vec F S1x1024 .f32) (x4 : Vec F S512x512 .bf16) (x5 : Vec F S1x512 .f32) :
    Σ' (L6 : List (View.Piece (Elt F) S512x512 .f32)), { LS : List (View.Piece (Elt F) S512x512 .f32) //
      ∀ (xi6 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨[], ?_, fun xi6 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS

end Cert.Kernel.Gcn

end
-- ==== Proof.KGcnRunB.lean ====
/- The body of the propagate-and-project region run at a point with 0 < k < 7 (one more partial product is added
   to the accumulator; nothing is stored into the output block). -/
import proofs.«104315_j2027224564458_2_alg».proof.Proof.KGcnRunA

-- membership in a rectangle of full extents recurses once per coordinate of the long axes
set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the accumulator, as pieces, when 0 < k < 7, WITH the proof that on whole memrefs —
    the six inputs' at their contents, the output's at contents handed back untouched, the accumulator at what the
    point before left — the body runs to the continuation holding the inputs' and the output's as they were and the
    accumulator with those pieces written. -/
noncomputable def runMid (c : Dev nD) (i : grid1.Coords) (arg2 : Memref sig .tc .vmem S512x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1x1024 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (hc0 : ¬firstK i) (hc1 : ¬lastK i)
    (x0 : Vec F S512x1024 .f32) (x1 : Vec F S8192x512 .bf16) (x2 : Vec F S1x512 .f32) (x3 : Vec F S1x1024 .f32) (x4 : Vec F S512x512 .bf16) (x5 : Vec F S1x512 .f32) (xs : Vec F S512x512 .f32) :
    Σ' (L6 : List (View.Piece (Elt F) S512x512 .f32)), { LS : List (View.Piece (Elt F) S512x512 .f32) //
      ∀ (xi6 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨[], ?_, fun xi6 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS

end Cert.Kernel.Gcn

end
-- ==== Proof.KGcnRunC.lean ====
/- The body of the propagate-and-project region run at a point with k = 7 (the last partial product is added, and
   the finished block tanh((d_row ⊙ acc + d_row² ⊙ H[rows]) · Wt + bias) is stored into the output window). -/
import proofs.«104315_j2027224564458_2_alg».proof.Proof.KGcnRunB

-- membership in a rectangle of full extents recurses once per coordinate of the long axes
set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output block and in the accumulator, as pieces, when k = 7, WITH the proof that
    on whole memrefs — the six inputs' at their contents, the output's at anything, the accumulator at what the point
    before left — the body runs to the continuation holding the inputs' as they were and the output's and the
    accumulator with their pieces written. -/
noncomputable def runLast (c : Dev nD) (i : grid1.Coords) (arg2 : Memref sig .tc .vmem S512x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1x1024 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (hc0 : ¬firstK i) (hc1 : lastK i)
    (x0 : Vec F S512x1024 .f32) (x1 : Vec F S8192x512 .bf16) (x2 : Vec F S1x512 .f32) (x3 : Vec F S1x1024 .f32) (x4 : Vec F S512x512 .bf16) (x5 : Vec F S1x512 .f32) (xs : Vec F S512x512 .f32) :
    Σ' (L6 : List (View.Piece (Elt F) S512x512 .f32)), { LS : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS

end Cert.Kernel.Gcn

end
-- ==== Proof.KGcnBody.lean ====
/- The propagate-and-project region: what its accumulator and output block hold after every grid point (a recursion
   over the points: zeroed-then-added at k = 0, added to at 0 < k < 7, added to and the finished block stored at
   k = 7), the invariant carrying the accumulator from point to point, the pipeline's proof data at a parameter V
   (the buffer contents when the region is entered), and the body obligation at every point. -/
import proofs.«104315_j2027224564458_2_alg».proof.Proof.KGcnRunC

-- membership in a rectangle of full extents recurses once per coordinate of the long axes
set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Contents for the output block at the points that store nothing into it: nothing reads them (the block is neither
    written back there nor read at the next point). -/
def idleOut : Vec F S512x512 .f32 := outView.read (Elt F) outView.junk

/-- The accumulator after a point with k = 0: the case's pieces read back. -/
def accFirstAt (c : Dev nD) (t : Fin cfg1.N) (h0 : t.val % 8 = 0) (h1 : ¬t.val % 8 = 7) : Vec F S512x512 .f32 :=
  accView.read (Elt F) (accView.writes (Elt F) accView.junk (runFirst c (grid1.coords t) (sAdj t) (wAdj t) (sFeat t) (wFeat t) (sDrow t) (wDrow t) (sDcol t) (wDcol t) (sWt t) (wWt t) (sBias t) (wBias t) (sOut t) (wOut t) accMem (Memref.isWhole_whole _) ((firstK_iff t).mpr h0) (fun h => h1 ((lastK_iff t).mp h)) (blk V c 0 t) (blk V c 1 t) (blk V c 2 t) (blk V c 3 t) (blk V c 4 t) (blk V c 5 t)).2.1)

/-- The accumulator after a point with 0 < k < 7, from what the point before left in it. -/
def accMidAt (c : Dev nD) (t : Fin cfg1.N) (h0 : ¬t.val % 8 = 0) (h1 : ¬t.val % 8 = 7) (xs : Vec F S512x512 .f32) : Vec F S512x512 .f32 :=
  accView.read (Elt F) (accView.writes (Elt F) accView.junk (runMid c (grid1.coords t) (sAdj t) (wAdj t) (sFeat t) (wFeat t) (sDrow t) (wDrow t) (sDcol t) (wDcol t) (sWt t) (wWt t) (sBias t) (wBias t) (sOut t) (wOut t) accMem (Memref.isWhole_whole _) (fun h => h0 ((firstK_iff t).mp h)) (fun h => h1 ((lastK_iff t).mp h)) (blk V c 0 t) (blk V c 1 t) (blk V c 2 t) (blk V c 3 t) (blk V c 4 t) (blk V c 5 t) xs).2.1)

/-- The accumulator after a point with k = 7, from what the point before left in it. -/
def accLastAt (c : Dev nD) (t : Fin cfg1.N) (h0 : ¬t.val % 8 = 0) (h1 : t.val % 8 = 7) (xs : Vec F S512x512 .f32) : Vec F S512x512 .f32 :=
  accView.read (Elt F) (accView.writes (Elt F) accView.junk (runLast c (grid1.coords t) (sAdj t) (wAdj t) (sFeat t) (wFeat t) (sDrow t) (wDrow t) (sDcol t) (wDcol t) (sWt t) (wWt t) (sBias t) (wBias t) (sOut t) (wOut t) accMem (Memref.isWhole_whole _) (fun h => h0 ((firstK_iff t).mp h)) ((lastK_iff t).mpr h1) (blk V c 0 t) (blk V c 1 t) (blk V c 2 t) (blk V c 3 t) (blk V c 4 t) (blk V c 5 t) xs).2.1)

/-- The output block after a point with k = 7, from what the point before left in the accumulator. -/
def outLastAt (c : Dev nD) (t : Fin cfg1.N) (h0 : ¬t.val % 8 = 0) (h1 : t.val % 8 = 7) (xs : Vec F S512x512 .f32) : Vec F S512x512 .f32 :=
  outView.read (Elt F) (outView.writes (Elt F) outView.junk (runLast c (grid1.coords t) (sAdj t) (wAdj t) (sFeat t) (wFeat t) (sDrow t) (wDrow t) (sDcol t) (wDcol t) (sWt t) (wWt t) (sBias t) (wBias t) (sOut t) (wOut t) accMem (Memref.isWhole_whole _) (fun h => h0 ((firstK_iff t).mp h)) ((lastK_iff t).mpr h1) (blk V c 0 t) (blk V c 1 t) (blk V c 2 t) (blk V c 3 t) (blk V c 4 t) (blk V c 5 t) xs).1)

/-- Each case's pieces for the accumulator tile it, so they cover it. -/
theorem accCover_first (c : Dev nD) (i : grid1.Coords) (arg2 : Memref sig .tc .vmem S512x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1x1024 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (hc0 : firstK i) (hc1 : ¬lastK i)
    (x0 : Vec F S512x1024 .f32) (x1 : Vec F S8192x512 .bf16) (x2 : Vec F S1x512 .f32) (x3 : Vec F S1x1024 .f32) (x4 : Vec F S512x512 .bf16) (x5 : Vec F S1x512 .f32) (y : S512x512.Idx) :
    ∃ pc ∈ (runFirst c i arg2 harg2 arg3 harg3 arg4 harg4 arg5 harg5 arg6 harg6 arg7 harg7 arg8 harg8 arg9 harg9 hc0 hc1 x0 x1 x2 x3 x4 x5).2.1, y ∈ pc.1.set :=
  View.cover_of_tiledL (runFirst c i arg2 harg2 arg3 harg3 arg4 harg4 arg5 harg5 arg6 harg6 arg7 harg7 arg8 harg8 arg9 harg9 hc0 hc1 x0 x1 x2 x3 x4 x5).2.1 S512x512.size (by sl_kernel_rfl) y

theorem accCover_mid (c : Dev nD) (i : grid1.Coords) (arg2 : Memref sig .tc .vmem S512x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1x1024 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (hc0 : ¬firstK i) (hc1 : ¬lastK i)
    (x0 : Vec F S512x1024 .f32) (x1 : Vec F S8192x512 .bf16) (x2 : Vec F S1x512 .f32) (x3 : Vec F S1x1024 .f32) (x4 : Vec F S512x512 .bf16) (x5 : Vec F S1x512 .f32) (xs : Vec F S512x512 .f32) (y : S512x512.Idx) :
    ∃ pc ∈ (runMid c i arg2 harg2 arg3 harg3 arg4 harg4 arg5 harg5 arg6 harg6 arg7 harg7 arg8 harg8 arg9 harg9 hc0 hc1 x0 x1 x2 x3 x4 x5 xs).2.1, y ∈ pc.1.set :=
  View.cover_of_tiledL (runMid c i arg2 harg2 arg3 harg3 arg4 harg4 arg5 harg5 arg6 harg6 arg7 harg7 arg8 harg8 arg9 harg9 hc0 hc1 x0 x1 x2 x3 x4 x5 xs).2.1 S512x512.size (by sl_kernel_rfl) y

theorem accCover_last (c : Dev nD) (i : grid1.Coords) (arg2 : Memref sig .tc .vmem S512x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1x1024 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (hc0 : ¬firstK i) (hc1 : lastK i)
    (x0 : Vec F S512x1024 .f32) (x1 : Vec F S8192x512 .bf16) (x2 : Vec F S1x512 .f32) (x3 : Vec F S1x1024 .f32) (x4 : Vec F S512x512 .bf16) (x5 : Vec F S1x512 .f32) (xs : Vec F S512x512 .f32) (y : S512x512.Idx) :
    ∃ pc ∈ (runLast c i arg2 harg2 arg3 harg3 arg4 harg4 arg5 harg5 arg6 harg6 arg7 harg7 arg8 harg8 arg9 harg9 hc0 hc1 x0 x1 x2 x3 x4 x5 xs).2.1, y ∈ pc.1.set :=
  View.cover_of_tiledL (runLast c i arg2 harg2 arg3 harg3 arg4 harg4 arg5 harg5 arg6 harg6 arg7 harg7 arg8 harg8 arg9 harg9 hc0 hc1 x0 x1 x2 x3 x4 x5 xs).2.1 S512x512.size (by sl_kernel_rfl) y

/-- The last case's one store into the output block covers it. -/
theorem outCover_last (c : Dev nD) (i : grid1.Coords) (arg2 : Memref sig .tc .vmem S512x1024 .f32) (harg2 : arg2.IsWhole) (arg3 : Memref sig .tc .vmem S8192x512 .bf16) (harg3 : arg3.IsWhole) (arg4 : Memref sig .tc .vmem S1x512 .f32) (harg4 : arg4.IsWhole) (arg5 : Memref sig .tc .vmem S1x1024 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (hc0 : ¬firstK i) (hc1 : lastK i)
    (x0 : Vec F S512x1024 .f32) (x1 : Vec F S8192x512 .bf16) (x2 : Vec F S1x512 .f32) (x3 : Vec F S1x1024 .f32) (x4 : Vec F S512x512 .bf16) (x5 : Vec F S1x512 .f32) (xs : Vec F S512x512 .f32) (y : S512x512.Idx) :
    ∃ pc ∈ (runLast c i arg2 harg2 arg3 harg3 arg4 harg4 arg5 harg5 arg6 harg6 arg7 harg7 arg8 harg8 arg9 harg9 hc0 hc1 x0 x1 x2 x3 x4 x5 xs).1, y ∈ pc.1.set :=
  View.cover_of_tiledL (runLast c i arg2 harg2 arg3 harg3 arg4 harg4 arg5 harg5 arg6 harg6 arg7 harg7 arg8 harg8 arg9 harg9 hc0 hc1 x0 x1 x2 x3 x4 x5 xs).1 S512x512.size (by sl_kernel_rfl) y

/-! ## The accumulation, point by point -/

/-- What the output block's staging buffer and the accumulator hold after the body at position n (a pair): at k = 0
    the accumulator starts afresh; otherwise the case runs over what position n - 1 left in the accumulator. -/
def trace (c : Dev nD) : (n : ℕ) → n < cfg1.N → Vec F S512x512 .f32 × Vec F S512x512 .f32
  | 0, hn => (idleOut, accFirstAt V c ⟨0, hn⟩ (Nat.zero_mod _) (by show ¬(0 % 8 = 7); decide))
  | n + 1, hn =>
    if h0 : (n + 1) % 8 = 0 then
      (idleOut, accFirstAt V c ⟨n + 1, hn⟩ h0 (fun h1 => by rw [h0] at h1; exact absurd h1 (by decide)))
    else
      if h1 : (n + 1) % 8 = 7 then
        (outLastAt V c ⟨n + 1, hn⟩ h0 h1 (trace c n (Nat.lt_of_succ_lt hn)).2, accLastAt V c ⟨n + 1, hn⟩ h0 h1 (trace c n (Nat.lt_of_succ_lt hn)).2)
      else
        (idleOut, accMidAt V c ⟨n + 1, hn⟩ h0 h1 (trace c n (Nat.lt_of_succ_lt hn)).2)

theorem trace_first (c : Dev nD) (t : Fin cfg1.N) (h0 : t.val % 8 = 0) (h1 : ¬t.val % 8 = 7) :
    trace V c t.val t.isLt = (idleOut, accFirstAt V c t h0 h1) := by
  obtain ⟨n, hn⟩ := t
  cases n with
  | zero => exact rfl
  | succ n => exact (dif_pos h0).trans rfl

theorem trace_mid (c : Dev nD) (t : Fin cfg1.N) (h0 : ¬t.val % 8 = 0) (h1 : ¬t.val % 8 = 7) :
    trace V c t.val t.isLt = (idleOut, accMidAt V c t h0 h1 (trace V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem trace_last (c : Dev nD) (t : Fin cfg1.N) (h0 : ¬t.val % 8 = 0) (h1 : t.val % 8 = 7) :
    trace V c t.val t.isLt = (outLastAt V c t h0 h1 (trace V c (t.val - 1) (Nat.lt_of_le_of_lt (Nat.sub_le _ _) t.isLt)).2, accLastAt V c t h0 h1 (trace V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant that carries the accumulator -/

/-- Before position n: at the first point what the region is entered with; afterwards the scoped buffers with the
    accumulator at what the point before left, and the generator register at some state. -/
def inv (c : Dev nD) : (n : ℕ) → n ≤ cfg1.N → sProp 𝕄
  | 0, _ => Pipeline.ΦA spec1 c
  | n + 1, hn => iprop(scopedWith c (owns (c : Thread nD τ) accMem fullShare ((trace V c n hn).2)) ∗ (∃ r, prngReg c r))

theorem inv_zero (c : Dev nD) (n : ℕ) (h : n ≤ cfg1.N) (hz : n = 0) : inv V c n h = Pipeline.ΦA spec1 c := by
  subst hz; rfl

theorem inv_succ (c : Dev nD) (n : ℕ) (hn : n < cfg1.N) :
    inv V c (n + 1) hn = iprop(scopedWith c (owns (c : Thread nD τ) accMem fullShare ((trace V c n hn).2)) ∗ (∃ r, prngReg c r)) := rfl

theorem inv_pos (c : Dev nD) (n : ℕ) (h : n ≤ cfg1.N) (hz : n ≠ 0) :
    inv V c n h = iprop(scopedWith c (owns (c : Thread nD τ) accMem fullShare ((trace V c (n - 1) (by omega)).2)) ∗ (∃ r, prngReg c r)) := by
  cases n with
  | zero => exact absurd rfl hz
  | succ n => rfl

/-! ## The pipeline's proof data -/

/-- The proof data of this pipeline on core c: the arrays as the region finds them; after the body at point t each
    input's buffer at its block and the output's at the trace; the invariant above; nothing owed. The row-scale and
    the column-scale windows read one array (the vector d): its full share is split between them. -/
def dat1 (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => (trace V c t.val t.isLt).1
  Φ t := inv V c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
  owed _ := 0

/-- The proof data's arrays are the region-entry contents. -/
theorem A_eq1 (c : Dev nD) (w : Fin cfg1.W) : (dat1 V c).A w = V c (Pipeline.arrRef spec1 w) := by
  dsimp only [dat1]

theorem inv_castSucc (c : Dev nD) (t : Fin cfg1.N) :
    (dat1 V c).Φ t.castSucc = inv V c t.val (Nat.le_of_lt t.isLt) := by
  dsimp only [dat1]; simp only [Fin.coe_castSucc]

theorem after0 (c : Dev nD) (t : Fin cfg1.N) : (dat1 V c).after 0 t = blk V c 0 t := by dsimp only [dat1]
theorem after1 (c : Dev nD) (t : Fin cfg1.N) : (dat1 V c).after 1 t = blk V c 1 t := by dsimp only [dat1]
theorem after2 (c : Dev nD) (t : Fin cfg1.N) : (dat1 V c).after 2 t = blk V c 2 t := by dsimp only [dat1]
theorem after3 (c : Dev nD) (t : Fin cfg1.N) : (dat1 V c).after 3 t = blk V c 3 t := by dsimp only [dat1]
theorem after4 (c : Dev nD) (t : Fin cfg1.N) : (dat1 V c).after 4 t = blk V c 4 t := by dsimp only [dat1]
theorem after5 (c : Dev nD) (t : Fin cfg1.N) : (dat1 V c).after 5 t = blk V c 5 t := by dsimp only [dat1]
theorem after6 (c : Dev nD) (t : Fin cfg1.N) : (dat1 V c).after 6 t = (trace V c t.val t.isLt).1 := by dsimp only [dat1]

/-- Each input's current staging buffer holds its block at every point, fetched there or not. -/
theorem before0 (c : Dev nD) (t : Fin cfg1.N) (d) : (dat1 V c).before 0 t d = blk V c 0 t := foundAdj_of V (dat1 V c) (A_eq1 V c 0) (after0 V c) t d
theorem before1 (c : Dev nD) (t : Fin cfg1.N) (d) : (dat1 V c).before 1 t d = blk V c 1 t := foundFeat_of V (dat1 V c) (A_eq1 V c 1) (after1 V c) t d
theorem before2 (c : Dev nD) (t : Fin cfg1.N) (d) : (dat1 V c).before 2 t d = blk V c 2 t := foundDrow_of V (dat1 V c) (A_eq1 V c 2) (after2 V c) t d
theorem before3 (c : Dev nD) (t : Fin cfg1.N) (d) : (dat1 V c).before 3 t d = blk V c 3 t := foundDcol_of V (dat1 V c) (A_eq1 V c 3) (after3 V c) t d
theorem before4 (c : Dev nD) (t : Fin cfg1.N) (d) : (dat1 V c).before 4 t d = blk V c 4 t := foundWt_of V (dat1 V c) (A_eq1 V c 4) (after4 V c) t d
theorem before5 (c : Dev nD) (t : Fin cfg1.N) (d) : (dat1 V c).before 5 t d = blk V c 5 t := foundBias_of V (dat1 V c) (A_eq1 V c 5) (after5 V c) t d

/-! ## The body obligation, at a generic point -/

/-- What the body is called with at point t, the windows one by one, -/
def bodyPre (c : Dev nD) (t : Fin cfg1.N) : sProp 𝕄 :=
  iprop((dat1 V c).Φ t.castSucc ∗ (dat1 V c).owesAt () t.castSucc
    ∗ (∃ d, owns (c : Thread nD τ) (sAdj t) fullShare ((dat1 V c).before 0 t d))
    ∗ (∃ d, owns (c : Thread nD τ) (sFeat t) fullShare ((dat1 V c).before 1 t d))
    ∗ (∃ d, owns (c : Thread nD τ) (sDrow t) fullShare ((dat1 V c).before 2 t d))
    ∗ (∃ d, owns (c : Thread nD τ) (sDcol t) fullShare ((dat1 V c).before 3 t d))
    ∗ (∃ d, owns (c : Thread nD τ) (sWt t) fullShare ((dat1 V c).before 4 t d))
    ∗ (∃ d, owns (c : Thread nD τ) (sBias t) fullShare ((dat1 V c).before 5 t d))
    ∗ (∃ d, owns (c : Thread nD τ) (sOut t) fullShare ((dat1 V c).before 6 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

theorem leaves0 (c : Dev nD) (t : Fin cfg1.N) : (dat1 V c).leavesExact 0 t = owns (c : Thread nD τ) (sAdj t) fullShare (blk V c 0 t) := by
  unfold Dat.leavesExact; rw [live0 t, after0]
theorem leaves1 (c : Dev nD) (t : Fin cfg1.N) : (dat1 V c).leavesExact 1 t = owns (c : Thread nD τ) (sFeat t) fullShare (blk V c 1 t) := by
  unfold Dat.leavesExact; rw [live1 t, after1]
theorem leaves2 (c : Dev nD) (t : Fin cfg1.N) : (dat1 V c).leavesExact 2 t = owns (c : Thread nD τ) (sDrow t) fullShare (blk V c 2 t) := by
  unfold Dat.leavesExact; rw [live2 t, after2]
theorem leaves3 (c : Dev nD) (t : Fin cfg1.N) : (dat1 V c).leavesExact 3 t = owns (c : Thread nD τ) (sDcol t) fullShare (blk V c 3 t) := by
  unfold Dat.leavesExact; rw [live3 t, after3]
theorem leaves4 (c : Dev nD) (t : Fin cfg1.N) : (dat1 V c).leavesExact 4 t = owns (c : Thread nD τ) (sWt t) fullShare (blk V c 4 t) := by
  unfold Dat.leavesExact; rw [live4 t, after4]
theorem leaves5 (c : Dev nD) (t : Fin cfg1.N) : (dat1 V c).leavesExact 5 t = owns (c : Thread nD τ) (sBias t) fullShare (blk V c 5 t) := by
  unfold Dat.leavesExact; rw [live5 t, after5]

set_option maxHeartbeats 4800000 in
/-- The body at any point: the inputs' memrefs hold their blocks; the closed forms say which case the point is in;
    the invariant hands the body the accumulator at what the point before left (at anything at the first point) and
    takes it back at this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5]
  rw [show (dat1 V c).owesAt () t.succ = (dat1 V c).owesAt () t.castSucc from rfl]
  rw [show (dat1 V c).Φ t.succ = inv V c (t.val + 1) t.isLt from rfl, inv_succ]
  rw [leaves0, leaves1, leaves2, leaves3, leaves4, leaves5]
  have hN : t.val < 128 := lt_of_lt_of_eq t.isLt (show cfg1.N = 128 from N_1)
  by_cases h0 : t.val % 8 = 0
  · have h1 : ¬t.val % 8 = 7 := by omega
    rw [Dat.leavesExact_idle (dat1 V c) 6 t (outIdle_first t ((firstK_iff t).mpr h0) (fun h => h1 ((lastK_iff t).mp h))) (outKept_first t ((firstK_iff t).mpr h0) (fun h => h1 ((lastK_iff t).mp h)))]
    rw [trace_first V c t h0 h1]
    unfold accFirstAt; (try dsimp only)
    by_cases hz : t.val = 0
    · rw [inv_castSucc V c t, inv_zero V c _ _ hz, entryInv_eq]
      iintro ⟨⟨⟨R0, R1, R2, R3, R4, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid1.coords t) _ _ _ _ _ _ _ _ _ _ _ _ _ _ _ _ ((firstK_iff t).mpr h0) (fun h => h1 ((lastK_iff t).mp h)) (blk V c 0 t) (blk V c 1 t) (blk V c 2 t) (blk V c 3 t) (blk V c 4 t) (blk V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [R0 R1 R2 R3 R4 HS Hg]
      · isplitl [R0 R1 R2 R3 R4 HS]
        · isplitl [R0]; · iexact R0
          isplitl [R1]; · iexact R1
          isplitl [R2]; · iexact R2
          isplitl [R3]; · iexact R3
          isplitl [R4]; · iexact R4
          unfold owns; iexists _; isplitr
          swap; · iexact HS
          ipureintro; exact View.read_writes_of_cover _ _ _ _ _ (accCover_first c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [inv_castSucc V c t, inv_pos V c _ _ hz]
      iintro ⟨⟨⟨R0, R1, R2, R3, R4, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid1.coords t) _ _ _ _ _ _ _ _ _ _ _ _ _ _ _ _ ((firstK_iff t).mpr h0) (fun h => h1 ((lastK_iff t).mp h)) (blk V c 0 t) (blk V c 1 t) (blk V c 2 t) (blk V c 3 t) (blk V c 4 t) (blk V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, ⟨%es, HS⟩⟩
      isplitl [R0 R1 R2 R3 R4 HS Hg]
      · isplitl [R0 R1 R2 R3 R4 HS]
        · isplitl [R0]; · iexact R0
          isplitl [R1]; · iexact R1
          isplitl [R2]; · iexact R2
          isplitl [R3]; · iexact R3
          isplitl [R4]; · iexact R4
          unfold owns; iexists _; isplitr
          swap; · iexact HS
          ipureintro; exact View.read_writes_of_cover _ _ _ _ _ (accCover_first c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · by_cases h1 : t.val % 8 = 7
    · rw [show (dat1 V c).leavesExact 6 t = owns (c : Thread nD τ) (sOut t) fullShare ((dat1 V c).after 6 t) from by
        unfold Dat.leavesExact; rw [outLive_last t (fun h => h0 ((firstK_iff t).mp h)) ((lastK_iff t).mpr h1)], after6]
      rw [trace_last V c t h0 h1]
      unfold outLastAt accLastAt; (try dsimp only)
      have hz : t.val ≠ 0 := by omega
      rw [inv_castSucc V c t, inv_pos V c _ _ hz]
      iintro ⟨⟨⟨R0, R1, R2, R3, R4, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid1.coords t) _ _ _ _ _ _ _ _ _ _ _ _ _ _ _ _ (fun h => h0 ((firstK_iff t).mp h)) ((lastK_iff t).mpr h1) (blk V c 0 t) (blk V c 1 t) (blk V c 2 t) (blk V c 3 t) (blk V c 4 t) (blk V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [R0 R1 R2 R3 R4 HS Hg]
      · isplitl [R0 R1 R2 R3 R4 HS]
        · isplitl [R0]; · iexact R0
          isplitl [R1]; · iexact R1
          isplitl [R2]; · iexact R2
          isplitl [R3]; · iexact R3
          isplitl [R4]; · iexact R4
          unfold owns; iexists _; isplitr
          swap; · iexact HS
          ipureintro; exact View.read_writes_of_cover _ _ _ _ _ (accCover_last c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (outCover_last c _ _ _ _ _ _ _ _ _ _ _ _ _ _ _ _ _ _ _ _ _ _ _ _ _ _)
    · rw [Dat.leavesExact_idle (dat1 V c) 6 t (outIdle_mid t (fun h => h0 ((firstK_iff t).mp h)) (fun h => h1 ((lastK_iff t).mp h))) (outKept_mid t (fun h => h0 ((firstK_iff t).mp h)) (fun h => h1 ((lastK_iff t).mp h)))]
      rw [trace_mid V c t h0 h1]
      unfold accMidAt; (try dsimp only)
      have hz : t.val ≠ 0 := by omega
      rw [inv_castSucc V c t, inv_pos V c _ _ hz]
      iintro ⟨⟨⟨R0, R1, R2, R3, R4, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runMid c (grid1.coords t) _ _ _ _ _ _ _ _ _ _ _ _ _ _ _ _ (fun h => h0 ((firstK_iff t).mp h)) (fun h => h1 ((lastK_iff t).mp h)) (blk V c 0 t) (blk V c 1 t) (blk V c 2 t) (blk V c 3 t) (blk V c 4 t) (blk V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [R0 R1 R2 R3 R4 HS Hg]
      · isplitl [R0 R1 R2 R3 R4 HS]
        · isplitl [R0]; · iexact R0
          isplitl [R1]; · iexact R1
          isplitl [R2]; · iexact R2
          isplitl [R3]; · iexact R3
          isplitl [R4]; · iexact R4
          unfold owns; iexists _; isplitr
          swap; · iexact HS
          ipureintro; exact View.read_writes_of_cover _ _ _ _ _ (accCover_mid c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = inv V c 0 (Nat.zero_le _) from rfl, inv_zero V c 0 _ rfl]
  try exact Idealize.SL.BI.Entails.refl _

/-- After any point but the first the invariant gives the entry form back: the accumulator's named contents are forgotten. -/
theorem inv_out (c : Dev nD) (t : Fin (cfg1.N + 1)) (ht : t.val ≠ 0) : (dat1 V c).Φ t ⊢ Pipeline.ΦA spec1 c := by
  rw [show (dat1 V c).Φ t = inv V c t.val (Nat.le_of_lt_succ t.isLt) from rfl, inv_pos V c _ _ ht, entryInv_eq]
  iintro ⟨⟨R0, R1, R2, R3, R4, HS⟩, Hg⟩
  isplitl [R0 R1 R2 R3 R4 HS]
  · isplitl [R0]; · iexact R0
    isplitl [R1]; · iexact R1
    isplitl [R2]; · iexact R2
    isplitl [R3]; · iexact R3
    isplitl [R4]; · iexact R4
    iexists _; iexact HS
  iexact Hg

/-- The same after the last point. -/
theorem hout1 (c : Dev nD) : (dat1 V c).Φ (Fin.last cfg1.N) ⊢ Pipeline.ΦA spec1 c :=
  inv_out V c _ (by rw [Fin.val_last]; have : cfg1.N = 128 := N_1; omega)

end Cert.Kernel.Gcn

end
-- ==== Proof.KRegions.lean ====
/-
  The two regions' proof data, as the whole-program run takes them: region 0 (column degrees and normalising
  factors) and region 1 (propagation, linear layer and tanh), each at any entry contents; and the program's
  frame: every weakly fair execution terminates with the argument arrays as launched.
-/
import proofs.«104315_j2027224564458_2_alg».proof.Proof.KRun
import proofs.«104315_j2027224564458_2_alg».proof.Proof.KDegBody
import proofs.«104315_j2027224564458_2_alg».proof.Proof.KGcnBody

noncomputable section

namespace Cert.Kernel.Regions

open Cert.Kernel.Gen
open Idealize.ShloMosaic Idealize.ShloMosaic.TcCoe
open Idealize.SL Idealize.SL.Sem

variable {F : FTy → Type} [FloatOps F]

/-- Region 0's record. -/
def degRegion : Cert.Kernel.Run.DegRegion F where
  dat := Cert.Kernel.Deg.dat0
  A_eq := Cert.Kernel.Deg.A_eq0
  q_eq := Cert.Kernel.Deg.q_eq0
  owed_eq := Cert.Kernel.Deg.owed_eq0
  recorded_eq := Cert.Kernel.Deg.recorded_eq0
  body := Cert.Kernel.Deg.body_obligation0
  hin := Cert.Kernel.Deg.hin0
  hout := Cert.Kernel.Deg.hout0

/-- Region 1's record: the factors' array is held in two halves, one per window that reads it. -/
def gcnRegion : Cert.Kernel.Run.GcnRegion F where
  dat := Cert.Kernel.Gcn.dat1
  A_eq := Cert.Kernel.Gcn.A_eq1
  q_eq := fun V c w => by fin_cases w <;> rfl
  owed_eq := fun V c t => rfl
  recorded_eq := fun V c t => rfl
  body := Cert.Kernel.Gcn.body_obligation1
  hin := Cert.Kernel.Gcn.hin1
  hout := Cert.Kernel.Gcn.hout1

/-- The program's frame, at any instance. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Cert.Kernel.Run.frame degRegion gcnRegion m ρ

end Cert.Kernel.Regions

end
-- ==== Proof.Spec.lean ====
/-
  The graph-convolution layer as functions of real matrices, index by index: the symmetric degree normalisation
  d = (colsum(adj) + 1)^(-1/2) (zero where the degree is not positive), the propagated features in the two
  arrangements the programs use — the self-loop folded into the adjacency matrix, or added as a separate
  diagonal term — and the dense read-out tanh(hm · Wᵀ + b).
-/
import Idealize.ShloMosaic.PureOps.Ideal

noncomputable section

namespace Cert.GcnSpec

/-- The normalising factor of a degree: its inverse square root when positive, zero otherwise. -/
def dReal (x : ℝ) : ℝ := if 0 < x then 1 / Real.sqrt x else 0

/-- The degree of node `j`: the `j`-th column sum of the adjacency matrix plus the self-loop. -/
def degR (a : Fin 8192 → Fin 8192 → ℝ) (j : Fin 8192) : ℝ := (∑ i : Fin 8192, a i j) + 1

/-- The normalising factor of node `j`. -/
def dR (a : Fin 8192 → Fin 8192 → ℝ) (j : Fin 8192) : ℝ := dReal (degR a j)

/-- Propagated features with the self-loop as a separate diagonal term, for any scaling vector `d`:
    `d i · Σ_j (a i j · d j) · h j k + (d i · d i) · h i k`. -/
def hmSplit (a : Fin 8192 → Fin 8192 → ℝ) (d : Fin 8192 → ℝ) (h : Fin 8192 → Fin 512 → ℝ) (i : Fin 8192) (k : Fin 512) : ℝ :=
  d i * (∑ j : Fin 8192, (a i j * d j) * h j k) + (d i * d i) * h i k

/-- Propagated features with the self-loop folded into the matrix: `Σ_j ((d i · (a i j + δ i j)) · d j) · h j k`. -/
def hmFolded (a : Fin 8192 → Fin 8192 → ℝ) (d : Fin 8192 → ℝ) (h : Fin 8192 → Fin 512 → ℝ) (i : Fin 8192) (k : Fin 512) : ℝ :=
  ∑ j : Fin 8192, ((d i * (a i j + if i = j then 1 else 0)) * d j) * h j k

/-- The dense read-out `tanh(Σ_k hm i k · w o k + b o)` (`w` is the weight as given, `[out, in]`). -/
def readout (hm : Fin 8192 → Fin 512 → ℝ) (w : Fin 512 → Fin 512 → ℝ) (bb : Fin 512 → ℝ) (i : Fin 8192) (o : Fin 512) : ℝ :=
  Real.tanh ((∑ k : Fin 512, hm i k * w o k) + bb o)

/-- The two arrangements of the propagation agree: distributing the product over `a i j + δ i j` splits off the
    diagonal term. -/
theorem hmFolded_eq_hmSplit (a : Fin 8192 → Fin 8192 → ℝ) (d : Fin 8192 → ℝ) (h : Fin 8192 → Fin 512 → ℝ)
    (i : Fin 8192) (k : Fin 512) : hmFolded a d h i k = hmSplit a d h i k := by
  unfold hmFolded hmSplit
  have : ∀ j : Fin 8192, ((d i * (a i j + if i = j then 1 else 0)) * d j) * h j k
      = d i * ((a i j * d j) * h j k) + (if i = j then (d i * d j) * h j k else 0) := by
    intro j; split_ifs <;> ring
  rw [Finset.sum_congr rfl (fun j _ => this j), Finset.sum_add_distrib, ← Finset.mul_sum,
    Finset.sum_ite_eq Finset.univ i (fun j => (d i * d j) * h j k)]
  simp

end Cert.GcnSpec

end
-- ==== Proof.SpecLaws.lean ====
/-
  Scalar laws joining the two programs' spellings of the degree normalisation to the real function `dReal`:
  the reference raises the degree to the power -1/2 and replaces an infinite result by zero; the kernel selects
  1/sqrt(deg) where the degree is positive and zero elsewhere. On a real degree both are `dReal`: for x > 0,
  x^(-1/2) = 1/sqrt x; at 0 the real power with a nonzero exponent is 0; for x < 0 the real power is
  exp(-(log x)/2) · cos(-π/2) = 0. The result is always a real number, so the reference's test for an infinity
  never fires.
-/
import proofs.«104315_j2027224564458_2_alg».proof.Proof.Spec
import Idealize.ShloMosaic.PureOps.Ideal.Laws
import Idealize.ShloMosaic.Lib.IdealHost

noncomputable section

namespace Cert.GcnSpec

open Idealize.ShloMosaic

/-- The real power x^(-1/2), with the conventions at zero and on the negatives, is the normalising factor. -/
theorem rpow_neg_half (x : ℝ) : Real.rpow x (-(1 / 2)) = dReal x := by
  unfold dReal
  show x ^ (-(1 / 2) : ℝ) = _
  rcases lt_trichotomy 0 x with hx | hx | hx
  · rw [if_pos hx, Real.rpow_neg hx.le, Real.sqrt_eq_rpow]
    exact (one_div _).symm
  · subst hx
    rw [if_neg (lt_irrefl _)]
    exact Real.zero_rpow (by norm_num)
  · rw [if_neg (not_lt.2 hx.le), Real.rpow_def_of_neg hx]
    have hc : Real.cos (-(1 / 2) * Real.pi) = 0 := by
      rw [show -(1 / 2) * Real.pi = -(Real.pi / 2) by ring, Real.cos_neg, Real.cos_pi_div_two]
    rw [hc, mul_zero]

/-- The f32 pattern `0xBF000000` is the real -1/2. -/
theorem ofBits_neg_half_f32 : Ideal.ofBits .f32 0xBF000000#32 = ((-(1 / 2) : ℝ) : EReal) := by
  simp [Ideal.ofBits, Ideal.ieee, -EReal.coe_mul, -EReal.coe_neg]; norm_num

/-- The f32 pattern `0x7F800000` is +∞. -/
theorem ofBits_inf_f32 : Ideal.ofBits .f32 0x7F800000#32 = ⊤ := by simp [Ideal.ofBits, Ideal.ieee]

/-- The ideal power of a real degree to the literal -1/2 is the normalising factor. -/
theorem pow_neg_half (x : ℝ) :
    Ideal.pow (x : EReal) (Ideal.ofBits .f32 0xBF000000#32) = ((dReal x : ℝ) : EReal) := by
  rw [ofBits_neg_half_f32, Ideal.pow_coe_coe, rpow_neg_half]

/-- A real number is not infinite, so replacing infinite entries by zero leaves it unchanged. -/
theorem where_isinf_coe (r : ℝ) :
    Scalar.select (Ideal.cmp .oeq (max (r : EReal) (-(r : EReal))) (Ideal.ofBits .f32 0x7F800000#32))
      (Ideal.ofBits .f32 0x00000000#32) (r : EReal) = (r : EReal) := by
  have hne : max (r : EReal) (-(r : EReal)) ≠ ⊤ := by
    rcases max_choice (r : EReal) (-(r : EReal)) with h | h <;> rw [h]
    · exact EReal.coe_ne_top r
    · rw [← EReal.coe_neg]; exact EReal.coe_ne_top _
  rw [ofBits_inf_f32]
  have hc : Ideal.cmp .oeq (max (r : EReal) (-(r : EReal))) ⊤ = 0#1 := by
    simp [Ideal.cmp, hne]
  rw [hc]
  exact ValueIdx.select_zero _ _

/-- The reference's normalising factor of a real degree: the power -1/2 with infinities replaced by zero. -/
theorem where_isinf_pow (x : ℝ) :
    Scalar.select
      (Ideal.cmp .oeq (max (Ideal.pow (x : EReal) (Ideal.ofBits .f32 0xBF000000#32))
        (-(Ideal.pow (x : EReal) (Ideal.ofBits .f32 0xBF000000#32)))) (Ideal.ofBits .f32 0x7F800000#32))
      (Ideal.ofBits .f32 0x00000000#32) (Ideal.pow (x : EReal) (Ideal.ofBits .f32 0xBF000000#32))
    = ((dReal x : ℝ) : EReal) := by
  rw [pow_neg_half, where_isinf_coe]

/-- The kernel's normalising factor of a real degree: 1/sqrt where the degree is positive, zero elsewhere. -/
theorem select_pos_inv_sqrt (x : ℝ) :
    Scalar.select (Ideal.cmp .ogt (x : EReal) (Ideal.ofBits .f32 0x00000000#32))
      (Ideal.div (Ideal.ofBits .f32 0x3F800000#32) (Ideal.sqrt (x : EReal))) (Ideal.ofBits .f32 0x00000000#32)
    = ((dReal x : ℝ) : EReal) := by
  rw [Ideal.ofBits_zero_f32, Ideal.ofBits_one_f32]
  unfold dReal
  by_cases hx : 0 < x
  · have hc : Ideal.cmp .ogt (x : EReal) 0 = 1#1 := by
      have : (0 : EReal) < (x : EReal) := by exact_mod_cast hx
      simp [Ideal.cmp, this]
    have hs : Real.sqrt x ≠ 0 := (Real.sqrt_pos.2 hx).ne'
    rw [hc, ValueIdx.select_one, if_pos hx, Ideal.sqrt_coe, if_neg (not_lt.2 hx.le), Ideal.div,
      if_neg (by exact_mod_cast hs), one_mul, ← EReal.coe_inv, one_div]
  · have hc : Ideal.cmp .ogt (x : EReal) 0 = 0#1 := by
      have : ¬ (0 : EReal) < (x : EReal) := by exact_mod_cast hx
      simp [Ideal.cmp, this]
    rw [hc, ValueIdx.select_zero, if_neg hx, EReal.coe_zero]

end Cert.GcnSpec

end
-- ==== Proof.DegValue.lean ====
/-
  The value the degree kernel's region leaves in its output array, over the extended reals: when every entry of the
  adjacency matrix is a real number, entry (0, j) of the output is the normalising factor of node j — the inverse square
  root of (column sum j of the matrix, plus one), zero where that degree is not positive.

  The road: each case's stores are read back as the body's arithmetic of what it loaded (the scratch row after a row
  tile is what it held plus the tile's column sums; at the first row tile it held zeros; at the last the output row is
  the normalising arithmetic of the total); at a lane that arithmetic is a sum of 1024 matrix entries added to the
  carried value; so by induction over the grid points the scratch row after row tile i of column tile j holds the sum of
  column 1024·j + q over the rows of row tiles 0 … i, and after the last row tile the whole column sum; the points of the
  last row tile write their blocks back, and those blocks cover the output array.
-/
import proofs.«104315_j2027224564458_2_alg».proof.Proof.DegBody
import proofs.«104315_j2027224564458_2_alg».proof.Proof.SpecLaws
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Deg

open Idealize.ShloMosaic Idealize.ShloMosaic.TcCoe Idealize.ShloMosaic.Tactic Idealize.SL.Sem
open Idealize.ShloMosaic.Pipeline (Dat)
open Idealize.ShloMosaic.ValueIdx
open Cert.KernelIdeal Cert.KernelIdeal.Gen

/-! ## What each case's stores leave, as the body's arithmetic of what it loaded -/

section Pieces

variable {F : FTy → Type} [FloatOps F]
variable (V : (c : Dev nD) → (b : Ref sig .tc) → Buf (Elt F) ((c : Thread nD τ).loc b))

theorem zero_off : (![0, 0] : Fin 2 → Nat) = fun _ => 0 := funext fun a => by fin_cases a <;> rfl

/-- A middle row tile leaves in the scratch row the carried sums plus the tile's column sums. -/
theorem accAfterMid_eq (c : Dev nD) (t : Fin cfg0.N) (h0 : ¬t.val % 8 = 0) (h7 : ¬t.val % 8 = 7) (s : Vec F S1x1024 .f32) :
    accAfterMid V c t h0 h7 s = k0_pay2 s (tileAt V c 0 t) := by
  unfold accAfterMid
  rw [View.read_writes_eq_canon _ _ _ (accMid_cover V c t h0 h7 s)]
  unfold midAt runMid
  dsimp only
  try sl_unfold_words
  rw [View.canon_unit_zero zero_off]
  simp only [View.readAt_eq_ld, (adjStage_whole t).read_unread, (Memref.isWhole_whole cc0_scratch0).read_unread,
    View.ld_unit_zero (S := S1x1024) zero_off, View.ld_unit_zero (S := S1024x1024) zero_off]

/-- So does the last row tile. -/
theorem accAfterLast_eq (c : Dev nD) (t : Fin cfg0.N) (h0 : ¬t.val % 8 = 0) (h7 : t.val % 8 = 7) (s : Vec F S1x1024 .f32) :
    accAfterLast V c t h0 h7 s = k0_pay2 s (tileAt V c 0 t) := by
  unfold accAfterLast
  rw [View.read_writes_eq_canon _ _ _ (accLast_cover V c t h0 h7 s)]
  unfold lastAt runLast
  dsimp only
  try sl_unfold_words
  rw [View.canon_unit_zero zero_off]
  simp only [View.readAt_eq_ld, (adjStage_whole t).read_unread, (Memref.isWhole_whole cc0_scratch0).read_unread,
    View.ld_unit_zero (S := S1x1024) zero_off, View.ld_unit_zero (S := S1024x1024) zero_off]

/-- The first row tile zeroes the scratch row, reads the zeros back, and leaves them plus the tile's column sums. -/
theorem accAfterFirst_eq (c : Dev nD) (t : Fin cfg0.N) (h0 : t.val % 8 = 0) (h7 : ¬t.val % 8 = 7) :
    accAfterFirst V c t h0 h7 = k0_pay2 (k0_pay1 (F := F)) (tileAt V c 0 t) := by
  unfold accAfterFirst
  rw [View.read_writes_eq_canon _ _ _ (accFirst_cover V c t h0 h7)]
  unfold firstAt runFirst
  dsimp only
  sl_unfold_words
  rw [View.canon_cons_unit_zero (S := S1x1024) zero_off, View.readCov_unit_zero (S := S1x1024) _ zero_off]
  simp only [View.readAt_eq_ld, (adjStage_whole t).read_unread,
    View.ld_unit_zero (S := S1x1024) zero_off, View.ld_unit_zero (S := S1024x1024) zero_off]

/-- The last row tile stores to the output row the normalising payload of the total it has just put in the scratch row. -/
theorem outAfterLast_eq (c : Dev nD) (t : Fin cfg0.N) (h0 : ¬t.val % 8 = 0) (h7 : t.val % 8 = 7) (s : Vec F S1x1024 .f32) :
    outAfterLast V c t h0 h7 s = k0_pay3 (k0_pay2 s (tileAt V c 0 t)) := by
  unfold outAfterLast
  rw [View.read_writes_eq_canon _ _ _ (outLast_cover V c t h0 h7 s)]
  unfold lastAt runLast
  dsimp only
  sl_unfold_words
  rw [View.canon_unit_zero zero_off, View.readCov_unit_zero (S := S1x1024) _ zero_off]
  simp only [View.readAt_eq_ld, (adjStage_whole t).read_unread, (Memref.isWhole_whole cc0_scratch0).read_unread,
    View.ld_unit_zero (S := S1x1024) zero_off, View.ld_unit_zero (S := S1024x1024) zero_off]

/-- Where the adjacency window's blocks sit: at point `t` row tile `t % 8`, column tile `t / 8`. -/
theorem adj_index : ∀ t : Fin cfg0.N, win0_0.index t (0 : Fin 2) = t.val % 8 ∧ win0_0.index t (1 : Fin 2) = t.val / 8 :=
  (by decide +kernel : ∀ t : Fin grid0.N, win0_0.index t (0 : Fin 2) = t.val % 8 ∧ win0_0.index t (1 : Fin 2) = t.val / 8)

/-- Where the output row's blocks sit: column tile `t / 8`. -/
theorem out_index : ∀ t : Fin cfg0.N, win0_1.index t (0 : Fin 2) = 0 ∧ win0_1.index t (1 : Fin 2) = t.val / 8 :=
  (by decide +kernel : ∀ t : Fin grid0.N, win0_1.index t (0 : Fin 2) = 0 ∧ win0_1.index t (1 : Fin 2) = t.val / 8)

/-- The tile at point `t`, entry (k, q), is the matrix's entry at row 1024·(t % 8) + k, column 1024·(t / 8) + q. -/
theorem tileAt_apply (c : Dev nD) (t : Fin cfg0.N) (k q : Fin 1024) (i : S8192x8192.Idx)
    (hi0 : (i 0).val = 1024 * (t.val % 8) + k.val) (hi1 : (i 1).val = 1024 * (t.val / 8) + q.val) :
    (tileAt V c 0 t : Vec F S1024x1024 .f32) (ix2 k q) = (V c main_arg1 : S8192x8192.Idx → Elt F .f32) i := by
  obtain ⟨e0, e1⟩ := adj_index t
  unfold tileAt
  rw [View.read_apply]
  show (V c main_arg1 : S8192x8192.Idx → Elt F .f32) _ = (V c main_arg1 : S8192x8192.Idx → Elt F .f32) i
  refine congrArg _ (funext fun a => Fin.ext ?_)
  match a with
  | ⟨0, _⟩ => show win0_0.index t (0 : Fin 2) * 1024 + 1 * k.val = (i 0).val; rw [e0, hi0]; omega
  | ⟨1, _⟩ => show win0_0.index t (1 : Fin 2) * 1024 + 1 * q.val = (i 1).val; rw [e1, hi1]; omega

end Pieces

/-! ## The body's arithmetic at a lane, over the extended reals -/

section Lanes

/-- The zeroing payload is zero at every lane. -/
theorem pay1_apply (q : Fin 1024) : k0_pay1 (F := Ideal) (ix2 (0 : Fin 1) q) = ((0 : ℝ) : EReal) := by
  unfold k0_pay1
  rw [shapeCast_self]
  show Ideal.ofBits .f32 0x00000000#32 = _
  rw [Ideal.ofBits_zero_f32, EReal.coe_zero]

/-- The row the lane reduction inserts: coordinate `k` above lane `q`. -/
theorem lift_row (q k : Fin 1024) :
    reduces_S1024x1024_S1024.lift (ix1 q) k = (ix2 k q : S1024x1024.Idx) := by
  funext a
  match a with
  | ⟨0, _⟩ => exact Fin.ext rfl
  | ⟨1, _⟩ => exact Fin.ext rfl

/-- The accumulation payload at lane `q`: the carried value plus the sum of the tile's column `q`. -/
theorem pay2_apply (s : Vec Ideal S1x1024 .f32) (x : Vec Ideal S1024x1024 .f32) (q : Fin 1024) :
    k0_pay2 (F := Ideal) s x (ix2 (0 : Fin 1) q) = s (ix2 (0 : Fin 1) q) + ∑ k : Fin 1024, x (ix2 k q) := by
  unfold k0_pay2
  rw [shapeCast_self]
  show s (ix2 (0 : Fin 1) q) + shapeCast S1x1024 _ shapeCasts_S1024_S1x1024 (ix2 (0 : Fin 1) q) = _
  refine congrArg (s (ix2 (0 : Fin 1) q) + ·) ?_
  refine (shapeCast_a_1a_apply _ shapeCasts_S1024_S1x1024 (0 : Fin 1) q).trans ?_
  refine (Ideal.multiReduction_add_single x 0x00000000#32 reduces_S1024x1024_S1024 (.inl rfl) rfl (ix1 q)).trans ?_
  exact Finset.sum_congr rfl fun k _ => congrArg x (lift_row q k)

/-- The normalising payload at lane `q`, of a row whose entry there is a real number `x`: the normalising factor of `x + 1`. -/
theorem pay3_apply (v : Vec Ideal S1x1024 .f32) (q : Fin 1024) (x : ℝ) (hv : v (ix2 (0 : Fin 1) q) = (x : EReal)) :
    k0_pay3 (F := Ideal) v (ix2 (0 : Fin 1) q) = ((Cert.GcnSpec.dReal (x + 1) : ℝ) : EReal) := by
  unfold k0_pay3
  show Scalar.select (Ideal.cmp .ogt (v (ix2 (0 : Fin 1) q) + Ideal.ofBits .f32 0x3F800000#32) (Ideal.ofBits .f32 0x00000000#32))
      (Ideal.div (Ideal.ofBits .f32 0x3F800000#32) (Ideal.sqrt (v (ix2 (0 : Fin 1) q) + Ideal.ofBits .f32 0x3F800000#32)))
      (Ideal.ofBits .f32 0x00000000#32) = _
  rw [hv, show (x : EReal) + Ideal.ofBits .f32 0x3F800000#32 = ((x + 1 : ℝ) : EReal) from by
    rw [Ideal.ofBits_one_f32, EReal.coe_add, EReal.coe_one]]
  exact Cert.GcnSpec.select_pos_inv_sqrt (x + 1)

end Lanes

/-! ## Column sums over ranges of rows -/

section Sums

/-- The coercion of a finite sum of reals is the sum of the coercions. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert x s hx ih => rw [Finset.sum_insert hx, Finset.sum_insert hx, EReal.coe_add, ih]

/-- The matrix extended by zero off its index range, so that sums over ranges of rows split by arithmetic. -/
def adjAt (a : Fin 8192 → Fin 8192 → ℝ) (r col : ℕ) : ℝ :=
  if h : r < 8192 ∧ col < 8192 then a ⟨r, h.1⟩ ⟨col, h.2⟩ else 0

theorem adjAt_eq (a : Fin 8192 → Fin 8192 → ℝ) (p q : Fin 8192) : adjAt a p.val q.val = a p q := by
  unfold adjAt; rw [dif_pos ⟨p.isLt, q.isLt⟩]

/-- The sum of column `col` over the rows of row tiles 0 … i. -/
def colUpTo (a : Fin 8192 → Fin 8192 → ℝ) (i col : ℕ) : ℝ := ∑ r ∈ Finset.range ((i + 1) * 1024), adjAt a r col

theorem colUpTo_zero (a : Fin 8192 → Fin 8192 → ℝ) (col : ℕ) :
    colUpTo a 0 col = 0 + ∑ k ∈ Finset.range 1024, adjAt a (1024 * 0 + k) col := by
  unfold colUpTo
  simp only [zero_add, Nat.mul_zero, Nat.zero_add, Nat.one_mul]

theorem colUpTo_succ (a : Fin 8192 → Fin 8192 → ℝ) (i col : ℕ) :
    colUpTo a (i + 1) col = colUpTo a i col + ∑ k ∈ Finset.range 1024, adjAt a (1024 * (i + 1) + k) col := by
  unfold colUpTo
  rw [show (i + 1 + 1) * 1024 = (i + 1) * 1024 + 1024 by ring, Finset.sum_range_add]
  refine congrArg (_ + ·) (Finset.sum_congr rfl fun k _ => ?_)
  rw [Nat.mul_comm]

/-- Down all eight row tiles it is the whole column sum. -/
theorem colUpTo_last (a : Fin 8192 → Fin 8192 → ℝ) (q : Fin 8192) : colUpTo a 7 q.val = ∑ p : Fin 8192, a p q := by
  unfold colUpTo
  rw [show ((7 : ℕ) + 1) * 1024 = 8192 by norm_num, ← Fin.sum_univ_eq_sum_range (fun r => adjAt a r q.val) 8192]
  exact Finset.sum_congr rfl fun p _ => adjAt_eq a p q

end Sums

/-! ## The accumulation down a column of tiles, read as column sums -/

section Value

variable (V : (c : Dev nD) → (b : Ref sig .tc) → Buf (Elt Ideal) ((c : Thread nD τ).loc b)) (c : Dev nD)
  (a : Fin 8192 → Fin 8192 → ℝ)

/-- Column `q` of the tile at row tile `i`, column tile `j`, summed: 1024 entries of the matrix's column 1024·j + q. -/
theorem tile_colsum (ha : ∀ p q, V c main_arg1 (ValueIdx.ix2 p q) = ((a p q : ℝ) : EReal))
    (t : Fin cfg0.N) (i j : ℕ) (hi : t.val % 8 = i) (hj : t.val / 8 = j) (q : Fin 1024)
    (x : Vec Ideal S1024x1024 .f32) (hx : x = tileAt V c 0 t) :
    ∑ k : Fin 1024, x (ix2 k q)
      = ((∑ k ∈ Finset.range 1024, adjAt a (1024 * i + k) (1024 * j + q.val) : ℝ) : EReal) := by
  have hN : t.val < 64 := lt_of_lt_of_eq t.isLt (show cfg0.N = 64 from N_0)
  subst hi hj hx
  rw [coe_sum, ← Fin.sum_univ_eq_sum_range (fun k => ((adjAt a (1024 * (t.val % 8) + k) (1024 * (t.val / 8) + q.val) : ℝ) : EReal)) 1024]
  refine Finset.sum_congr rfl fun k _ => ?_
  have hr : 1024 * (t.val % 8) + k.val < 8192 := by have := k.isLt; omega
  have hc : 1024 * (t.val / 8) + q.val < 8192 := by have := q.isLt; omega
  refine (tileAt_apply V c t k q (ix2 ⟨1024 * (t.val % 8) + k.val, hr⟩ ⟨1024 * (t.val / 8) + q.val, hc⟩) rfl rfl).trans ?_
  refine (ha _ _).trans ?_
  unfold adjAt; rw [dif_pos ⟨hr, hc⟩]

/-- One accumulation: a scratch row holding the real `x` at lane `q` holds, after the body at row tile `i` of column tile
    `j`, `x` plus that tile's part of the column sum. -/
theorem acc_step (ha : ∀ p q, V c main_arg1 (ValueIdx.ix2 p q) = ((a p q : ℝ) : EReal))
    (s : Vec Ideal S1x1024 .f32) (t : Fin cfg0.N) (i j : ℕ) (hi : t.val % 8 = i) (hj : t.val / 8 = j)
    (q : Fin 1024) (x : ℝ) (hs : s (ix2 (0 : Fin 1) q) = (x : EReal)) :
    k0_pay2 (F := Ideal) s (tileAt V c 0 t) (ix2 (0 : Fin 1) q)
      = ((x + ∑ k ∈ Finset.range 1024, adjAt a (1024 * i + k) (1024 * j + q.val) : ℝ) : EReal) := by
  refine (pay2_apply s _ q).trans ?_
  rw [hs, EReal.coe_add]
  exact congrArg ((x : EReal) + ·) (tile_colsum V c a ha t i j hi hj q _ rfl)

-- from here on the recursion and the cases' contents are used through their equations only
attribute [local irreducible] heldAt accAfterFirst accAfterMid accAfterLast outAfterLast outAfterFirst outAfterMid tileAt

/-- THE INVARIANT. After point `n` (row tile `n % 8` of column tile `n / 8`) the scratch row holds, at lane `q`, the sum
    of the matrix's column 1024·(n / 8) + q over the rows of row tiles 0 … n % 8. By induction on the point. -/
theorem acc_value (ha : ∀ p q, V c main_arg1 (ValueIdx.ix2 p q) = ((a p q : ℝ) : EReal)) :
    ∀ (n : ℕ) (hn : n < cfg0.N) (q : Fin 1024),
      (heldAt V c n hn).2 (ix2 (0 : Fin 1) q) = ((colUpTo a (n % 8) (1024 * (n / 8) + q.val) : ℝ) : EReal) := by
  intro n
  induction n with
  | zero =>
    intro hn q
    have e : heldAt V c 0 hn = (outAfterFirst V c ⟨0, hn⟩ (Nat.zero_mod 8) (by show ¬(0 % 8 = 7); decide),
        accAfterFirst V c ⟨0, hn⟩ (Nat.zero_mod 8) (by show ¬(0 % 8 = 7); decide)) :=
      heldAt_first V c ⟨0, hn⟩ (Nat.zero_mod 8) (by show ¬(0 % 8 = 7); decide)
    rw [e]; dsimp only
    rw [accAfterFirst_eq]
    refine (acc_step V c a ha _ ⟨0, hn⟩ 0 0 (Nat.zero_mod 8) (Nat.zero_div 8) q 0 (pay1_apply q)).trans ?_
    rw [Nat.zero_mod, Nat.zero_div, colUpTo_zero]
  | succ n ih =>
    intro hn q
    have hN : n + 1 < 64 := lt_of_lt_of_eq hn (show cfg0.N = 64 from N_0)
    by_cases h0 : (n + 1) % 8 = 0
    · have h7 : ¬(n + 1) % 8 = 7 := by omega
      have e : heldAt V c (n + 1) hn = (outAfterFirst V c ⟨n + 1, hn⟩ h0 h7, accAfterFirst V c ⟨n + 1, hn⟩ h0 h7) :=
        heldAt_first V c ⟨n + 1, hn⟩ h0 h7
      rw [e]; dsimp only
      rw [accAfterFirst_eq]
      refine (acc_step V c a ha _ ⟨n + 1, hn⟩ 0 ((n + 1) / 8) h0 rfl q 0 (pay1_apply q)).trans ?_
      rw [h0, colUpTo_zero]
    · have hm : (n + 1) % 8 = n % 8 + 1 := by omega
      have hd : (n + 1) / 8 = n / 8 := by omega
      have key : k0_pay2 (F := Ideal) (heldAt V c n (Nat.lt_of_succ_lt hn)).2 (tileAt V c 0 ⟨n + 1, hn⟩) (ix2 (0 : Fin 1) q)
          = ((colUpTo a ((n + 1) % 8) (1024 * ((n + 1) / 8) + q.val) : ℝ) : EReal) := by
        refine (acc_step V c a ha _ ⟨n + 1, hn⟩ (n % 8 + 1) (n / 8) hm hd q _ (ih (Nat.lt_of_succ_lt hn) q)).trans ?_
        rw [hm, hd, colUpTo_succ]
      by_cases h7 : (n + 1) % 8 = 7
      · have e : heldAt V c (n + 1) hn = (outAfterLast V c ⟨n + 1, hn⟩ h0 h7 (heldAt V c n (Nat.lt_of_succ_lt hn)).2,
            accAfterLast V c ⟨n + 1, hn⟩ h0 h7 (heldAt V c n (Nat.lt_of_succ_lt hn)).2) :=
          heldAt_last V c ⟨n + 1, hn⟩ h0 h7
        rw [e]; dsimp only
        rw [accAfterLast_eq]
        exact key
      · have e : heldAt V c (n + 1) hn = (outAfterMid V c ⟨n + 1, hn⟩ h0 h7 (heldAt V c n (Nat.lt_of_succ_lt hn)).2,
            accAfterMid V c ⟨n + 1, hn⟩ h0 h7 (heldAt V c n (Nat.lt_of_succ_lt hn)).2) :=
          heldAt_mid V c ⟨n + 1, hn⟩ h0 h7
        rw [e]; dsimp only
        rw [accAfterMid_eq]
        exact key

/-- After the last row tile of a column tile the output row's staging buffer holds, at lane `q`, the normalising factor
    of the node whose column that is: the scratch row holds the whole column sum, to which the body adds the self-loop. -/
theorem out_value (ha : ∀ p q, V c main_arg1 (ValueIdx.ix2 p q) = ((a p q : ℝ) : EReal))
    (t : Fin cfg0.N) (h7 : t.val % 8 = 7) (q : Fin 1024) (col : Fin 8192) (hcol : col.val = 1024 * (t.val / 8) + q.val) :
    (heldAt V c t.val t.isLt).1 (ix2 (0 : Fin 1) q) = ((Cert.GcnSpec.dR a col : ℝ) : EReal) := by
  have hN : t.val < 64 := lt_of_lt_of_eq t.isLt (show cfg0.N = 64 from N_0)
  have h0 : ¬t.val % 8 = 0 := by omega
  rw [heldAt_last V c t h0 h7]; dsimp only
  rw [outAfterLast_eq]
  have hm : (t.val - 1) % 8 = 6 := by omega
  have hd : (t.val - 1) / 8 = t.val / 8 := by omega
  have hacc := acc_value V c a ha (t.val - 1) (Nat.lt_of_le_of_lt (Nat.sub_le _ _) t.isLt) q
  rw [hm, hd] at hacc
  have hv := acc_step V c a ha _ t 7 (t.val / 8) h7 rfl q _ hacc
  rw [← hcol, (colUpTo_succ a 6 col.val).symm, colUpTo_last] at hv
  exact (pay3_apply _ q _ hv).trans rfl

/-! ## The output array after the region -/

/-- The array of normalising factors: entry (0, j) is node j's. -/
abbrev dArr : S1x8192.Idx → EReal := fun i => ((Cert.GcnSpec.dR a ⟨(i 1).val, idx2_lt1 i⟩ : ℝ) : EReal)

/-- What a point of the last row tile writes back is its block of that array. -/
theorem flushed_eq (ha : ∀ p q, V c main_arg1 (ValueIdx.ix2 p q) = ((a p q : ℝ) : EReal))
    (t : Fin cfg0.N) (hf : (cfg0.win 1).flush t = true) :
    (dat0 V c).flushed 1 t = ((cfg0.win 1).blk t).view.read (Elt Ideal) (dArr a) := by
  have h7 : t.val % 8 = 7 := (flush0_1 t).mp hf
  have hN : t.val < 64 := lt_of_lt_of_eq t.isLt (show cfg0.N = 64 from N_0)
  obtain ⟨e0, e1⟩ := out_index t
  show (cfg0.win 1).cut (grid0.coords t) ((dat0 V c).after 1 t) = _
  rw [after_out]
  funext y
  show ((heldAt V c t.val t.isLt).1 : S1x1024.Idx → EReal) y = dArr a (((cfg0.win 1).blk t).view.emb y)
  obtain ⟨u, q, rfl⟩ : ∃ (u : Fin 1) (q : Fin 1024), y = ix2 u q := ⟨y 0, y 1, eq_ix2 y⟩
  obtain rfl : u = 0 := Subsingleton.elim _ _
  have hc : 1024 * (t.val / 8) + q.val < 8192 := by have := q.isLt; omega
  refine (out_value V c a ha t h7 q ⟨1024 * (t.val / 8) + q.val, hc⟩ rfl).trans ?_
  refine congrArg (fun j => ((Cert.GcnSpec.dR a j : ℝ) : EReal)) (Fin.ext ?_)
  show 1024 * (t.val / 8) + q.val = win0_1.index t (1 : Fin 2) * 1024 + 1 * q.val
  rw [e1]; omega

/-- An index of the output array is in point `t`'s block iff each coordinate is in the block's range on its axis. -/
theorem mem_out_blk (t : Fin cfg0.N) (i : S1x8192.Idx) :
    i ∈ ((cfg0.win 1).blk t).view.set ↔ ∀ b : Fin 2, win0_1.index t b * S1x1024.size b ≤ (i b).val ∧ (i b).val < win0_1.index t b * S1x1024.size b + S1x1024.size b := by
  show i ∈ ((View.whole main_v0).slice (win0_1.rect t)).set ↔ _
  rw [View.set_slice_whole, Rect.mem_set_unit]
  exact Iff.rfl

/-- Every entry of the output array is written back by the last row tile of its column tile. -/
theorem out_cover (i : S1x8192.Idx) : ∃ t : Fin cfg0.N, (cfg0.win 1).flush t = true ∧ i ∈ ((cfg0.win 1).blk t).view.set := by
  have hi0 : (i 0).val < 1 := idx2_lt0 i
  have hi1 : (i 1).val < 8192 := idx2_lt1 i
  have hN : cfg0.N = 64 := N_0
  have ht : 8 * ((i 1).val / 1024) + 7 < cfg0.N := by rw [hN]; omega
  obtain ⟨e0, e1⟩ := out_index ⟨8 * ((i 1).val / 1024) + 7, ht⟩
  refine ⟨⟨8 * ((i 1).val / 1024) + 7, ht⟩, (flush0_1 _).mpr (by show (8 * ((i 1).val / 1024) + 7) % 8 = 7; omega), ?_⟩
  rw [mem_out_blk]
  intro b
  match b with
  | ⟨0, _⟩ =>
    show win0_1.index ⟨8 * ((i 1).val / 1024) + 7, ht⟩ (0 : Fin 2) * 1 ≤ (i 0).val ∧ (i 0).val < win0_1.index ⟨8 * ((i 1).val / 1024) + 7, ht⟩ (0 : Fin 2) * 1 + 1
    rw [e0]; omega
  | ⟨1, _⟩ =>
    show win0_1.index ⟨8 * ((i 1).val / 1024) + 7, ht⟩ (1 : Fin 2) * 1024 ≤ (i 1).val ∧ (i 1).val < win0_1.index ⟨8 * ((i 1).val / 1024) + 7, ht⟩ (1 : Fin 2) * 1024 + 1024
    rw [e1]
    show (8 * ((i 1).val / 1024) + 7) / 8 * 1024 ≤ (i 1).val ∧ (i 1).val < (8 * ((i 1).val / 1024) + 7) / 8 * 1024 + 1024
    omega

/-- THE VALUE: after the region the output array holds, at (0, j), node j's normalising factor. -/
theorem deg_value (ha : ∀ p q, V c main_arg1 (ValueIdx.ix2 p q) = ((a p q : ℝ) : EReal)) (j : Fin 8192) :
    (dat0 V c).arrAt 1 cfg0.N (ValueIdx.ix2 (0 : Fin 1) j) = ((Cert.GcnSpec.dR a j : ℝ) : EReal) :=
  (congrFun ((dat0 V c).arrAt_eq_of_cover 1 (dArr a) (flushed_eq V c a ha) (out_cover)) (ix2 (0 : Fin 1) j)).trans rfl

end Value

end Cert.KernelIdeal.Deg

end
-- ==== Proof.GcnPieces.lean ====
/- The propagate-and-project region: what each control case leaves, as the body's arithmetic applied to the blocks.
   At k = 0 the accumulator holds the first partial product added to the zero block; at k > 0 the partial product
   of this contraction tile added to what the point before left; at k = 7, in addition, the output block holds
   the finishing arithmetic applied to the completed accumulator. -/
import proofs.«104315_j2027224564458_2_alg».proof.Proof.GcnBody
import Idealize.ShloMosaic.Lib.Pipeline.Value

-- membership in a rectangle of full extents recurses once per coordinate of the long axes
set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem origin2 : (![0, 0] : Fin 2 → Nat) = fun _ => 0 := funext fun a => by fin_cases a <;> rfl

/-- The input windows' blocks at point t, each at its literal shape and element type. -/
abbrev adjAt (c : Dev nD) (t : Fin cfg1.N) : Vec F S512x1024 .f32 := blk V c 0 t
abbrev featAt (c : Dev nD) (t : Fin cfg1.N) : Vec F S8192x512 .bf16 := blk V c 1 t
abbrev drowAt (c : Dev nD) (t : Fin cfg1.N) : Vec F S1x512 .f32 := blk V c 2 t
abbrev dcolAt (c : Dev nD) (t : Fin cfg1.N) : Vec F S1x1024 .f32 := blk V c 3 t
abbrev wtAt (c : Dev nD) (t : Fin cfg1.N) : Vec F S512x512 .bf16 := blk V c 4 t
abbrev biasAt (c : Dev nD) (t : Fin cfg1.N) : Vec F S1x512 .f32 := blk V c 5 t

/-- Rows 1024 k … 1024 k + 1023 of the features, as the body loads them at point t = 8 i + k. -/
abbrev featK (c : Dev nD) (t : Fin cfg1.N) : Vec F S1024x512 .bf16 :=
  View.ld (S := S8192x512) (featAt V c t) (Rect.unit (s := S8192x512) (k1_off1 (grid1.coords t)) S1024x512.size (k1_off1_inb (grid1.coords t)))

/-- Rows 512 i … 512 i + 511 of the features, as the body loads them at a point with k = 7. -/
abbrev featI (c : Dev nD) (t : Fin cfg1.N) (h : lastK (grid1.coords t)) : Vec F S512x512 .bf16 :=
  View.ld (S := S8192x512) (featAt V c t) (Rect.unit (s := S8192x512) (k1_off2 (grid1.coords t)) S512x512.size (k1_off2_inb (grid1.coords t) h))

/-- At 0 < k < 7: the accumulator's one covering store. -/
theorem accMidAt_eq (c : Dev nD) (t : Fin cfg1.N) (h0 : ¬t.val % 8 = 0) (h1 : ¬t.val % 8 = 7) (xs : Vec F S512x512 .f32) :
    accMidAt V c t h0 h1 xs = k1_pay2 (dcolAt V c t) (adjAt V c t) (featK V c t) xs := by
  unfold accMidAt
  rw [View.read_writes_eq_canon _ _ _ (accCover_mid c _ _ _ _ _ _ _ _ _ _ _ _ _ _ _ _ _ _ _ _ _ _ _ _ _ _)]
  unfold runMid
  dsimp only
  rw [View.canon_unit_zero origin2]
  simp only [View.readAt_eq_ld, (wDcol t).read_unread, (wAdj t).read_unread, (wFeat t).read_unread,
    (Memref.isWhole_whole cc1_scratch0).read_unread, View.ld_unit_zero (S := S1x1024) origin2,
    View.ld_unit_zero (S := S512x1024) origin2, View.ld_unit_zero (S := S512x512) origin2]

/-- At k = 7 the accumulator gets the same store. -/
theorem accLastAt_eq (c : Dev nD) (t : Fin cfg1.N) (h0 : ¬t.val % 8 = 0) (h1 : t.val % 8 = 7) (xs : Vec F S512x512 .f32) :
    accLastAt V c t h0 h1 xs = k1_pay2 (dcolAt V c t) (adjAt V c t) (featK V c t) xs := by
  unfold accLastAt
  rw [View.read_writes_eq_canon _ _ _ (accCover_last c _ _ _ _ _ _ _ _ _ _ _ _ _ _ _ _ _ _ _ _ _ _ _ _ _ _)]
  unfold runLast
  dsimp only
  sl_unfold_run_names
  rw [View.canon_unit_zero origin2]
  simp only [View.readAt_eq_ld, (wDcol t).read_unread, (wAdj t).read_unread, (wFeat t).read_unread,
    (Memref.isWhole_whole cc1_scratch0).read_unread, View.ld_unit_zero (S := S1x1024) origin2,
    View.ld_unit_zero (S := S512x1024) origin2, View.ld_unit_zero (S := S512x512) origin2]
  try rfl

/-- At k = 0: the zero block is stored, read back, and the first partial product added to it. -/
theorem accFirstAt_eq (c : Dev nD) (t : Fin cfg1.N) (h0 : t.val % 8 = 0) (h1 : ¬t.val % 8 = 7) :
    accFirstAt V c t h0 h1 = k1_pay2 (dcolAt V c t) (adjAt V c t) (featK V c t) (k1_pay1 (F := F)) := by
  unfold accFirstAt
  rw [View.read_writes_eq_canon _ _ _ (accCover_first c _ _ _ _ _ _ _ _ _ _ _ _ _ _ _ _ _ _ _ _ _ _ _ _ _)]
  unfold runFirst
  dsimp only
  sl_unfold_run_names
  rw [View.canon_cons_unit_zero (S := S512x512) origin2, View.readCov_unit_zero (S := S512x512) _ origin2]
  simp only [View.readAt_eq_ld, (wDcol t).read_unread, (wAdj t).read_unread, (wFeat t).read_unread,
    View.ld_unit_zero (S := S1x1024) origin2, View.ld_unit_zero (S := S512x1024) origin2]
  try rfl

/-- At k = 7 the output block's one covering store: the finishing arithmetic on the completed accumulator. -/
theorem outLastAt_eq (c : Dev nD) (t : Fin cfg1.N) (h0 : ¬t.val % 8 = 0) (h1 : t.val % 8 = 7) (xs : Vec F S512x512 .f32) :
    outLastAt V c t h0 h1 xs
      = k1_pay3 (k1_pay2 (dcolAt V c t) (adjAt V c t) (featK V c t) xs) (drowAt V c t) (featI V c t ((lastK_iff t).mpr h1)) (wtAt V c t) (biasAt V c t) := by
  unfold outLastAt
  rw [View.read_writes_eq_canon _ _ _ (outCover_last c _ _ _ _ _ _ _ _ _ _ _ _ _ _ _ _ _ _ _ _ _ _ _ _ _ _)]
  unfold runLast
  dsimp only
  sl_unfold_run_names
  rw [View.canon_unit_zero origin2, View.readCov_unit_zero (S := S512x512) _ origin2]
  simp only [View.readAt_eq_ld, (wDcol t).read_unread, (wAdj t).read_unread, (wFeat t).read_unread, (wDrow t).read_unread,
    (wWt t).read_unread, (wBias t).read_unread,
    (Memref.isWhole_whole cc1_scratch0).read_unread, View.ld_unit_zero (S := S1x1024) origin2,
    View.ld_unit_zero (S := S512x1024) origin2, View.ld_unit_zero (S := S512x512) origin2, View.ld_unit_zero (S := S1x512) origin2]
  try rfl

end Cert.KernelIdeal.Gcn

end
-- ==== Proof.GcnBlocks.lean ====
/- The propagate-and-project region: what each window's block holds, entry by entry. At point t = 8 i + k the
   adjacency block is rows 512 i …, columns 1024 k … of the adjacency; the row-scale block is entries 512 i … of d,
   the column-scale block entries 1024 k … of d; the features, the projection and the bias are held whole; the
   body's two loads of the features read rows 1024 k … and rows 512 i …; the output block is rows 512 i … . -/
import proofs.«104315_j2027224564458_2_alg».proof.Proof.GcnPieces
import Idealize.ShloMosaic.Lib.ValueIdx

-- membership in a rectangle of full extents recurses once per coordinate of the long axes
set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-! ## The printed index maps, decided over the grid -/

theorem idxAdj : ∀ t : Fin cfg1.N, win1_0.index t 0 = t.val / 8 ∧ win1_0.index t 1 = t.val % 8 :=
  (by decide +kernel : ∀ t : Fin grid1.N, win1_0.index t 0 = t.val / 8 ∧ win1_0.index t 1 = t.val % 8)
theorem idxFeat : ∀ t : Fin cfg1.N, win1_1.index t 0 = 0 ∧ win1_1.index t 1 = 0 :=
  (by decide +kernel : ∀ t : Fin grid1.N, win1_1.index t 0 = 0 ∧ win1_1.index t 1 = 0)
theorem idxDrow : ∀ t : Fin cfg1.N, win1_2.index t 0 = 0 ∧ win1_2.index t 1 = t.val / 8 :=
  (by decide +kernel : ∀ t : Fin grid1.N, win1_2.index t 0 = 0 ∧ win1_2.index t 1 = t.val / 8)
theorem idxDcol : ∀ t : Fin cfg1.N, win1_3.index t 0 = 0 ∧ win1_3.index t 1 = t.val % 8 :=
  (by decide +kernel : ∀ t : Fin grid1.N, win1_3.index t 0 = 0 ∧ win1_3.index t 1 = t.val % 8)
theorem idxWt : ∀ t : Fin cfg1.N, win1_4.index t 0 = 0 ∧ win1_4.index t 1 = 0 :=
  (by decide +kernel : ∀ t : Fin grid1.N, win1_4.index t 0 = 0 ∧ win1_4.index t 1 = 0)
theorem idxBias : ∀ t : Fin cfg1.N, win1_5.index t 0 = 0 ∧ win1_5.index t 1 = 0 :=
  (by decide +kernel : ∀ t : Fin grid1.N, win1_5.index t 0 = 0 ∧ win1_5.index t 1 = 0)
theorem idxOut : ∀ t : Fin cfg1.N, win1_6.index t 0 = t.val / 8 ∧ win1_6.index t 1 = 0 :=
  (by decide +kernel : ∀ t : Fin grid1.N, win1_6.index t 0 = t.val / 8 ∧ win1_6.index t 1 = 0)
/-- The grid coordinates of point t: row tile t / 8, contraction tile t % 8. -/
theorem coordsAt : ∀ t : Fin cfg1.N, (grid1.coords t 0).val = t.val / 8 ∧ (grid1.coords t 1).val = t.val % 8 :=
  (by decide +kernel : ∀ t : Fin grid1.N, (grid1.coords t 0).val = t.val / 8 ∧ (grid1.coords t 1).val = t.val % 8)

/-! ## The blocks, entry by entry -/

theorem blkAdj_apply (c : Dev nD) (t : Fin cfg1.N) (r : Fin 512) (j : Fin 1024) (p q : Fin 8192)
    (hp : p.val = 512 * (t.val / 8) + r.val) (hq : q.val = 1024 * (t.val % 8) + j.val) :
    adjAt V c t (ix2 r j) = V c main_arg1 (ix2 p q) := by
  unfold adjAt blk
  rw [View.read_apply]
  show V c main_arg1 _ = V c main_arg1 _
  refine congrArg (V c main_arg1) (funext fun a => Fin.ext ?_)
  match a with
  | ⟨0, _⟩ => show win1_0.index t 0 * 512 + 1 * r.val = p.val; rw [(idxAdj t).1, hp]; omega
  | ⟨1, _⟩ => show win1_0.index t 1 * 1024 + 1 * j.val = q.val; rw [(idxAdj t).2, hq]; omega

theorem blkFeat_apply (c : Dev nD) (t : Fin cfg1.N) (p : Fin 8192) (q : Fin 512) :
    featAt V c t (ix2 p q) = V c main_v3 (ix2 p q) := by
  unfold featAt blk
  rw [View.read_apply]
  show V c main_v3 _ = V c main_v3 _
  refine congrArg (V c main_v3) (funext fun a => Fin.ext ?_)
  match a with
  | ⟨0, _⟩ => show win1_1.index t 0 * 8192 + 1 * p.val = p.val; rw [(idxFeat t).1]; omega
  | ⟨1, _⟩ => show win1_1.index t 1 * 512 + 1 * q.val = q.val; rw [(idxFeat t).2]; omega

theorem blkDrow_apply (c : Dev nD) (t : Fin cfg1.N) (u : Fin 1) (r : Fin 512) (p : Fin 8192)
    (hp : p.val = 512 * (t.val / 8) + r.val) :
    drowAt V c t (ix2 u r) = V c main_v0 (ix2 (0 : Fin 1) p) := by
  unfold drowAt blk
  rw [View.read_apply]
  show V c main_v0 _ = V c main_v0 _
  refine congrArg (V c main_v0) (funext fun a => Fin.ext ?_)
  match a with
  | ⟨0, _⟩ => show win1_2.index t 0 * 1 + 1 * u.val = 0; rw [(idxDrow t).1]; omega
  | ⟨1, _⟩ => show win1_2.index t 1 * 512 + 1 * r.val = p.val; rw [(idxDrow t).2, hp]; omega

theorem blkDcol_apply (c : Dev nD) (t : Fin cfg1.N) (u : Fin 1) (j : Fin 1024) (q : Fin 8192)
    (hq : q.val = 1024 * (t.val % 8) + j.val) :
    dcolAt V c t (ix2 u j) = V c main_v0 (ix2 (0 : Fin 1) q) := by
  unfold dcolAt blk
  rw [View.read_apply]
  show V c main_v0 _ = V c main_v0 _
  refine congrArg (V c main_v0) (funext fun a => Fin.ext ?_)
  match a with
  | ⟨0, _⟩ => show win1_3.index t 0 * 1 + 1 * u.val = 0; rw [(idxDcol t).1]; omega
  | ⟨1, _⟩ => show win1_3.index t 1 * 1024 + 1 * j.val = q.val; rw [(idxDcol t).2, hq]; omega

theorem blkWt_apply (c : Dev nD) (t : Fin cfg1.N) (p q : Fin 512) :
    wtAt V c t (ix2 p q) = V c main_v2 (ix2 p q) := by
  unfold wtAt blk
  rw [View.read_apply]
  show V c main_v2 _ = V c main_v2 _
  refine congrArg (V c main_v2) (funext fun a => Fin.ext ?_)
  match a with
  | ⟨0, _⟩ => show win1_4.index t 0 * 512 + 1 * p.val = p.val; rw [(idxWt t).1]; omega
  | ⟨1, _⟩ => show win1_4.index t 1 * 512 + 1 * q.val = q.val; rw [(idxWt t).2]; omega

theorem blkBias_apply (c : Dev nD) (t : Fin cfg1.N) (u : Fin 1) (q : Fin 512) :
    biasAt V c t (ix2 u q) = V c main_v4 (ix2 (0 : Fin 1) q) := by
  unfold biasAt blk
  rw [View.read_apply]
  show V c main_v4 _ = V c main_v4 _
  refine congrArg (V c main_v4) (funext fun a => Fin.ext ?_)
  match a with
  | ⟨0, _⟩ => show win1_5.index t 0 * 1 + 1 * u.val = 0; rw [(idxBias t).1]; omega
  | ⟨1, _⟩ => show win1_5.index t 1 * 512 + 1 * q.val = q.val; rw [(idxBias t).2]; omega

/-- The contraction tile's rows of the features. -/
theorem featK_apply (c : Dev nD) (t : Fin cfg1.N) (j : Fin 1024) (q : Fin 512) (p : Fin 8192)
    (hp : p.val = 1024 * (t.val % 8) + j.val) :
    featK V c t (ix2 j q) = V c main_v3 (ix2 p q) := by
  refine Eq.trans ?_ (blkFeat_apply V c t p q)
  show featAt V c t _ = featAt V c t _
  refine congrArg (featAt V c t) (funext fun a => Fin.ext ?_)
  match a with
  | ⟨0, _⟩ => show k1_off1 (grid1.coords t) 0 + 1 * j.val = p.val; rw [k1_off1_eq, hp, ← (coordsAt t).2]; show 1024 * (grid1.coords t 1).val + 1 * j.val = _; omega
  | ⟨1, _⟩ => show k1_off1 (grid1.coords t) 1 + 1 * q.val = q.val; rw [k1_off1_eq]; show 0 + 1 * q.val = q.val; omega

/-- The row tile's own rows of the features. -/
theorem featI_apply (c : Dev nD) (t : Fin cfg1.N) (h : lastK (grid1.coords t)) (r : Fin 512) (q : Fin 512) (p : Fin 8192)
    (hp : p.val = 512 * (t.val / 8) + r.val) :
    featI V c t h (ix2 r q) = V c main_v3 (ix2 p q) := by
  refine Eq.trans ?_ (blkFeat_apply V c t p q)
  show featAt V c t _ = featAt V c t _
  refine congrArg (featAt V c t) (funext fun a => Fin.ext ?_)
  match a with
  | ⟨0, _⟩ => show k1_off2 (grid1.coords t) 0 + 1 * r.val = p.val; rw [k1_off2_eq, hp, ← (coordsAt t).1]; show 512 * (grid1.coords t 0).val + 1 * r.val = _; omega
  | ⟨1, _⟩ => show k1_off2 (grid1.coords t) 1 + 1 * q.val = q.val; rw [k1_off2_eq]; show 0 + 1 * q.val = q.val; omega

end Cert.KernelIdeal.Gcn

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibRowColOps.lean ====
/-
  More two-dimensional vector operations read at one index, on the extended reals.

  Companions of the row operations: a `[1, b]` row repeated down a first axis, the one-row slice of an
  `[n, b]` vector at a given row, a `[1, a, b]` block viewed as `[a, b]`, and a sum along the FIRST axis
  (a column's total). Each only moves coordinates, or is the finite sum over the axis summed away.
-/
import Idealize.ShloMosaic.PureOps.Ideal.Laws
import Idealize.ShloMosaic.Lib.ValueIdx
import Idealize.ShloMosaic.Lib.Pipeline.Value

noncomputable section

namespace Cert.RowColOps

open Idealize.ShloMosaic Idealize.ShloMosaic.ValueIdx

section Layout

variable {α : Type} {a b n : Nat}

/-- A `[1, b]` row repeated along a first axis reads, at (i, j), the row at (0, j). -/
theorem rowSpread_apply (x : (⟨2, ![1, b]⟩ : Shape).Idx → α) (h : (⟨2, ![1, b]⟩ : Shape).Broadcasts ⟨2, ![a, b]⟩)
    (i : Fin a) (j : Fin b) : broadcastTo ⟨2, ![a, b]⟩ x h (ix2 i j) = x (ix2 (0 : Fin 1) j) :=
  broadcastTo_apply x h _ _ (fun c => by
    match c with
    | ⟨0, _⟩ => show 0 = if (1 : Nat) = 1 then 0 else i.val; rw [if_pos rfl]
    | ⟨1, _⟩ =>
      show j.val = if b = 1 then 0 else j.val
      split
      · next h1 => have := j.isLt; omega
      · rfl)

/-- The one-row slice at row `c` of an `[n, b]` vector reads, at (0, j), the vector at (c, j). -/
theorem sliceRow_apply (x : (⟨2, ![n, b]⟩ : Shape).Idx → α) (c : Fin n) (off : Fin 2 → Nat)
    (hoff : off = ![c.val, 0]) (h : (⟨2, ![n, b]⟩ : Shape).Slices off ⟨2, ![1, b]⟩) (u : Fin 1) (j : Fin b) :
    extractStridedSlice ⟨2, ![1, b]⟩ off x h (ix2 u j) = x (ix2 c j) := by
  subst hoff
  refine extractStridedSlice_apply _ x h _ _ (fun d => ?_)
  have hu : u.val = 0 := by omega
  match d with
  | ⟨0, _⟩ => show c.val = c.val + u.val; omega
  | ⟨1, _⟩ => show j.val = 0 + j.val; omega

/-- A `[1, a, b]` block viewed as `[a, b]` reads, at (i, j), the block at (0, i, j). -/
theorem dropLead_apply (x : (⟨3, ![1, a, b]⟩ : Shape).Idx → α)
    (h : (⟨3, ![1, a, b]⟩ : Shape).ShapeCasts ⟨2, ![a, b]⟩) (i : Fin a) (j : Fin b) :
    shapeCast ⟨2, ![a, b]⟩ x h (ix2 i j) = x (ix3 (0 : Fin 1) i j) :=
  shapeCast_apply x h _ _ (by
    rw [Shape.rowMajor_val_three, Shape.rowMajor_val_two]
    show ((0 : Nat) * a + i.val) * b + j.val = i.val * b + j.val
    rw [Nat.zero_mul, Nat.zero_add])

end Layout

section Columns

variable {a b : Nat} {φ : FTy}

/-- The index over column `j` with first coordinate `k`. -/
theorem lift_col (h : (⟨2, ![a, b]⟩ : Shape).Reduces [0] ⟨1, ![b]⟩) (j : Fin b) (k : Fin a) :
    h.lift (ix1 j) k = ix2 k j :=
  funext fun c => Fin.ext (by
    show h.liftVal (ix1 j) k.val c = (ix2 k j c).val
    unfold Shape.Reduces.liftVal
    match c with
    | ⟨0, _⟩ => rfl
    | ⟨1, _⟩ => rfl)

/-- A sum along the first axis, at column `j`: the sum of that column. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) := by
  rw [Ideal.multiReduction_add_single]
  exact Finset.sum_congr rfl fun k _ => congrArg src (lift_col h j k)

end Columns

end Cert.RowColOps

end
-- ==== Proof.GcnPay.lean ====
/- The arithmetic of the propagate-and-project body read at one index, on the extended reals: the zero block; one
   contraction tile's contribution (acc + (adj ⊙ d_col) · H_tile) as a sum over the tile's 1024 columns; and the
   finishing step tanh((d_row ⊙ acc + d_row² ⊙ H_rows) · Wt + bias) as a sum over the 512 features. -/
import proofs.«104315_j2027224564458_2_alg».proof.Proof.Gen.KernelIdeal.Skeleton
import proofs.«104315_j2027224564458_2_alg».proof.Proof.LibRowOps
import proofs.«104315_j2027224564458_2_alg».proof.Proof.LibRowColOps
import Idealize.ShloMosaic.Lib.ValueIdx
import Idealize.ShloMosaic.Lib.Pipeline.Value

noncomputable section

namespace Cert.KernelIdeal.Gcn

open Cert.KernelIdeal Cert.KernelIdeal.Gen
open Idealize.ShloMosaic Idealize.ShloMosaic.ValueIdx Idealize.SL.Sem

/-- The block the accumulator is reset to is zero everywhere. -/
theorem zeroBlock_apply (r q : Fin 512) : k1_pay1 (F := Ideal) (ix2 r q) = 0 := by
  unfold k1_pay1
  simp only [shapeCast_self]
  exact Ideal.ofBits_zero_f32

/-- One contraction tile: the accumulator's entry (r, q) grows by Σ_j (adj(r, j) · d(j)) · H(j, q) over the tile's 1024 columns j. -/
theorem tileStep_apply (v3 : Vec Ideal S1x1024 .f32) (v5 : Vec Ideal S512x1024 .f32) (v12 : Vec Ideal S1024x512 .bf16)
    (v14 : Vec Ideal S512x512 .f32) (r q : Fin 512) :
    k1_pay2 v3 v5 v12 v14 (ix2 r q)
      = v14 (ix2 r q) + ∑ j : Fin 1024, (v5 (ix2 r j) * v3 (ix2 (0 : Fin 1) j)) * v12 (ix2 j q) := by
  unfold k1_pay2
  simp only [shapeCast_self]
  refine (addf_apply _ _ _).trans ?_
  refine congrArg (v14 (ix2 r q) + ·) ?_
  refine (Cert.RowOps.matmul_zero_apply (d := dot_S512x1024_S1024x512_S512x512_1_0_0_1_n_n) ⟨rfl, rfl, rfl, rfl, rfl, rfl⟩ (φ₁ := .bf16) (φ₂ := .bf16) none _ v12 r q).trans ?_
  refine Finset.sum_congr rfl fun j _ => ?_
  refine congrArg (· * v12 (ix2 j q)) ?_
  show v5 (ix2 r j) * broadcastTo S512x1024 v3 broadcasts_S1x1024_S512x1024 (ix2 r j) = _
  exact congrArg (v5 (ix2 r j) * ·) (Cert.RowColOps.rowSpread_apply v3 broadcasts_S1x1024_S512x1024 r j)

/-- The finishing step at (r, o): tanh of Σ_k (d(r) · acc(r, k) + d(r)² · H(r, k)) · Wt(k, o), plus the bias at o. -/
theorem finish_apply (v23 : Vec Ideal S512x512 .f32) (v24 : Vec Ideal S1x512 .f32) (v30 : Vec Ideal S512x512 .bf16)
    (v40 : Vec Ideal S512x512 .bf16) (v43 : Vec Ideal S1x512 .f32) (r o : Fin 512) :
    k1_pay3 v23 v24 v30 v40 v43 (ix2 r o)
      = Ideal.tanh ((∑ k : Fin 512, (v24 (ix2 (0 : Fin 1) r) * v23 (ix2 r k)
            + (v24 (ix2 (0 : Fin 1) r) * v24 (ix2 (0 : Fin 1) r)) * v30 (ix2 r k)) * v40 (ix2 k o))
          + v43 (ix2 (0 : Fin 1) o)) := by
  unfold k1_pay3
  simp only [shapeCast_self]
  refine congrArg Ideal.tanh ?_
  refine (addf_apply _ _ _).trans ?_
  refine congrArg₂ (· + ·) ?_ (Cert.RowColOps.rowSpread_apply v43 broadcasts_S1x512_S512x512 r o)
  refine (Cert.RowOps.matmul_zero_apply (d := dot_S512x512_S512x512_S512x512_1_0_0_1_n_n) ⟨rfl, rfl, rfl, rfl, rfl, rfl⟩ (φ₁ := .bf16) (φ₂ := .bf16) none _ v40 r o).trans ?_
  refine Finset.sum_congr rfl fun k _ => ?_
  refine congrArg (· * v40 (ix2 k o)) ?_
  have hcol : ∀ (u : Fin 1), transpose S512x1 [1, 0] v24 transposes_S1x512_p1_0_S512x1 (ix2 r u) = v24 (ix2 (0 : Fin 1) r) := fun u => by
    obtain rfl : u = 0 := Subsingleton.elim _ _
    exact Cert.RowOps.swap_apply v24 transposes_S1x512_p1_0_S512x1 r (0 : Fin 1)
  show broadcastTo S512x512 (transpose S512x1 [1, 0] v24 transposes_S1x512_p1_0_S512x1) broadcasts_S512x1_S512x512 (ix2 r k) * v23 (ix2 r k)
      + broadcastTo S512x512 (mulf (F := Ideal) (φ := .f32) (transpose S512x1 [1, 0] v24 transposes_S1x512_p1_0_S512x1) (transpose S512x1 [1, 0] v24 transposes_S1x512_p1_0_S512x1)) broadcasts_S512x1_S512x512 (ix2 r k) * v30 (ix2 r k) = _
  refine congrArg₂ (· + ·) (congrArg (· * v23 (ix2 r k)) ?_) (congrArg (· * v30 (ix2 r k)) ?_)
  · exact (Cert.RowOps.spread_apply _ broadcasts_S512x1_S512x512 r k).trans (hcol 0)
  · refine (Cert.RowOps.spread_apply _ broadcasts_S512x1_S512x512 r k).trans ?_
    show transpose S512x1 [1, 0] v24 transposes_S1x512_p1_0_S512x1 (ix2 r (0 : Fin 1)) * transpose S512x1 [1, 0] v24 transposes_S1x512_p1_0_S512x1 (ix2 r (0 : Fin 1)) = _
    rw [hcol 0]

end Cert.KernelIdeal.Gcn

end
-- ==== Proof.GcnSums.lean ====
/- Real arithmetic behind the propagate-and-project value: a finite sum of reals read in the extended reals; the
   contraction over 8192 columns taken 1024 at a time (a running sum over the first n columns, extended by one tile);
   and the finishing formula, whose every entry is real, as the coercion of the real formula. -/
import Idealize.ShloMosaic.PureOps.Ideal
import Mathlib.Algebra.BigOperators.Fin
import Mathlib.Algebra.BigOperators.Intervals

noncomputable section

open scoped BigOperators

namespace Cert.KernelIdeal.Gcn

open Idealize.ShloMosaic

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over `Fin n` of a function of the value is the sum over the first n naturals. -/
theorem sum_fin_range {M : Type*} [AddCommMonoid M] (n : ℕ) (f : ℕ → M) : ∑ j : Fin n, f j.val = ∑ j ∈ Finset.range n, f j :=
  Fin.sum_univ_eq_sum_range f n

/-- ONE TILE MORE. If x is the running sum of the reals T over the first n indices and the tile's 1024 extended-real
    terms are the next 1024 values of T, then x plus the tile's sum is the running sum over the first n + 1024. -/
theorem running_add_tile (x : EReal) (n : ℕ) (T : ℕ → ℝ) (hx : x = ((∑ j ∈ Finset.range n, T j : ℝ) : EReal))
    (Y : Fin 1024 → EReal) (hY : ∀ j : Fin 1024, Y j = ((T (n + j.val) : ℝ) : EReal)) :
    x + ∑ j : Fin 1024, Y j = ((∑ j ∈ Finset.range (n + 1024), T j : ℝ) : EReal) := by
  rw [Finset.sum_range_add, EReal.coe_add, ← hx]
  refine congrArg (x + ·) ?_
  rw [coe_sum, ← sum_fin_range 1024 (fun j => ((T (n + j) : ℝ) : EReal))]
  exact Finset.sum_congr rfl fun j _ => hY j

/-- The running sum over all n indices of a function given on `Fin n`. -/
theorem running_full (n : ℕ) (T : ℕ → ℝ) (f : Fin n → ℝ) (hT : ∀ j : Fin n, T j.val = f j) :
    ∑ j ∈ Finset.range n, T j = ∑ j : Fin n, f j := by
  rw [← sum_fin_range n T]
  exact Finset.sum_congr rfl fun j _ => hT j

/-- THE FINISHING FORMULA on real entries: tanh of Σ_k (d · S_k + d² · H_k) · W_k plus the bias is the coercion of the
    same formula over the reals. -/
theorem finish_coe (dp : ℝ) (S Hp W : Fin 512 → ℝ) (b : ℝ) :
    Ideal.tanh ((∑ k : Fin 512, ((dp : EReal) * (S k : EReal) + ((dp : EReal) * (dp : EReal)) * (Hp k : EReal)) * (W k : EReal)) + (b : EReal))
      = ((Real.tanh ((∑ k : Fin 512, (dp * S k + (dp * dp) * Hp k) * W k) + b) : ℝ) : EReal) := by
  have e : (∑ k : Fin 512, ((dp : EReal) * (S k : EReal) + ((dp : EReal) * (dp : EReal)) * (Hp k : EReal)) * (W k : EReal))
      = ((∑ k : Fin 512, (dp * S k + (dp * dp) * Hp k) * W k : ℝ) : EReal) := by
    rw [coe_sum]
    exact Finset.sum_congr rfl fun k _ => by
      rw [EReal.coe_mul, EReal.coe_add, EReal.coe_mul, EReal.coe_mul, EReal.coe_mul]
  rw [e, ← EReal.coe_add]
  rfl

end Cert.KernelIdeal.Gcn

end
-- ==== Proof.GcnValue.lean ====
/- THE VALUE of the propagate-and-project region when every entry it reads is real: after the region, entry (i, o) of
   its output array is tanh(Σ_k (d_i · Σ_j (a_ij · d_j) · h_jk + d_i² · h_ik) · wt_ko + bb_o). The accumulator after the
   point (row tile, contraction tile k) holds, at (r, q), the sum over the first 1024 (k + 1) columns j of
   (a_pj · d_j) · h_jq for the row p = 512 · (row tile) + r — by induction over the points —; at k = 7 the finished
   block is stored, and the sixteen finished blocks tile the array. -/
import proofs.«104315_j2027224564458_2_alg».proof.Proof.GcnBlocks
import proofs.«104315_j2027224564458_2_alg».proof.Proof.GcnPay
import proofs.«104315_j2027224564458_2_alg».proof.Proof.GcnSums

set_option maxRecDepth 16384

noncomputable section

open scoped BigOperators

namespace Cert.KernelIdeal.Gcn

open Cert.KernelIdeal Cert.KernelIdeal.Gen
open Idealize.ShloMosaic Idealize.ShloMosaic.TcCoe Idealize.ShloMosaic.ValueIdx Idealize.SL.Sem
open Idealize.ShloMosaic.Pipeline (Dat)

section Value

variable (V : (c : Dev nD) → (b : Ref sig .tc) → Buf (Elt Ideal) ((c : Thread nD τ).loc b)) (c : Dev nD)
  (a : Fin 8192 → Fin 8192 → ℝ) (h : Fin 8192 → Fin 512 → ℝ) (d : Fin 8192 → ℝ) (wt : Fin 512 → Fin 512 → ℝ) (bb : Fin 512 → ℝ)

/-- Column j's contribution to entry (p, q) of the scaled adjacency times the features (nothing past the last column). -/
def term (p : Fin 8192) (q : Fin 512) (j : ℕ) : ℝ :=
  if hj : j < 8192 then (a p ⟨j, hj⟩ * d ⟨j, hj⟩) * h ⟨j, hj⟩ q else 0

/-- The closed form of the whole output array. -/
def outG : S8192x512.Idx → Elt Ideal .f32 := fun idx =>
  ((Real.tanh ((∑ k : Fin 512, (d (idx 0) * (∑ j : Fin 8192, (a (idx 0) j * d j) * h j k) + (d (idx 0) * d (idx 0)) * h (idx 0) k) * wt k (idx 1)) + bb (idx 1)) : ℝ) : EReal)

variable (ha : ∀ p q, V c main_arg1 (ix2 p q) = ((a p q : ℝ) : EReal))
  (hh : ∀ p q, V c main_v3 (ix2 p q) = ((h p q : ℝ) : EReal))
  (hd : ∀ q, V c main_v0 (ix2 (0 : Fin 1) q) = ((d q : ℝ) : EReal))
  (hw : ∀ p q, V c main_v2 (ix2 p q) = ((wt p q : ℝ) : EReal))
  (hb : ∀ q, V c main_v4 (ix2 (0 : Fin 1) q) = ((bb q : ℝ) : EReal))

include ha hh hd in
/-- One term of a contraction tile, as the body multiplies it out of its blocks. -/
theorem tileTerm (t : Fin cfg1.N) (r q : Fin 512) (j : Fin 1024) (p : Fin 8192) (hp : p.val = 512 * (t.val / 8) + r.val) :
    (adjAt V c t (ix2 r j) * dcolAt V c t (ix2 (0 : Fin 1) j))
        * featK V c t (ix2 j q)
      = ((term a h d p q (1024 * (t.val % 8) + j.val) : ℝ) : EReal) := by
  have hlt : 1024 * (t.val % 8) + j.val < 8192 := by have := j.isLt; omega
  refine (congrArg₂ (· * ·) (congrArg₂ (· * ·) (blkAdj_apply V c t r j p ⟨_, hlt⟩ hp rfl) (blkDcol_apply V c t 0 j ⟨_, hlt⟩ rfl))
    (featK_apply V c t j q ⟨_, hlt⟩ rfl)).trans ?_
  rw [ha, hd, hh]
  unfold term
  rw [dif_pos hlt, EReal.coe_mul, EReal.coe_mul]

include ha hh hd in
/-- At k = 0 the accumulator holds the first tile's sum. -/
theorem acc_first (t : Fin cfg1.N) (h0 : t.val % 8 = 0) (r q : Fin 512) (p : Fin 8192) (hp : p.val = 512 * (t.val / 8) + r.val) :
    (trace V c t.val t.isLt).2 (ix2 r q)
      = ((∑ j ∈ Finset.range (1024 * (t.val % 8) + 1024), term a h d p q j : ℝ) : EReal) := by
  have h1 : ¬t.val % 8 = 7 := by omega
  rw [trace_first V c t h0 h1]
  dsimp only
  refine (congrFun (accFirstAt_eq V c t h0 h1) (ix2 r q)).trans ?_
  refine (tileStep_apply (dcolAt V c t) (adjAt V c t) (featK V c t) (k1_pay1 (F := Ideal)) r q).trans ?_
  rw [zeroBlock_apply]
  exact running_add_tile 0 (1024 * (t.val % 8)) (term a h d p q)
    (by rw [h0, Nat.mul_zero, Finset.sum_range_zero, EReal.coe_zero]) _
    (fun j => tileTerm V c a h d ha hh hd t r q j p hp)

include ha hh hd in
/-- At k > 0 the accumulator grows by this tile's sum. -/
theorem acc_step (t : Fin cfg1.N) (h0 : ¬t.val % 8 = 0) (r q : Fin 512) (p : Fin 8192) (hp : p.val = 512 * (t.val / 8) + r.val)
    (ih : (trace V c (t.val - 1) (Nat.lt_of_le_of_lt (Nat.sub_le _ _) t.isLt)).2 (ix2 r q)
      = ((∑ j ∈ Finset.range (1024 * (t.val % 8)), term a h d p q j : ℝ) : EReal)) :
    (trace V c t.val t.isLt).2 (ix2 r q)
      = ((∑ j ∈ Finset.range (1024 * (t.val % 8) + 1024), term a h d p q j : ℝ) : EReal) := by
  by_cases h1 : t.val % 8 = 7
  · rw [trace_last V c t h0 h1]
    dsimp only
    refine (congrFun (accLastAt_eq V c t h0 h1 _) (ix2 r q)).trans ?_
    refine (tileStep_apply (dcolAt V c t) (adjAt V c t) (featK V c t) _ r q).trans ?_
    exact running_add_tile _ (1024 * (t.val % 8)) (term a h d p q) ih _
      (fun j => tileTerm V c a h d ha hh hd t r q j p hp)
  · rw [trace_mid V c t h0 h1]
    dsimp only
    refine (congrFun (accMidAt_eq V c t h0 h1 _) (ix2 r q)).trans ?_
    refine (tileStep_apply (dcolAt V c t) (adjAt V c t) (featK V c t) _ r q).trans ?_
    exact running_add_tile _ (1024 * (t.val % 8)) (term a h d p q) ih _
      (fun j => tileTerm V c a h d ha hh hd t r q j p hp)

include ha hh hd in
/-- THE ACCUMULATOR after position n = 8 · (row tile) + k: the sum over the first 1024 (k + 1) columns. -/
theorem acc_inv : ∀ (n : ℕ) (hn : n < cfg1.N) (r q : Fin 512) (p : Fin 8192), p.val = 512 * (n / 8) + r.val →
    (trace V c n hn).2 (ix2 r q) = ((∑ j ∈ Finset.range (1024 * (n % 8) + 1024), term a h d p q j : ℝ) : EReal)
  | 0, hn, r, q, p, hp => acc_first V c a h d ha hh hd ⟨0, hn⟩ rfl r q p hp
  | m + 1, hn, r, q, p, hp => by
    by_cases h0 : (m + 1) % 8 = 0
    · exact acc_first V c a h d ha hh hd ⟨m + 1, hn⟩ h0 r q p hp
    · refine acc_step V c a h d ha hh hd ⟨m + 1, hn⟩ h0 r q p hp ?_
      have ih := acc_inv m (Nat.lt_of_succ_lt hn) r q p (by omega)
      have e : 1024 * (m % 8) + 1024 = 1024 * ((m + 1) % 8) := by omega
      rw [e] at ih
      exact ih

include ha hh hd hw hb in
/-- At k = 7 the output block holds the closed form at the rows of this row tile. -/
theorem out_last (t : Fin cfg1.N) (h0 : ¬t.val % 8 = 0) (h1 : t.val % 8 = 7) (r o : Fin 512) (p : Fin 8192)
    (hp : p.val = 512 * (t.val / 8) + r.val) :
    (trace V c t.val t.isLt).1 (ix2 r o) = outG a h d wt bb (ix2 p o) := by
  have hacc : ∀ k : Fin 512, k1_pay2 (dcolAt V c t) (adjAt V c t) (featK V c t)
        (trace V c (t.val - 1) (Nat.lt_of_le_of_lt (Nat.sub_le _ _) t.isLt)).2 (ix2 r k)
      = ((∑ j : Fin 8192, (a p j * d j) * h j k : ℝ) : EReal) := fun k => by
    have e := acc_inv V c a h d ha hh hd t.val t.isLt r k p hp
    rw [trace_last V c t h0 h1] at e
    dsimp only at e
    rw [accLastAt_eq] at e
    rw [e, h1]
    refine congrArg _ (running_full 8192 (term a h d p k) _ fun j => ?_)
    unfold term; rw [dif_pos j.isLt]
  rw [trace_last V c t h0 h1]
  dsimp only
  refine (congrFun (outLastAt_eq V c t h0 h1 _) (ix2 r o)).trans ?_
  refine (finish_apply _ (drowAt V c t) (featI V c t ((lastK_iff t).mpr h1)) (wtAt V c t) (biasAt V c t) r o).trans ?_
  have hdrow : drowAt V c t (ix2 (0 : Fin 1) r) = ((d p : ℝ) : EReal) :=
    (blkDrow_apply V c t 0 r p hp).trans (hd p)
  have hfeat : ∀ k : Fin 512, featI V c t ((lastK_iff t).mpr h1) (ix2 r k) = ((h p k : ℝ) : EReal) := fun k =>
    (featI_apply V c t _ r k p hp).trans (hh p k)
  have hwt : ∀ k : Fin 512, wtAt V c t (ix2 k o) = ((wt k o : ℝ) : EReal) := fun k =>
    (blkWt_apply V c t k o).trans (hw k o)
  have hbias : biasAt V c t (ix2 (0 : Fin 1) o) = ((bb o : ℝ) : EReal) :=
    (blkBias_apply V c t 0 o).trans (hb o)
  have e : (∑ k : Fin 512, (drowAt V c t (ix2 (0 : Fin 1) r)
          * k1_pay2 (dcolAt V c t) (adjAt V c t) (featK V c t) (trace V c (t.val - 1) (Nat.lt_of_le_of_lt (Nat.sub_le _ _) t.isLt)).2 (ix2 r k)
        + (drowAt V c t (ix2 (0 : Fin 1) r) * drowAt V c t (ix2 (0 : Fin 1) r))
          * featI V c t ((lastK_iff t).mpr h1) (ix2 r k)) * wtAt V c t (ix2 k o))
      = ∑ k : Fin 512, (((d p : ℝ) : EReal) * ((∑ j : Fin 8192, (a p j * d j) * h j k : ℝ) : EReal)
        + (((d p : ℝ) : EReal) * ((d p : ℝ) : EReal)) * ((h p k : ℝ) : EReal)) * ((wt k o : ℝ) : EReal) :=
    Finset.sum_congr rfl fun k _ => by rw [hdrow, hacc k, hfeat k, hwt k]
  rw [e, hbias]
  exact finish_coe (d p) (fun k => ∑ j : Fin 8192, (a p j * d j) * h j k) (fun k => h p k) (fun k => wt k o) (bb o)

include ha hh hd hw hb in
/-- WHAT A POINT WITH k = 7 WRITES BACK is its block of the closed form. -/
theorem flushed_eq (t : Fin cfg1.N) (hf : (cfg1.win 6).flush t = true) :
    (dat1 V c).flushed 6 t = ((cfg1.win 6).blk t).view.read (Elt Ideal) (outG a h d wt bb) := by
  have h1 : t.val % 8 = 7 := (flush1_6 t).mp hf
  have h0 : ¬t.val % 8 = 0 := by omega
  have hN : t.val < 128 := lt_of_lt_of_eq t.isLt (show cfg1.N = 128 from N_1)
  show (cfg1.win 6).cut (grid1.coords t) ((dat1 V c).after 6 t) = _
  rw [after6]
  funext y
  obtain ⟨r, o, rfl⟩ : ∃ (r o : Fin 512), y = ix2 r o := ⟨y 0, y 1, eq_ix2 y⟩
  rw [View.read_apply]
  have hlt : 512 * (t.val / 8) + r.val < 8192 := by have := r.isLt; omega
  refine (out_last V c a h d wt bb ha hh hd hw hb t h0 h1 r o ⟨_, hlt⟩ rfl).trans ?_
  show outG a h d wt bb _ = outG a h d wt bb _
  refine congrArg (outG a h d wt bb) (funext fun x => Fin.ext ?_)
  match x with
  | ⟨0, _⟩ => show 512 * (t.val / 8) + r.val = win1_6.index t 0 * 512 + 1 * r.val; rw [(idxOut t).1]; omega
  | ⟨1, _⟩ => show o.val = win1_6.index t 1 * 512 + 1 * o.val; rw [(idxOut t).2]; omega

end Value

/-- THE VALUE of the region's output array, entry by entry, when every entry it reads is real. -/
theorem gcn_value (V : (c : Dev nD) → (b : Ref sig .tc) → Buf (Elt Ideal) ((c : Thread nD τ).loc b)) (c : Dev nD)
    (a : Fin 8192 → Fin 8192 → ℝ) (h : Fin 8192 → Fin 512 → ℝ) (d : Fin 8192 → ℝ) (wt : Fin 512 → Fin 512 → ℝ) (bb : Fin 512 → ℝ)
    (ha : ∀ p q, V c main_arg1 (ValueIdx.ix2 p q) = ((a p q : ℝ) : EReal)) (hh : ∀ p q, V c main_v3 (ValueIdx.ix2 p q) = ((h p q : ℝ) : EReal))
    (hd : ∀ q, V c main_v0 (ValueIdx.ix2 (0 : Fin 1) q) = ((d q : ℝ) : EReal)) (hw : ∀ p q, V c main_v2 (ValueIdx.ix2 p q) = ((wt p q : ℝ) : EReal))
    (hb : ∀ q, V c main_v4 (ValueIdx.ix2 (0 : Fin 1) q) = ((bb q : ℝ) : EReal)) (i : Fin 8192) (o : Fin 512) :
    (dat1 V c).arrAt 6 cfg1.N (ValueIdx.ix2 i o)
      = ((Real.tanh ((∑ k : Fin 512, (d i * (∑ j : Fin 8192, (a i j * d j) * h j k) + (d i * d i) * h i k) * wt k o) + bb o) : ℝ) : EReal) := by
  have hN : cfg1.N = 128 := N_1
  obtain ⟨t, ht⟩ : ∃ t : Fin cfg1.N, t.val = 8 * (i.val / 512) + 7 :=
    ⟨⟨8 * (i.val / 512) + 7, by rw [hN]; have := i.isLt; omega⟩, rfl⟩
  have hf : (cfg1.win 6).flush t = true := (flush1_6 t).mpr (by rw [ht]; omega)
  refine ((dat1 V c).arrAt_apply_of_mem 6 (outG a h d wt bb) (fun t hf => flushed_eq V c a h d wt bb ha hh hd hw hb t hf)
    cfg1.N t (ix2 i o) t.isLt hf ?_).trans rfl
  show ix2 i o ∈ ((View.whole main_v5).slice (win1_6.rect t)).set
  rw [View.set_slice_whole, Rect.mem_set_unit]
  intro x
  match x with
  | ⟨0, _⟩ =>
    show win1_6.index t 0 * 512 ≤ i.val ∧ i.val < win1_6.index t 0 * 512 + 512
    rw [(idxOut t).1, ht]; omega
  | ⟨1, _⟩ =>
    show win1_6.index t 1 * 512 ≤ o.val ∧ o.val < win1_6.index t 1 * 512 + 512
    rw [(idxOut t).2]; have := o.isLt; omega

end Cert.KernelIdeal.Gcn

end
-- ==== Proof.RunValue.lean ====
/-
  What the two regions find in the arrays at their boundaries, read entry by entry on the extended reals. Between
  the regions the host transposes the weight, changes the format of the weight and of the features (the identity
  on the extended reals) and reshapes the bias to one row; it writes neither the adjacency matrix nor the array of
  normalising factors, so region 1 finds the first as launched and the second as region 0's write-backs left it.
-/
import proofs.«104315_j2027224564458_2_alg».proof.Proof.Run
import Idealize.ShloMosaic.Lib.StableHlo.Run
import Idealize.ShloMosaic.Lib.ValueLayout
import Idealize.ShloMosaic.PureOps.Ideal

set_option maxRecDepth 16384

noncomputable section

namespace Cert.KernelIdeal.RunValue

open Cert.KernelIdeal Cert.KernelIdeal.Gen Cert.KernelIdeal.Run
open Idealize.ShloMosaic Idealize.ShloMosaic.TcCoe Idealize.ShloMosaic.ValueIdx Idealize.SL.Sem

variable (R0 : DegRegion Ideal) (m : (ℓ : Loc nD τ sig) → Buf (Elt Ideal) ℓ) (c : Dev nD)

/-- An array the host stretch does not write enters region 1 as region 0 left it. -/
theorem E2_of_not_written (b : Ref sig .tc) (hb : b ∉ hostOps1_W) : E2 R0 m c b = W1 R0 m c b :=
  StableHlo.after_of_writes_sub hostOps1 _ hostOps1_writes hb

/-- The adjacency matrix enters region 1 as launched. -/
theorem E2_arg1 : E2 R0 m c main_arg1 = m ((c : Thread nD τ).loc main_arg1) :=
  (E2_of_not_written R0 m c main_arg1 (by decide)).trans ((W1_of_ne R0 m c main_arg1 (by decide)).trans rfl)

/-- The factors' array enters region 1 as region 0's write-backs left it. -/
theorem E2_v0 : E2 R0 m c main_v0 = (R0.dat (E0 m) c).arrAt 1 cfg0.N :=
  (E2_of_not_written R0 m c main_v0 (by decide)).trans (W1_v0 R0 m c)

/-- The features in the narrower format are the features: a change of format is the identity on the extended reals. -/
theorem E2_v3 (p : Fin 8192) (q : Fin 512) :
    E2 R0 m c main_v3 (ix2 p q) = m ((c : Thread nD τ).loc main_arg0) (ix2 p q) := by
  have e : (E2 R0 m c main_v3 : S8192x512.Idx → EReal)
      = truncf (F := Ideal) .bf16 (W1 R0 m c main_arg0 : FVec Ideal S8192x512 .f32) bitsLt_bf16_f32 := by
    show StableHlo.after hostOps1 (W1 R0 m c) (Proc.devRef .tc main_v3) = _
    dsimp only [hostOps1]
    after_results
  rw [e, W1_of_ne R0 m c main_arg0 (by decide)]
  rfl

/-- The transposed weight in the narrower format, at (k, o), is the weight at (o, k). -/
theorem E2_v2 (k o : Fin 512) :
    E2 R0 m c main_v2 (ix2 k o) = m ((c : Thread nD τ).loc main_arg2) (ix2 o k) := by
  have e : (E2 R0 m c main_v2 : S512x512.Idx → EReal)
      = truncf (F := Ideal) .bf16 (transpose S512x512 [1, 0] (W1 R0 m c main_arg2 : FVec Ideal S512x512 .f32)
          transposes_S512x512_S512x512_1_0) bitsLt_bf16_f32 := by
    show StableHlo.after hostOps1 (W1 R0 m c) (Proc.devRef .tc main_v2) = _
    dsimp only [hostOps1]
    after_results
  rw [e, W1_of_ne R0 m c main_arg2 (by decide)]
  show transpose S512x512 [1, 0] (W0 m c main_arg2 : FVec Ideal S512x512 .f32) transposes_S512x512_S512x512_1_0 (ix2 k o) = _
  exact transpose_apply [1, 0] _ transposes_S512x512_S512x512_1_0 (ix2 k o) (ix2 o k) (fun b => match b with
    | ⟨0, _⟩ => rfl
    | ⟨1, _⟩ => rfl)

/-- The bias reshaped to one row, at (0, q), is the bias at q. -/
theorem E2_v4 (q : Fin 512) :
    E2 R0 m c main_v4 (ix2 (0 : Fin 1) q) = m ((c : Thread nD τ).loc main_arg3) (ix1 q) := by
  have e : (E2 R0 m c main_v4 : S1x512.Idx → EReal)
      = shapeCast S1x512 (W1 R0 m c main_arg3 : FVec Ideal S512 .f32) shapeCasts_S512_S1x512 := by
    show StableHlo.after hostOps1 (W1 R0 m c) (Proc.devRef .tc main_v4) = _
    dsimp only [hostOps1]
    after_results
    rfl
  rw [e, W1_of_ne R0 m c main_arg3 (by decide)]
  exact shapeCast_a_1a_apply _ shapeCasts_S512_S1x512 (0 : Fin 1) q

end Cert.KernelIdeal.RunValue

end
-- ==== Proof.RefValue.lean ====
import proofs.«104315_j2027224564458_2_alg».proof.Defs
import proofs.«104315_j2027224564458_2_alg».proof.Proof.Gen.ReferenceIdeal.Read
import proofs.«104315_j2027224564458_2_alg».proof.Proof.Spec
import proofs.«104315_j2027224564458_2_alg».proof.Proof.SpecLaws

/-
  The reference program's result, entry by entry, on real inputs. Stage by stage: the comparison of the row and
  column numbers converted to a float is the identity matrix, so the first sum is the adjacency matrix with
  self-loops; its column sums are the degrees; the power -1/2 with infinities replaced by zero is the normalising
  factor `dR` (a real, so the replacement never fires); the two broadcasts scale row i by d i and column j by d j;
  the first contraction gives the propagated features with the self-loop folded into the matrix; the transpose and
  the second contraction apply the weight as given ([out, in]); the bias row is added and tanh taken. All values
  are real, so every coercion moves outwards and the statement closes on the reals.
-/

noncomputable section

namespace Cert.ReferenceIdeal.RefValue

open Cert.ReferenceIdeal Cert.ReferenceIdeal.Gen Cert.ReferenceIdeal.Read Idealize.ShloMosaic Idealize.ShloMosaic.ValueIdx
open Cert.GcnSpec
open scoped BigOperators

/-- The coercion of a finite sum of reals is the sum of the coercions. -/
theorem coe_sum {ι : Type} (s : Finset ι) (f : ι → ℝ) :
    ((∑ i ∈ s, f i : ℝ) : EReal) = ∑ i ∈ s, ((f i : ℝ) : EReal) := by
  classical
  refine Finset.induction_on s (by simp) fun a s ha ih => ?_
  rw [Finset.sum_insert ha, Finset.sum_insert ha, EReal.coe_add, ih]

/-- Row number equal to column number, as a float: the identity matrix. -/
theorem eye_apply (p q : Fin 8192) :
    val_main_v5 (F := Ideal) (ix2 p q) = (((if p = q then 1 else 0 : ℝ)) : EReal) := by
  rw [val_main_v5_apply, val_main_v4_apply, val_main_v3_apply, val_main_v0_apply, val_main_v1_apply,
    val_main_v2_apply, val_main_c_apply]
  show (((IntOp.cmpi .eq (IntOp.addi (BitVec.ofNat 32 p.val) 0#32) (BitVec.ofNat 32 q.val)).toNat : ℝ) : EReal) = _
  have hp := p.isLt
  have hq := q.isLt
  by_cases h : p = q
  · subst h
    have e : IntOp.cmpi .eq (IntOp.addi (BitVec.ofNat 32 p.val) 0#32) (BitVec.ofNat 32 p.val) = 1#1 :=
      IntOp.cmpi_eq.2 (by simp [IntOp.addi])
    rw [e, if_pos rfl]
    simp
  · have e : IntOp.cmpi .eq (IntOp.addi (BitVec.ofNat 32 p.val) 0#32) (BitVec.ofNat 32 q.val) = 0#1 := by
      refine eq_zero_of_ne_one fun e => h (Fin.ext ?_)
      have e1 := congrArg BitVec.toNat (IntOp.cmpi_eq.1 e)
      simp only [IntOp.addi, BitVec.add_zero, BitVec.toNat_ofNat] at e1
      omega
    rw [e, if_neg h]
    simp

section
variable (x0 : (⟨S8192x512, .f32⟩ : BufTy).Contents (Elt Ideal)) (x1 : (⟨S8192x8192, .f32⟩ : BufTy).Contents (Elt Ideal))
  (x2 : (⟨S512x512, .f32⟩ : BufTy).Contents (Elt Ideal)) (x3 : (⟨S512, .f32⟩ : BufTy).Contents (Elt Ideal))
  (h : Fin 8192 → Fin 512 → ℝ) (a : Fin 8192 → Fin 8192 → ℝ) (w : Fin 512 → Fin 512 → ℝ) (bb : Fin 512 → ℝ)

/-- The adjacency matrix with self-loops. -/
theorem adjLoops_apply (ha : ∀ p q, x1 (ix2 p q) = ((a p q : ℝ) : EReal)) (p q : Fin 8192) :
    val_main_v6 (F := Ideal) x1 (ix2 p q) = (((a p q + if p = q then 1 else 0 : ℝ)) : EReal) := by
  rw [val_main_v6_apply, eye_apply, ha, Ideal.addf_def, ← EReal.coe_add]

/-- The column sums of the matrix with self-loops are the degrees. -/
theorem deg_apply (ha : ∀ p q, x1 (ix2 p q) = ((a p q : ℝ) : EReal)) (j : Fin 8192) :
    val_main_v7 (F := Ideal) x1 (ix1 j) = ((degR a j : ℝ) : EReal) := by
  have hidx : ∀ k : Fin 8192, idx_main_v7 (ix1 j) k = ix2 k j := fun k =>
    funext fun d => by match d with | ⟨0, _⟩ => rfl | ⟨1, _⟩ => rfl
  rw [val_main_v7_apply, val_main_cst_apply]
  simp only [hidx, adjLoops_apply x1 a ha]
  rw [Ideal.ofBits_def, Ideal.ofBits_zero_f32, zero_add, ← coe_sum]
  refine congrArg _ ?_
  unfold degR
  rw [Finset.sum_add_distrib, Finset.sum_ite_eq' Finset.univ j (fun _ => (1 : ℝ)), if_pos (Finset.mem_univ j)]

/-- The degree to the power -1/2, infinities replaced by zero, is the normalising factor. -/
theorem dvec_apply (ha : ∀ p q, x1 (ix2 p q) = ((a p q : ℝ) : EReal)) (j : Fin 8192) :
    val_main_v11 (F := Ideal) x1 (ix1 j) = ((dR a j : ℝ) : EReal) := by
  rw [val_main_v11_apply, val_main_v10_apply, val_main_call0_v0_apply, val_main_v9_apply, deg_apply x1 a ha,
    val_main_v8_apply, val_main_cst_0_apply, val_main_call0_v1_apply, val_main_call0_cst_apply,
    val_main_call1_v1_apply, val_main_call1_v0_apply, val_main_cst_1_apply]
  exact where_isinf_pow (degR a j)

/-- Rows scaled by d i, columns by d j. -/
theorem normAdj_apply (ha : ∀ p q, x1 (ix2 p q) = ((a p q : ℝ) : EReal)) (p q : Fin 8192) :
    val_main_v17 (F := Ideal) x1 (ix2 p q)
      = ((((dR a p * (a p q + if p = q then 1 else 0)) * dR a q : ℝ)) : EReal) := by
  have hrow : idx_main_v12 (idx_main_v13 (ix2 p q)) = ix1 p := funext fun d => by match d with | ⟨0, _⟩ => rfl
  have hcol : idx_main_v15 (idx_main_v16 (ix2 p q)) = ix1 q := funext fun d => by match d with | ⟨0, _⟩ => rfl
  rw [val_main_v17_apply, val_main_v14_apply, val_main_v13_apply, val_main_v12_apply, hrow, val_main_v16_apply,
    val_main_v15_apply, hcol, dvec_apply x1 a ha p, dvec_apply x1 a ha q, adjLoops_apply x1 a ha,
    Ideal.mulf_def, Ideal.mulf_def, ← EReal.coe_mul, ← EReal.coe_mul]

/-- The first contraction: the propagated features, self-loop folded into the matrix. -/
theorem hm_apply (hh : ∀ p q, x0 (ix2 p q) = ((h p q : ℝ) : EReal))
    (ha : ∀ p q, x1 (ix2 p q) = ((a p q : ℝ) : EReal)) (i : Fin 8192) (k : Fin 512) :
    val_main_v18 (F := Ideal) x0 x1 (ix2 i k) = ((hmFolded a (dR a) h i k : ℝ) : EReal) := by
  have hl : ∀ j : Fin 8192, lidx_main_v18 (ix2 i k) j = ix2 i j := fun j =>
    funext fun d => by match d with | ⟨0, _⟩ => rfl | ⟨1, _⟩ => rfl
  have hr : ∀ j : Fin 8192, ridx_main_v18 (ix2 i k) j = ix2 j k := fun j =>
    funext fun d => by match d with | ⟨0, _⟩ => rfl | ⟨1, _⟩ => rfl
  rw [val_main_v18_apply]
  simp only [hl, hr, normAdj_apply x1 a ha, hh, ← EReal.coe_mul]
  rw [← coe_sum]
  rfl

/-- The second contraction, against the transposed weight. -/
theorem lin_apply (hh : ∀ p q, x0 (ix2 p q) = ((h p q : ℝ) : EReal))
    (ha : ∀ p q, x1 (ix2 p q) = ((a p q : ℝ) : EReal)) (hw : ∀ p q, x2 (ix2 p q) = ((w p q : ℝ) : EReal))
    (i : Fin 8192) (o : Fin 512) :
    val_main_v20 (F := Ideal) x0 x1 x2 (ix2 i o)
      = ((∑ k : Fin 512, hmFolded a (dR a) h i k * w o k : ℝ) : EReal) := by
  have hl : ∀ k : Fin 512, lidx_main_v20 (ix2 i o) k = ix2 i k := fun k =>
    funext fun d => by match d with | ⟨0, _⟩ => rfl | ⟨1, _⟩ => rfl
  have hr : ∀ k : Fin 512, idx_main_v19 (ridx_main_v20 (ix2 i o) k) = ix2 o k := fun k =>
    funext fun d => by match d with | ⟨0, _⟩ => rfl | ⟨1, _⟩ => rfl
  rw [val_main_v20_apply]
  simp only [val_main_v19_apply, hl, hr, hm_apply x0 x1 h a hh ha, hw, ← EReal.coe_mul]
  rw [← coe_sum]

/-- The reference's result at entry (i, o) is the read-out of the propagated features. -/
theorem ref_value (hh : ∀ p q, x0 (ix2 p q) = ((h p q : ℝ) : EReal))
    (ha : ∀ p q, x1 (ix2 p q) = ((a p q : ℝ) : EReal)) (hw : ∀ p q, x2 (ix2 p q) = ((w p q : ℝ) : EReal))
    (hbb : ∀ q, x3 (ix1 q) = ((bb q : ℝ) : EReal)) (i : Fin 8192) (o : Fin 512) :
    val_main_v24 (F := Ideal) x0 x1 x2 x3 (ix2 i o)
      = ((readout (hmFolded a (dR a) h) w bb i o : ℝ) : EReal) := by
  have hb : idx_main_v21 (idx_main_v22 (ix2 i o)) = ix1 o := funext fun d => by match d with | ⟨0, _⟩ => rfl
  rw [val_main_v24_apply, val_main_v23_apply, lin_apply x0 x1 x2 h a w hh ha hw, val_main_v22_apply,
    val_main_v21_apply, hb, hbb, Ideal.addf_def, ← EReal.coe_add, Ideal.hostUnary_tanh_def, Ideal.tanh_coe]
  rfl

/-- The same, as one function of the index. -/
theorem ref_value_fun (hh : ∀ p q, x0 (ix2 p q) = ((h p q : ℝ) : EReal))
    (ha : ∀ p q, x1 (ix2 p q) = ((a p q : ℝ) : EReal)) (hw : ∀ p q, x2 (ix2 p q) = ((w p q : ℝ) : EReal))
    (hbb : ∀ q, x3 (ix1 q) = ((bb q : ℝ) : EReal)) :
    val_main_v24 (F := Ideal) x0 x1 x2 x3
      = fun j : S8192x512.Idx => ((readout (hmFolded a (dR a) h) w bb (j 0) (j 1) : ℝ) : EReal) := by
  funext j
  obtain ⟨p, q, rfl⟩ : ∃ (p : Fin 8192) (q : Fin 512), j = ix2 p q := ⟨j 0, j 1, eq_ix2 j⟩
  exact ref_value x0 x1 x2 x3 h a w bb hh ha hw hbb p q

end

end Cert.ReferenceIdeal.RefValue

end
-- ==== Proof.Finite.lean ====
/-
  From the finiteness precondition to real matrices. The precondition is the conjunction, over the four argument
  arrays, of "every entry has absolute value strictly below +∞". On the extended reals |x| < +∞ excludes both
  infinities, so every entry is the coercion of a real number; choosing those reals entry by entry gives the four
  real arrays the value proofs are stated over.
-/
import proofs.«104315_j2027224564458_2_alg».proof.Pre_finite_inputs
import Idealize.ShloMosaic.PureOps.Ideal
import Idealize.ShloMosaic.Lib.ReduceAll
import Idealize.ShloMosaic.Lib.ValueIdx

noncomputable section

namespace Cert.Finite

open Idealize.ShloMosaic Cert.Pre_finite_inputs

/-- The rank-zero shape has exactly one index. -/
instance subsingleton_scalar_idx : Subsingleton S_.Idx := ⟨fun _ _ => funext fun d => d.elim0⟩

/-- An extended real whose absolute value compares strictly below the pattern of +∞ is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have hinf : Ideal.ofBits .f32 0x7F800000#32 = ⊤ := by simp [Ideal.ofBits, Ideal.ieee]
  change Ideal.cmp .olt (max x (-x)) (Ideal.ofBits .f32 0x7F800000#32) = 1#1 at h
  rw [hinf] at h
  induction x using EReal.rec with
  | bot => exact absurd h (by simp [Ideal.cmp])
  | coe r => exact ⟨r, rfl⟩
  | top => exact absurd h (by simp [Ideal.cmp])

/-- One array's conjunct of the precondition, read at an entry. -/
theorem entry_real {s : Shape} (x : FVec Ideal s .f32) (hb : S_.BroadcastsInDim s (![] : Fin 0 → Fin s.rank))
    {axes : List (Fin s.rank)} (hr : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) hr hu j = 1#1) (i : s.Idx) : ∃ r : ℝ, x i = (r : EReal) :=
  real_of_abs_lt_inf (x i) (Host.reduce_andi_all _ _ hr hu j e i)

variable [Facts]
open Facts

/-- Under the finiteness precondition the four argument arrays are real matrices (the features, the adjacency
    matrix, the weight, the bias). -/
theorem reals_of_pre (x0 : FVec Ideal S8192x512 .f32) (x1 : FVec Ideal S8192x8192 .f32) (x2 : FVec Ideal S512x512 .f32)
    (x3 : FVec Ideal S512 .f32)
    (hpre : Cert.Pre_finite_inputs.fn (F := Ideal) x0 x1 x2 x3 = fun _ => 1#1) :
    ∃ (h : Fin 8192 → Fin 512 → ℝ) (a : Fin 8192 → Fin 8192 → ℝ) (w : Fin 512 → Fin 512 → ℝ) (bb : Fin 512 → ℝ),
      (∀ p q, x0 (ValueIdx.ix2 p q) = ((h p q : ℝ) : EReal)) ∧ (∀ p q, x1 (ValueIdx.ix2 p q) = ((a p q : ℝ) : EReal))
      ∧ (∀ p q, x2 (ValueIdx.ix2 p q) = ((w p q : ℝ) : EReal)) ∧ (∀ q, x3 (ValueIdx.ix1 q) = ((bb q : ℝ) : EReal)) := by
  have h := congrFun hpre ValueIdx.ix0
  dsimp only [fn, fn_part1] at h
  obtain ⟨h012, h3⟩ := IntOp.andi_eq_one.1 h
  obtain ⟨h01, h2⟩ := IntOp.andi_eq_one.1 h012
  obtain ⟨h0, h1⟩ := IntOp.andi_eq_one.1 h01
  choose hh hhe using fun p q => entry_real x0 _ _ _ _ h0 (ValueIdx.ix2 p q)
  choose aa aae using fun p q => entry_real x1 _ _ _ _ h1 (ValueIdx.ix2 p q)
  choose ww wwe using fun p q => entry_real x2 _ _ _ _ h2 (ValueIdx.ix2 p q)
  choose bb bbe using fun q => entry_real x3 _ _ _ _ h3 (ValueIdx.ix1 q)
  exact ⟨hh, aa, ww, bb, hhe, aae, wwe, bbe⟩

end Cert.Finite

end
-- ==== Proof.lean ====
/-
  A graph-convolution layer, out = tanh(Â · H · Wᵀ + b) with Â = D^(-1/2) (A + I) D^(-1/2) and D the column
  degrees of A + I, computed by two pipelined kernels (the degrees' inverse square roots; then the propagation,
  the linear layer and the tanh fused, the self-loop added as a diagonal term d_i² · H_i) against the plain
  formula with the self-loop folded into the matrix.

  The three frames: each kernel program runs as two regions around a stretch of host operations, every region's
  body a running sum kept in a scratch buffer across the grid's reduction axis; the reference is a line of host
  operations. The idealization rewrote nothing. On finite inputs every value is a real number, the degree's power
  -1/2 and the guarded reciprocal square root are one function of a real degree (zero where it is not positive),
  and the two arrangements of the propagation agree by distributing the product over a_ij + δ_ij.
-/
import proofs.«104315_j2027224564458_2_alg».proof.Defs
import proofs.«104315_j2027224564458_2_alg».proof.Proof.Gen.Kernel
import proofs.«104315_j2027224564458_2_alg».proof.Proof.Gen.KernelIdeal
import proofs.«104315_j2027224564458_2_alg».proof.Proof.Gen.ReferenceIdeal
import proofs.«104315_j2027224564458_2_alg».proof.Proof.Gen.Pre_finite_inputs
import proofs.«104315_j2027224564458_2_alg».proof.Proof.Gen.ReferenceIdeal.Run
import proofs.«104315_j2027224564458_2_alg».proof.Proof.Regions
import proofs.«104315_j2027224564458_2_alg».proof.Proof.KRegions
import proofs.«104315_j2027224564458_2_alg».proof.Proof.DegValue
import proofs.«104315_j2027224564458_2_alg».proof.Proof.GcnValue
import proofs.«104315_j2027224564458_2_alg».proof.Proof.RunValue
import proofs.«104315_j2027224564458_2_alg».proof.Proof.RefValue
import proofs.«104315_j2027224564458_2_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem
open Cert.KernelIdeal Cert.KernelIdeal.Gen Cert.KernelIdeal.Run Cert.KernelIdeal.Regions Cert.GcnSpec

/-- The word-level program runs, faults nowhere and leaves its arguments unchanged. -/
theorem frame_kernel : Cert.frame_Kernel := fun m ρ _ => Cert.Kernel.Regions.frame m ρ
/-- So does its idealization. -/
theorem frame_kernelIdeal : Cert.frame_KernelIdeal := fun m ρ _ => Cert.KernelIdeal.Regions.frame m ρ
/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)
/-- The idealization rewrote no operation. -/
theorem preserves : Cert.preserves_Kernel_KernelIdeal := trivial

/-- On finite inputs the result array the kernel leaves is the reference's last stage of the same arguments: both
    are tanh of the propagated features times the transposed weight plus the bias, the self-loop folded into the
    adjacency matrix or added as a diagonal term. -/
theorem kernel_value (m : (ℓ : Loc nD τ sig) → Buf (Elt Ideal) ℓ) (hpre : Cert.Pre_KernelIdeal m) (c : Dev nD) :
    ((gcnRegion (F := Ideal)).dat (E2 degRegion m) c).arrAt 6 cfg1.N
      = Cert.ReferenceIdeal.Read.val_main_v24 (F := Ideal) (m ((c.tc : Thread nD τ).loc main_arg0)) (m ((c.tc : Thread nD τ).loc main_arg1))
          (m ((c.tc : Thread nD τ).loc main_arg2)) (m ((c.tc : Thread nD τ).loc main_arg3)) := by
  obtain ⟨h, a, w, bb, hh, ha, hw, hbb⟩ := Cert.Finite.reals_of_pre _ _ _ _ (hpre c)
  rw [Cert.ReferenceIdeal.RefValue.ref_value_fun _ _ _ _ h a w bb hh ha hw hbb]
  funext j
  obtain ⟨i, o, rfl⟩ : ∃ (i : Fin 8192) (o : Fin 512), j = ix2 i o := ⟨j 0, j 1, eq_ix2 j⟩
  refine (Cert.KernelIdeal.Gcn.gcn_value (E2 degRegion m) c a h (dR a) (fun k o => w o k) bb ?_ ?_ ?_ ?_ ?_ i o).trans ?_
  · intro p q; rw [Cert.KernelIdeal.RunValue.E2_arg1]; exact ha p q
  · intro p q; rw [Cert.KernelIdeal.RunValue.E2_v3]; exact hh p q
  · intro q; rw [Cert.KernelIdeal.RunValue.E2_v0]
    exact Cert.KernelIdeal.Deg.deg_value (E0 m) c a (fun p q => ha p q) q
  · intro p q; rw [Cert.KernelIdeal.RunValue.E2_v2]; exact hw q p
  · intro q; rw [Cert.KernelIdeal.RunValue.E2_v4]; exact hbb q
  · show _ = ((readout (hmFolded a (dR a) h) w bb i o : ℝ) : EReal)
    unfold readout
    simp only [hmFolded_eq_hmSplit]
    rfl

/-- At the extended reals, from memories agreeing on the arguments, both programs run and end with the same result
    array: the reference's last stage of the arguments. -/
theorem algebraic : Cert.algebraic_KernelIdeal_ReferenceIdeal := by
  intro m ρ m' ρ' hpre hagree
  refine ⟨fun c => Cert.ReferenceIdeal.Read.val_main_v24 (F := Ideal) (m ((c.tc : Thread nD τ).loc main_arg0)) (m ((c.tc : Thread nD τ).loc main_arg1))
      (m ((c.tc : Thread nD τ).loc main_arg2)) (m ((c.tc : Thread nD τ).loc main_arg3)), ?_, ?_⟩
  · refine (θ_run Cert.KernelIdeal.defs _ _).mono (fun r h c => ⟨?_, ?_⟩) (Cert.KernelIdeal.Run.run (degRegion (F := Ideal)) gcnRegion m ρ)
    · exact (Cert.KernelIdeal.Run.result degRegion gcnRegion m r h c).trans (kernel_value m hpre c)
    · exact ⟨(h c _ (mem_uc main_arg0 (by decide))).trans (W3_kept degRegion gcnRegion m c main_arg0 (by decide) (by decide) (by decide)),
        (h c _ (mem_uc main_arg1 (by decide))).trans (W3_kept degRegion gcnRegion m c main_arg1 (by decide) (by decide) (by decide)),
        (h c _ (mem_uc main_arg2 (by decide))).trans (W3_kept degRegion gcnRegion m c main_arg2 (by decide) (by decide) (by decide)),
        (h c _ (mem_uc main_arg3 (by decide))).trans (W3_kept degRegion gcnRegion m c main_arg3 (by decide) (by decide) (by decide))⟩
  · refine (θ_run Cert.ReferenceIdeal.defs _ _).mono (fun r h c => ⟨?_, (h c).2⟩) (Cert.ReferenceIdeal.Value.run (F := Ideal) m' ρ')
    rw [(h c).1, (hagree c).1, (hagree c).2.1, (hagree c).2.2.1, (hagree c).2.2.2]
    exact Cert.ReferenceIdeal.Read.val_main_v24_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
